-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S100000x128 : Shape := ⟨2, ![100000, 128]⟩
abbrev S16384 : Shape := ⟨1, ![16384]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S100000x128 .f32) (main_arg1 : IVec S16384 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_c_0 : IVec S_ 32 := constantI S_ 32 0#32
  let main_v4 : IVec S16384 32 := broadcastInDim S16384 ![] bcast_S_S16384 main_c_0
  let main_v5 : IVec S16384 1 := cmpi .sge main_arg1 main_v4
  let main_c_1 : IVec S_ 32 := constantI S_ 32 99999#32
  let main_v6 : IVec S16384 32 := broadcastInDim S16384 ![] bcast_S_S16384 main_c_1
  let main_v7 : IVec S16384 1 := cmpi .sle main_arg1 main_v6
  let main_v8 : IVec S16384 1 := andi main_v5 main_v7
  let main_c_2 : IVec S_ 1 := constantI S_ 1 1#1
  let main_v9 : IVec S_ 1 := (fun x v => Host.reduce IntOp.andi x v reducesTo_S16384_S_d0 h_S_) main_v8 main_c_2
  let main_v10 : IVec S_ 1 := andi main_v3 main_v9
  main_v10
-- ==== Kernel.lean ====
abbrev S100000x128 : Shape := ⟨2, ![100000, 128]⟩
abbrev S16384 : Shape := ⟨1, ![16384]⟩
abbrev S32x4x128 : Shape := ⟨3, ![32, 4, 128]⟩
abbrev S16384x128 : Shape := ⟨2, ![16384, 128]⟩
abbrev S4x128 : Shape := ⟨2, ![4, 128]⟩
abbrev S512x128 : Shape := ⟨2, ![512, 128]⟩
abbrev S_ : Shape := ⟨0, ![]⟩
abbrev S1x4x128 : Shape := ⟨3, ![1, 4, 128]⟩
abbrev S128x128 : Shape := ⟨2, ![128, 128]⟩
abbrev S1x128 : Shape := ⟨2, ![1, 128]⟩
abbrev S128 : Shape := ⟨1, ![128]⟩

abbrev nBuf : Table → Nat
  | .hbm => 4
  | .local .scVector .vmem => 2
  | _ => 0

abbrev bufTy : (tb : Table) → Fin (nBuf tb) → BufTy
  | .hbm, ⟨0, _⟩ => ⟨S100000x128, .f32⟩
  | .hbm, ⟨1, _⟩ => ⟨S16384, .i32⟩
  | .hbm, ⟨2, _⟩ => ⟨S32x4x128, .i32⟩
  | .hbm, ⟨3, _⟩ => ⟨S16384x128, .f32⟩
  | .local .scVector .vmem, ⟨0, _⟩ => ⟨S4x128, .i32⟩
  | .local .scVector .vmem, ⟨1, _⟩ => ⟨S512x128, .f32⟩
  | _, _ => ⟨S100000x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => false
  | ⟨3, _⟩ => false
  | ⟨4, _⟩ => false
  | ⟨5, _⟩ => false
  | ⟨6, _⟩ => false
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_arg0_scv : Ref sig .scVector := ⟨.hbm, 0, rfl⟩
abbrev main_v0_scv : Ref sig .scVector := ⟨.hbm, 2, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_94_r0 : BitVec 32 := 0#32
  let c0_i32_95_r0 : BitVec 32 := 0#32
  ![v1.toNat, 0, 0]
def k0_off2 (i : grid0.Coords) (c0_i32_24 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v23 : BitVec 32 := Scalar.addi v2 c0_i32_24
  let c0_i32_27 : BitVec 32 := 0#32
  ![v23.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S16384_S32x4x128 : S16384.ShapeCasts S32x4x128
  squeezes_S1x4x128_S4x128 : S1x4x128.Squeezes S4x128
  inb_S512x128_S128x128_0_0 : ∀ a, (![0, 0] : Fin 2 → Nat) a + S128x128.size a ≤ S512x128.size a
  inb_S4x128_S1x128_0_0 : ∀ a, (![0, 0] : Fin 2 → Nat) a + S1x128.size a ≤ S4x128.size a
  squeezes_S1x128_S128 : S1x128.Squeezes S128
  inb_S100000x128_S100000x128_0_0 : ∀ a, (![0, 0] : Fin 2 → Nat) a + S100000x128.size a ≤ S100000x128.size a
  gathers_S100000x128_S128x128 : S100000x128.Gathers 0 S128x128
  inb_S512x128_S128x128_128_0 : ∀ a, (![128, 0] : Fin 2 → Nat) a + S128x128.size a ≤ S512x128.size a
  inb_S4x128_S1x128_1_0 : ∀ a, (![1, 0] : Fin 2 → Nat) a + S1x128.size a ≤ S4x128.size a
  inb_S512x128_S128x128_256_0 : ∀ a, (![256, 0] : Fin 2 → Nat) a + S128x128.size a ≤ S512x128.size a
  inb_S4x128_S1x128_2_0 : ∀ a, (![2, 0] : Fin 2 → Nat) a + S1x128.size a ≤ S4x128.size a
  inb_S512x128_S128x128_384_0 : ∀ a, (![384, 0] : Fin 2 → Nat) a + S128x128.size a ≤ S512x128.size a
  inb_S4x128_S1x128_3_0 : ∀ a, (![3, 0] : Fin 2 → Nat) a + S1x128.size a ≤ S4x128.size a
  hcc0_scratch2 : 0 + S_.numel ≤ 7
  hcc0_scratch3 : 1 + S_.numel ≤ 7
  hcc0_scratch4 : 2 + S_.numel ≤ 7
  hcc0_scratch5 : 3 + S_.numel ≤ 7
  hcc0_scratch6 : 4 + S_.numel ≤ 7
  hcc0_scratch7 : 5 + S_.numel ≤ 7
  hcc0_scoped0 : 6 + S_.numel ≤ 7
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S1x4x128.size a ≤ S32x4x128.size a
  k0_off2_inb : ∀ i : grid0.Coords, ∀ (r : Fin 4), ∀ a, (k0_off2 i (BitVec.ofNat 32 (128 * r.val))) a + S128x128.size a ≤ S16384x128.size a

variable [Facts₀]

abbrev cc0_scratch2 : DmaSems sig S_ := SemArray.consecutive 0 S_ hcc0_scratch2
abbrev cc0_scratch3 : DmaSems sig S_ := SemArray.consecutive 1 S_ hcc0_scratch3
abbrev cc0_scratch4 : DmaSems sig S_ := SemArray.consecutive 2 S_ hcc0_scratch4
abbrev cc0_scratch5 : DmaSems sig S_ := SemArray.consecutive 3 S_ hcc0_scratch5
abbrev cc0_scratch6 : DmaSems sig S_ := SemArray.consecutive 4 S_ hcc0_scratch6
abbrev cc0_scratch7 : DmaSems sig S_ := SemArray.consecutive 5 S_ hcc0_scratch7
abbrev cc0_scoped0 : DmaSems sig S_ := SemArray.consecutive 6 S_ hcc0_scoped0

class Facts : Prop extends Facts₀ where

variable [Facts]
-- ==== ReferenceIdeal.lean ====
abbrev S100000x128 : Shape := ⟨2, ![100000, 128]⟩
abbrev S16384 : Shape := ⟨1, ![16384]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x128 : Shape := ⟨2, ![16384, 128]⟩

abbrev nBuf : Space → Nat
  | .hbm => 25
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S16384, .i32⟩
  | .hbm, ⟨2, _⟩ => ⟨S_, .i32⟩
  | .hbm, ⟨3, _⟩ => ⟨S16384, .i32⟩
  | .hbm, ⟨4, _⟩ => ⟨S16384, .i1⟩
  | .hbm, ⟨5, _⟩ => ⟨S_, .i32⟩
  | .hbm, ⟨6, _⟩ => ⟨S16384, .i32⟩
  | .hbm, ⟨7, _⟩ => ⟨S16384, .i32⟩
  | .hbm, ⟨8, _⟩ => ⟨S16384, .i32⟩
  | .hbm, ⟨9, _⟩ => ⟨S16384x1, .i32⟩
  | .hbm, ⟨10, _⟩ => ⟨S1, .i32⟩
  | .hbm, ⟨11, _⟩ => ⟨S_, .i32⟩
  | .hbm, ⟨12, _⟩ => ⟨S16384x1, .i32⟩
  | .hbm, ⟨13, _⟩ => ⟨S16384x1, .i1⟩
  | .hbm, ⟨14, _⟩ => ⟨S1x1, .i32⟩
  | .hbm, ⟨15, _⟩ => ⟨S16384x1, .i32⟩
  | .hbm, ⟨16, _⟩ => ⟨S16384x1, .i1⟩
  | .hbm, ⟨17, _⟩ => ⟨S16384x1, .i1⟩
  | .hbm, ⟨18, _⟩ => ⟨S_, .i1⟩
  | .hbm, ⟨19, _⟩ => ⟨S16384, .i1⟩
  | .hbm, ⟨20, _⟩ => ⟨S16384x128, .f32⟩
  | .hbm, ⟨21, _⟩ => ⟨S16384x128, .i1⟩
  | .hbm, ⟨22, _⟩ => ⟨S_, .f32⟩
  | .hbm, ⟨23, _⟩ => ⟨S16384x128, .f32⟩
  | .hbm, ⟨24, _⟩ => ⟨S16384x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x128_0 : S16384.BroadcastsInDim S16384x128 (![0] : Fin 1 → Fin S16384x128.rank)
  bcast_S_S16384x128 : S_.BroadcastsInDim S16384x128 (![] : Fin 0 → Fin S16384x128.rank)
  gather_S100000x128_S16384x1_S16384x128_1_0_n_n_0_1_1128_wf : GatherDims.WF S100000x128 S16384x1 S16384x128 [1] [0] [] [0] [] 1 ![1, 128]

variable [Facts₀]

def gather_S100000x128_S16384x1_S16384x128_1_0_n_n_0_1_1128 : GatherDims S100000x128 S16384x1 S16384x128 where
  offsetDims := [1]
  collapsedSliceDims := [0]
  operandBatchingDims := []
  startIndicesBatchingDims := []
  startIndexMap := [0]
  indexVectorDim := 1
  sliceSizes := ![1, 128]
  wf := gather_S100000x128_S16384x1_S16384x128_1_0_n_n_0_1_1128_wf

class Facts : Prop extends Facts₀ where

variable [Facts]
-- ==== Proof.Spec.lean ====
/-
  What both programs compute, stated once over plain arrays: for a table of 100000 rows of 128 entries and a list of
  16384 index words, the array whose row `b` is row `ids[b]` of the table.

  An index word is read as a natural number. So that the array is defined for every list of words, a word past the
  last row is cut to the last row; on a list all of whose words name rows (`InRange`) nothing is cut.
-/
import Idealize.ShloMosaic.Lib.ValueIdx
import Idealize.ShloMosaic.PureOps.Ideal

noncomputable section

namespace Cert.Proof.Spec

open Idealize.ShloMosaic Idealize.ShloMosaic.ValueIdx

/-- The table, the list of index words, the gathered rows. -/
abbrev STab : Shape := ⟨2, ![100000, 128]⟩
abbrev SIds : Shape := ⟨1, ![16384]⟩
abbrev SOut : Shape := ⟨2, ![16384, 128]⟩

/-- Every index word names a row of the table. -/
def InRange (ids : IVec SIds 32) : Prop := ∀ b : Fin 16384, (ids (ix1 b)).toNat < 100000

/-- The table row that position `b` of the list names. -/
def rowOf (ids : IVec SIds 32) (b : Fin 16384) : Fin 100000 := ⟨min (ids (ix1 b)).toNat 99999, by omega⟩

/-- The gathered rows: entry `(b, l)` is entry `(ids[b], l)` of the table. -/
def rowsOf {α : Type} (tab : STab.Idx → α) (ids : IVec SIds 32) : SOut.Idx → α :=
  fun i => tab (ix2 (rowOf ids ⟨(i 0).val, idx2_lt0 i⟩) (⟨(i 1).val, idx2_lt1 i⟩ : Fin 128))

theorem rowsOf_apply {α : Type} (tab : STab.Idx → α) (ids : IVec SIds 32) (b : Fin 16384) (l : Fin 128) :
    rowsOf tab ids (ix2 b l) = tab (ix2 (rowOf ids b) l) := rfl

/-- On a list in range the row named is the word itself. -/
theorem rowOf_val {ids : IVec SIds 32} (h : InRange ids) (b : Fin 16384) : (rowOf ids b).val = (ids (ix1 b)).toNat := by
  have := h b
  show min (ids (ix1 b)).toNat 99999 = _
  omega

/-! ## The same rows, with the index words given as 32 blocks of 4 lists of 128 -/

/-- The index words as the kernel receives them. -/
abbrev SBlk : Shape := ⟨3, ![32, 4, 128]⟩

theorem blk_lt (i : SOut.Idx) : (i 0).val / 512 < 32 ∧ (i 0).val / 128 % 4 < 4 ∧ (i 0).val % 128 < 128 := by
  have h := idx2_lt0 i
  omega

/-- Entry `(b, l)` is entry `(w[b / 512, b / 128 % 4, b % 128], l)` of the table: position `b` of the flat list is word
    `b % 128` of list `b / 128 % 4` of block `b / 512`. -/
def rowsOfBlocks {α : Type} (tab : STab.Idx → α) (w : IVec SBlk 32) : SOut.Idx → α :=
  fun i => tab (ix2 (⟨min (w (ix3 (⟨(i 0).val / 512, (blk_lt i).1⟩ : Fin 32) (⟨(i 0).val / 128 % 4, (blk_lt i).2.1⟩ : Fin 4)
      (⟨(i 0).val % 128, (blk_lt i).2.2⟩ : Fin 128))).toNat 99999, by omega⟩ : Fin 100000) (⟨(i 1).val, idx2_lt1 i⟩ : Fin 128))

/-- When the blocks are the flat list cut in row-major order, the two arrays are one. -/
theorem rowsOfBlocks_eq {α : Type} (tab : STab.Idx → α) (w : IVec SBlk 32) (ids : IVec SIds 32)
    (h : ∀ (a : Fin 32) (b : Fin 4) (c : Fin 128), w (ix3 a b c) = ids (ix1 (⟨512 * a.val + 128 * b.val + c.val, by omega⟩ : Fin 16384))) :
    rowsOfBlocks tab w = rowsOf tab ids := by
  funext i
  have e : (⟨512 * ((i 0).val / 512) + 128 * ((i 0).val / 128 % 4) + (i 0).val % 128, by have := idx2_lt0 i; omega⟩ : Fin 16384)
      = ⟨(i 0).val, idx2_lt0 i⟩ := Fin.ext (by show 512 * ((i 0).val / 512) + 128 * ((i 0).val / 128 % 4) + (i 0).val % 128 = (i 0).val; omega)
  have hw : w (ix3 (⟨(i 0).val / 512, (blk_lt i).1⟩ : Fin 32) (⟨(i 0).val / 128 % 4, (blk_lt i).2.1⟩ : Fin 4) (⟨(i 0).val % 128, (blk_lt i).2.2⟩ : Fin 128))
      = ids (ix1 (⟨(i 0).val, idx2_lt0 i⟩ : Fin 16384)) := (h _ _ _).trans (congrArg (fun t => ids (ix1 t)) e)
  unfold rowsOfBlocks rowsOf rowOf
  refine congrArg tab (congrArg (fun t : Fin 100000 => ix2 t (⟨(i 1).val, idx2_lt1 i⟩ : Fin 128)) (Fin.ext ?_))
  show min _ 99999 = min _ 99999
  rw [hw]

end Cert.Proof.Spec

end
-- ==== Proof.LibPieces.lean ====
/-
  An array held whole is the same as its pieces held side by side, when the pieces are the fibres of a function on the
  array's indices: every index lies in exactly one piece, the one its key names.

  `pointsTo_fibres` splits (and, read right to left, joins at ONE valuation); `pointsTo_fibres_join` joins pieces held
  at different valuations into the whole array at some valuation that agrees with each piece on its own elements.
-/
import Idealize.ShloMosaic.Rules.PointsTo
import Idealize.SL.ProofMode.BigOp

noncomputable section

namespace Cert.Lib.Pieces

open Idealize.ShloMosaic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix] {Val : EltTy → Type} {Name : Type} [DecidableEq Name]
variable {U : Type} [URA U] {Lvl : Type}

local notation "𝕄" => MT nD τ sig Ix Val Name U Lvl

variable {ℓ : Loc nD τ sig} {T : Type} [Fintype T] [DecidableEq T]

/-- Fibres of a key are pairwise disjoint. -/
theorem fibres_disjoint (K : T → Finset (Idx ℓ)) (key : Idx ℓ → T) (hK : ∀ x t, x ∈ K t ↔ key x = t) :
    ∀ t ∈ (Finset.univ : Finset T), ∀ t' ∈ (Finset.univ : Finset T), t ≠ t' → Disjoint (K t) (K t') := by
  intro t _ t' _ hne
  refine Finset.disjoint_left.mpr fun x hx hx' => hne ?_
  exact ((hK x t).mp hx).symm.trans ((hK x t').mp hx')

/-- Fibres of a key cover the array. -/
theorem fibres_cover (K : T → Finset (Idx ℓ)) (key : Idx ℓ → T) (hK : ∀ x t, x ∈ K t ↔ key x = t) :
    (Finset.univ : Finset T).biUnion K = Finset.univ := by
  ext x
  simp only [Finset.mem_biUnion, Finset.mem_univ, true_and, iff_true]
  exact ⟨key x, (hK x (key x)).mpr rfl⟩

/-- The array whole is its fibres side by side, at one valuation. -/
theorem pointsTo_fibres (K : T → Finset (Idx ℓ)) (key : Idx ℓ → T) (hK : ∀ x t, x ∈ K t ↔ key x = t)
    (q : PosShare TreeShare) (f : Buf Val ℓ) :
    (ℓ ↦{q} f : sProp 𝕄) = bigSep Finset.univ fun t => ℓ ↦[K t]{q} f := by
  rw [← pointsTo_biUnion Finset.univ (ℓ := ℓ) K (fibres_disjoint K key hK), fibres_cover K key hK]

/-- Fibres held at valuations of their own join into the whole array at a valuation that agrees with each on its fibre. -/
theorem pointsTo_fibres_join [Nonempty (Buf Val ℓ)] (K : T → Finset (Idx ℓ)) (key : Idx ℓ → T) (hK : ∀ x t, x ∈ K t ↔ key x = t)
    (q : PosShare TreeShare) (fs : T → Buf Val ℓ) :
    (bigSep Finset.univ fun t => (ℓ ↦[K t]{q} fs t : sProp 𝕄)) ⊢ iprop(∃ g, ⌜∀ t, ∀ i ∈ K t, g i = fs t i⌝ ∗ ℓ ↦{q} g) := by
  iintro H
  ihave H' := (pointsTo_biUnion_join (Ix := Ix) (Name := Name) (U := U) (Lvl := Lvl) (ℓ := ℓ) (q := q) Finset.univ K fs
    (Classical.arbitrary _) (fibres_disjoint K key hK)) $$ H
  icases H' with ⟨%g, %hg, Hg⟩
  rw [fibres_cover K key hK]
  iexists g
  isplitr
  · ipureintro; exact fun t => hg t (Finset.mem_univ t)
  · iexact Hg

end Cert.Lib.Pieces

end
-- ==== Proof.KernelPieces.lean ====
/-
  The arrays of the kernel and one vector subcore's pieces of them: which elements of the index words, of the
  result and of its two scratches each of the task's transfers touches.
-/
import proofs.«216976_g54288386621730_cont_9to1_m_1068_22_alg».proof.Kernel
import proofs.«216976_g54288386621730_cont_9to1_m_1068_22_alg».proof.Proof.Gen.Kernel
import proofs.«216976_g54288386621730_cont_9to1_m_1068_22_alg».proof.Proof.Gen.Kernel.Skeleton
import proofs.«216976_g54288386621730_cont_9to1_m_1068_22_alg».proof.Proof.Spec
import proofs.«216976_g54288386621730_cont_9to1_m_1068_22_alg».proof.Proof.LibPieces
import Idealize.ShloMosaic.Lib.SparseCore.Launch
import Idealize.ShloMosaic.Lib.SparseCore.Ops
import Idealize.ShloMosaic.Lib.SparseCore.Stream
import Idealize.ShloMosaic.Lib.Batch
import Idealize.ShloMosaic.Lib.StableHlo.Run
import Idealize.ShloMosaic.Lib.Pipeline.Kit
import Idealize.ShloMosaic.Lib.Tactic

noncomputable section

namespace Cert.Proof.KernelRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem kfacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the launch handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays and a task's pieces of them -/

variable (m : (ℓ : Loc nD τ sig) → Buf (Elt F) ℓ) (ρ : Dev nD → PrngReg)

/-- The table, the index words as the kernel receives them (32 × 4 × 128), the result: as locations of device `d`. -/
abbrev tLoc (d : Dev nD) : Loc nD τ sig := (SparseCore.T d).loc main_arg0
abbrev wLoc (d : Dev nD) : Loc nD τ sig := (SparseCore.T d).loc main_v0
abbrev oLoc (d : Dev nD) : Loc nD τ sig := (SparseCore.T d).loc main_v1

variable [FloatOps F]

abbrev tV : Memref sig .scVector .hbm S100000x128 .f32 := Memref.whole main_arg0_scv
abbrev wV : Memref sig .scVector .hbm S32x4x128 .i32 := Memref.whole main_v0_scv
abbrev oV : Memref sig .scVector .hbm S16384x128 .f32 := Memref.whole main_v1_scv
/-- A task's scratch: its 4 × 128 index words, its 512 gathered rows. -/
abbrev sW : Memref sig .scVector .vmem S4x128 .i32 := Memref.whole cc0_scratch0
abbrev sR : Memref sig .scVector .vmem S512x128 .f32 := Memref.whole cc0_scratch1

abbrev cV (L : grid0.Coords) : Fin τ.nSC := (L 0).castLE hcore0
abbrev jV (L : grid0.Coords) : Fin τ.nSub := (L 1).castLE hsub0

/-- The task's 4 × 128 block of the index words, as the task slices it. -/
abbrev wRowK (L : grid0.Coords) : Memref sig .scVector .hbm S4x128 .i32 :=
  ((wV : Memref sig .scVector .hbm S32x4x128 .i32).slice (Rect.unit (s := S32x4x128) (k0_off1 L) S1x4x128.size (k0_off1_inb L)) (fun _ => rfl)).squeeze S4x128 squeezes_S1x4x128_S4x128
/-- Chunk `r` of the task's rows of the result, as the task slices it. -/
abbrev oChunkK (L : grid0.Coords) (r : Fin 4) : Memref sig .scVector .hbm S128x128 .f32 :=
  (oV : Memref sig .scVector .hbm S16384x128 .f32).slice (Rect.unit (s := S16384x128) (k0_off2 L (BitVec.ofNat 32 (128 * r.val))) S128x128.size (k0_off2_inb L r)) (fun _ => rfl)
/-- The four 128-row pieces of the row scratch, and the four 128-word lists of the index scratch. -/
abbrev sR0 : Memref sig .scVector .vmem S128x128 .f32 := (sR : Memref sig .scVector .vmem S512x128 .f32).slice (Rect.unit (s := S512x128) ![0, 0] S128x128.size inb_S512x128_S128x128_0_0) (fun _ => rfl)
abbrev sR1 : Memref sig .scVector .vmem S128x128 .f32 := (sR : Memref sig .scVector .vmem S512x128 .f32).slice (Rect.unit (s := S512x128) ![128, 0] S128x128.size inb_S512x128_S128x128_128_0) (fun _ => rfl)
abbrev sR2 : Memref sig .scVector .vmem S128x128 .f32 := (sR : Memref sig .scVector .vmem S512x128 .f32).slice (Rect.unit (s := S512x128) ![256, 0] S128x128.size inb_S512x128_S128x128_256_0) (fun _ => rfl)
abbrev sR3 : Memref sig .scVector .vmem S128x128 .f32 := (sR : Memref sig .scVector .vmem S512x128 .f32).slice (Rect.unit (s := S512x128) ![384, 0] S128x128.size inb_S512x128_S128x128_384_0) (fun _ => rfl)
abbrev sW0 : Memref sig .scVector .vmem S128 .i32 := ((sW : Memref sig .scVector .vmem S4x128 .i32).slice (Rect.unit (s := S4x128) ![0, 0] S1x128.size inb_S4x128_S1x128_0_0) (fun _ => rfl)).squeeze S128 squeezes_S1x128_S128
abbrev sW1 : Memref sig .scVector .vmem S128 .i32 := ((sW : Memref sig .scVector .vmem S4x128 .i32).slice (Rect.unit (s := S4x128) ![1, 0] S1x128.size inb_S4x128_S1x128_1_0) (fun _ => rfl)).squeeze S128 squeezes_S1x128_S128
abbrev sW2 : Memref sig .scVector .vmem S128 .i32 := ((sW : Memref sig .scVector .vmem S4x128 .i32).slice (Rect.unit (s := S4x128) ![2, 0] S1x128.size inb_S4x128_S1x128_2_0) (fun _ => rfl)).squeeze S128 squeezes_S1x128_S128
abbrev sW3 : Memref sig .scVector .vmem S128 .i32 := ((sW : Memref sig .scVector .vmem S4x128 .i32).slice (Rect.unit (s := S4x128) ![3, 0] S1x128.size inb_S4x128_S1x128_3_0) (fun _ => rfl)).squeeze S128 squeezes_S1x128_S128

/-- The index scratch's list at offsets `o`, the row scratch's piece at offsets `o`, the table through the whole-array slice a
    gather names it by: the memrefs of the task's transfers, for any literal offsets. -/
abbrev sWg (o : Fin 2 → ℕ) (h : ∀ a, o a + S1x128.size a ≤ S4x128.size a) : Memref sig .scVector .vmem S128 .i32 :=
  ((sW : Memref sig .scVector .vmem S4x128 .i32).slice (Rect.unit (s := S4x128) o S1x128.size h) (fun _ => rfl)).squeeze S128 squeezes_S1x128_S128
abbrev sRg (o : Fin 2 → ℕ) (h : ∀ a, o a + S128x128.size a ≤ S512x128.size a) : Memref sig .scVector .vmem S128x128 .f32 :=
  (sR : Memref sig .scVector .vmem S512x128 .f32).slice (Rect.unit (s := S512x128) o S128x128.size h) (fun _ => rfl)
abbrev tSl : Memref sig .scVector .hbm S100000x128 .f32 :=
  (tV : Memref sig .scVector .hbm S100000x128 .f32).slice (Rect.unit (s := S100000x128) ![0, 0] S100000x128.size inb_S100000x128_S100000x128_0_0) (fun _ => rfl)

/-! ## Which elements each piece holds -/

section Pieces

omit [FloatOps F] in
/-- The task's block of the index words: the words whose first coordinate is the task's number `2·s + c`. -/
theorem mem_wRow (L : grid0.Coords) (x : S32x4x128.Idx) : x ∈ (wRowK L).view.set ↔ (x 0).val = 2 * (L 1).val + (L 0).val := by
  show x ∈ (((View.whole main_v0_scv).slice (Rect.unit (s := S32x4x128) (k0_off1 L) S1x4x128.size (k0_off1_inb L))).reshape S4x128 squeezes_S1x4x128_S4x128.numel_eq).set ↔ _
  rw [View.set_reshape, View.set_slice, Finset.map_refl, Rect.mem_set_unit, k0_off1_eq]
  constructor
  · intro h; have h0 := h 0; simp at h0; omega
  · intro h a
    have h1 := (x 1).isLt; have h2 := (x 2).isLt
    match a with
    | ⟨0, _⟩ => simp; omega
    | ⟨1, _⟩ => simp; exact h1
    | ⟨2, _⟩ => simp; exact h2

omit [FloatOps F] in
/-- Chunk `r` of the task's rows of the result: rows `128·(8·s + 4·c + r) … + 127`. -/
theorem mem_oChunk (L : grid0.Coords) (r : Fin 4) (x : S16384x128.Idx) :
    x ∈ (oChunkK L r).view.set ↔ (x 0).val / 128 = 8 * (L 1).val + 4 * (L 0).val + r.val := by
  show x ∈ ((View.whole main_v1_scv).slice (Rect.unit (s := S16384x128) (k0_off2 L (BitVec.ofNat 32 (128 * r.val))) S128x128.size (k0_off2_inb L r))).set ↔ _
  rw [View.set_slice, Finset.map_refl, Rect.mem_set_unit, k0_off2_eq]
  constructor
  · intro h; have h0 := h 0; simp at h0; omega
  · intro h a
    have h1 := (x 1).isLt
    match a with
    | ⟨0, _⟩ => simp; omega
    | ⟨1, _⟩ => simp; exact h1

end Pieces

/-! ## The scratches piece by piece -/

section Scratch

omit [FloatOps F] in
theorem bigSep_fin4 (Φ : Fin 4 → sProp 𝕄) : bigSep Finset.univ Φ = iprop(Φ 0 ∗ Φ 1 ∗ Φ 2 ∗ Φ 3) := by
  rw [show (Finset.univ : Finset (Fin 4)) = {0, 1, 2, 3} by decide, SparseCore.bigSep_insert' (by decide),
    SparseCore.bigSep_insert' (by decide), SparseCore.bigSep_insert' (by decide), bigSep_singleton]

/-- List `j` of the index scratch and piece `j` of the row scratch, as families. -/
def sWset : Fin 4 → Finset S4x128.Idx
  | 0 => (sW0 : Memref sig .scVector .vmem S128 .i32).view.set | 1 => (sW1 : Memref sig .scVector .vmem S128 .i32).view.set
  | 2 => (sW2 : Memref sig .scVector .vmem S128 .i32).view.set | 3 => (sW3 : Memref sig .scVector .vmem S128 .i32).view.set
def sRset : Fin 4 → Finset S512x128.Idx
  | 0 => (sR0 : Memref sig .scVector .vmem S128x128 .f32).view.set | 1 => (sR1 : Memref sig .scVector .vmem S128x128 .f32).view.set
  | 2 => (sR2 : Memref sig .scVector .vmem S128x128 .f32).view.set | 3 => (sR3 : Memref sig .scVector .vmem S128x128 .f32).view.set

omit [FloatOps F] in
theorem mem_sW_lit (o : Fin 2 → ℕ) (h : ∀ a, o a + S1x128.size a ≤ S4x128.size a) (ho : o 1 = 0) (x : S4x128.Idx) :
    x ∈ (((sW : Memref sig .scVector .vmem S4x128 .i32).slice (Rect.unit (s := S4x128) o S1x128.size h) (fun _ => rfl)).squeeze S128 squeezes_S1x128_S128).view.set
      ↔ (x 0).val = o 0 := by
  show x ∈ (((View.whole cc0_scratch0).slice (Rect.unit (s := S4x128) o S1x128.size h)).reshape S128 squeezes_S1x128_S128.numel_eq).set ↔ _
  rw [View.set_reshape, View.set_slice, Finset.map_refl, Rect.mem_set_unit]
  constructor
  · intro h; have h0 := h 0; simp at h0; omega
  · intro h a
    have h1 := (x 1).isLt
    match a with
    | ⟨0, _⟩ => simp; omega
    | ⟨1, _⟩ => simp [ho]; exact h1

omit [FloatOps F] in
theorem mem_sR_lit (o : Fin 2 → ℕ) (h : ∀ a, o a + S128x128.size a ≤ S512x128.size a) (ho : o 1 = 0) (k : ℕ) (hk : o 0 = 128 * k) (x : S512x128.Idx) :
    x ∈ ((sR : Memref sig .scVector .vmem S512x128 .f32).slice (Rect.unit (s := S512x128) o S128x128.size h) (fun _ => rfl)).view.set
      ↔ (x 0).val / 128 = k := by
  show x ∈ ((View.whole cc0_scratch1).slice (Rect.unit (s := S512x128) o S128x128.size h)).set ↔ _
  rw [View.set_slice, Finset.map_refl, Rect.mem_set_unit]
  constructor
  · intro h; have h0 := h 0; simp at h0; omega
  · intro h a
    have h1 := (x 1).isLt
    match a with
    | ⟨0, _⟩ => simp; omega
    | ⟨1, _⟩ => simp [ho]; exact h1

omit [FloatOps F] in
theorem mem_sWset (j : Fin 4) (x : S4x128.Idx) : x ∈ sWset j ↔ (⟨(x 0).val, (x 0).isLt⟩ : Fin 4) = j := by
  rw [Fin.ext_iff]
  match j with
  | 0 => exact mem_sW_lit _ _ rfl x
  | 1 => exact mem_sW_lit _ _ rfl x
  | 2 => exact mem_sW_lit _ _ rfl x
  | 3 => exact mem_sW_lit _ _ rfl x

omit [FloatOps F] in
theorem sR_key_lt (x : S512x128.Idx) : (x 0).val / 128 < 4 := by
  have := (x 0).isLt
  have h : (x 0).val < 512 := this
  omega

omit [FloatOps F] in
theorem mem_sRset (j : Fin 4) (x : S512x128.Idx) : x ∈ sRset j ↔ (⟨(x 0).val / 128, sR_key_lt x⟩ : Fin 4) = j := by
  rw [Fin.ext_iff]
  match j with
  | 0 => exact mem_sR_lit _ _ rfl 0 rfl x
  | 1 => exact mem_sR_lit _ _ rfl 1 rfl x
  | 2 => exact mem_sR_lit _ _ rfl 2 rfl x
  | 3 => exact mem_sR_lit _ _ rfl 3 rfl x

omit [FloatOps F] in
/-- The index scratch whole is its four lists. -/
theorem sW_pieces (d : Dev nD) (c : Fin τ.nSC) (i : Fin τ.nSub) (f : Buf (Elt F) ((V d c i).loc cc0_scratch0)) :
    ((sW : Memref sig .scVector .vmem S4x128 .i32).view.loc (V d c i) ↦{fullShare} f : sProp 𝕄)
      = iprop(((sW0 : Memref sig .scVector .vmem S128 .i32).view.loc (V d c i) ↦[(sW0 : Memref sig .scVector .vmem S128 .i32).view.set]{fullShare} f)
          ∗ ((sW1 : Memref sig .scVector .vmem S128 .i32).view.loc (V d c i) ↦[(sW1 : Memref sig .scVector .vmem S128 .i32).view.set]{fullShare} f)
          ∗ ((sW2 : Memref sig .scVector .vmem S128 .i32).view.loc (V d c i) ↦[(sW2 : Memref sig .scVector .vmem S128 .i32).view.set]{fullShare} f)
          ∗ ((sW3 : Memref sig .scVector .vmem S128 .i32).view.loc (V d c i) ↦[(sW3 : Memref sig .scVector .vmem S128 .i32).view.set]{fullShare} f)) := by
  show ((V d c i).loc cc0_scratch0 ↦{fullShare} f : sProp 𝕄)
      = iprop(((V d c i).loc cc0_scratch0 ↦[sWset 0]{fullShare} f) ∗ ((V d c i).loc cc0_scratch0 ↦[sWset 1]{fullShare} f)
          ∗ ((V d c i).loc cc0_scratch0 ↦[sWset 2]{fullShare} f) ∗ ((V d c i).loc cc0_scratch0 ↦[sWset 3]{fullShare} f))
  rw [Cert.Lib.Pieces.pointsTo_fibres (ℓ := (V d c i).loc cc0_scratch0) sWset _ (fun x j => mem_sWset j x), bigSep_fin4]

omit [FloatOps F] in
/-- The row scratch whole is its four pieces. -/
theorem sR_pieces (d : Dev nD) (c : Fin τ.nSC) (i : Fin τ.nSub) (f : Buf (Elt F) ((V d c i).loc cc0_scratch1)) :
    ((sR : Memref sig .scVector .vmem S512x128 .f32).view.loc (V d c i) ↦{fullShare} f : sProp 𝕄)
      = iprop(((sR0 : Memref sig .scVector .vmem S128x128 .f32).view.loc (V d c i) ↦[(sR0 : Memref sig .scVector .vmem S128x128 .f32).view.set]{fullShare} f)
          ∗ ((sR1 : Memref sig .scVector .vmem S128x128 .f32).view.loc (V d c i) ↦[(sR1 : Memref sig .scVector .vmem S128x128 .f32).view.set]{fullShare} f)
          ∗ ((sR2 : Memref sig .scVector .vmem S128x128 .f32).view.loc (V d c i) ↦[(sR2 : Memref sig .scVector .vmem S128x128 .f32).view.set]{fullShare} f)
          ∗ ((sR3 : Memref sig .scVector .vmem S128x128 .f32).view.loc (V d c i) ↦[(sR3 : Memref sig .scVector .vmem S128x128 .f32).view.set]{fullShare} f)) := by
  show ((V d c i).loc cc0_scratch1 ↦{fullShare} f : sProp 𝕄)
      = iprop(((V d c i).loc cc0_scratch1 ↦[sRset 0]{fullShare} f) ∗ ((V d c i).loc cc0_scratch1 ↦[sRset 1]{fullShare} f)
          ∗ ((V d c i).loc cc0_scratch1 ↦[sRset 2]{fullShare} f) ∗ ((V d c i).loc cc0_scratch1 ↦[sRset 3]{fullShare} f))
  rw [Cert.Lib.Pieces.pointsTo_fibres (ℓ := (V d c i).loc cc0_scratch1) sRset _ (fun x j => mem_sRset j x), bigSep_fin4]

end Scratch

end Cert.Proof.KernelRun

end
-- ==== Proof.KernelShare.lean ====
/-
  What one vector subcore holds of the kernel's arrays during its task, and how its own semaphores and scratches
  are found among what the launch deals it.
-/
import proofs.«216976_g54288386621730_cont_9to1_m_1068_22_alg».proof.Proof.KernelPieces

noncomputable section

namespace Cert.Proof.KernelRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

omit [FloatOps F] in
/-- The task's seven DMA semaphores are among its own: they, at zero, and the rest. -/
theorem ownSems0_V (d : Dev nD) (c : Fin τ.nSC) (i : Fin τ.nSub) :
    (ownSems0 (V d c i) : sProp 𝕄)
      = iprop(semVal (V d c i, SemLoc.dma cc0_scratch2.sem) 0
          ∗ semVal (V d c i, SemLoc.dma cc0_scratch3.sem) 0
          ∗ semVal (V d c i, SemLoc.dma cc0_scratch4.sem) 0
          ∗ semVal (V d c i, SemLoc.dma cc0_scratch5.sem) 0
          ∗ semVal (V d c i, SemLoc.dma cc0_scratch6.sem) 0
          ∗ semVal (V d c i, SemLoc.dma cc0_scratch7.sem) 0
          ∗ semVal (V d c i, SemLoc.dma cc0_scoped0.sem) 0
          ∗ bigSep ((((((((ownCells (V d c i)).erase (V d c i, SemLoc.dma cc0_scratch2.sem)).erase (V d c i, SemLoc.dma cc0_scratch3.sem)).erase (V d c i, SemLoc.dma cc0_scratch4.sem)).erase (V d c i, SemLoc.dma cc0_scratch5.sem)).erase (V d c i, SemLoc.dma cc0_scratch6.sem)).erase (V d c i, SemLoc.dma cc0_scratch7.sem)).erase (V d c i, SemLoc.dma cc0_scoped0.sem))
              fun g => semVal g 0) := by
  unfold SparseCore.Cfg.ownSems0
  rw [SparseCore.bigSep_erase' ((mem_ownCells (g := ((V d c i, SemLoc.dma cc0_scratch2.sem) : GSem nD τ sig))).mpr ⟨rfl, by show (SemLoc.dma cc0_scratch2.sem : SemLoc sig).isScoped .scVector = true; decide⟩),
    SparseCore.bigSep_erase' (Finset.mem_erase.mpr ⟨fun e => absurd (congrArg Prod.snd e) (show (SemLoc.dma cc0_scratch3.sem : SemLoc sig) ≠ SemLoc.dma cc0_scratch2.sem by decide), (mem_ownCells (g := ((V d c i, SemLoc.dma cc0_scratch3.sem) : GSem nD τ sig))).mpr ⟨rfl, by show (SemLoc.dma cc0_scratch3.sem : SemLoc sig).isScoped .scVector = true; decide⟩⟩),
    SparseCore.bigSep_erase' (Finset.mem_erase.mpr ⟨fun e => absurd (congrArg Prod.snd e) (show (SemLoc.dma cc0_scratch4.sem : SemLoc sig) ≠ SemLoc.dma cc0_scratch3.sem by decide), Finset.mem_erase.mpr ⟨fun e => absurd (congrArg Prod.snd e) (show (SemLoc.dma cc0_scratch4.sem : SemLoc sig) ≠ SemLoc.dma cc0_scratch2.sem by decide), (mem_ownCells (g := ((V d c i, SemLoc.dma cc0_scratch4.sem) : GSem nD τ sig))).mpr ⟨rfl, by show (SemLoc.dma cc0_scratch4.sem : SemLoc sig).isScoped .scVector = true; decide⟩⟩⟩),
    SparseCore.bigSep_erase' (Finset.mem_erase.mpr ⟨fun e => absurd (congrArg Prod.snd e) (show (SemLoc.dma cc0_scratch5.sem : SemLoc sig) ≠ SemLoc.dma cc0_scratch4.sem by decide), Finset.mem_erase.mpr ⟨fun e => absurd (congrArg Prod.snd e) (show (SemLoc.dma cc0_scratch5.sem : SemLoc sig) ≠ SemLoc.dma cc0_scratch3.sem by decide), Finset.mem_erase.mpr ⟨fun e => absurd (congrArg Prod.snd e) (show (SemLoc.dma cc0_scratch5.sem : SemLoc sig) ≠ SemLoc.dma cc0_scratch2.sem by decide), (mem_ownCells (g := ((V d c i, SemLoc.dma cc0_scratch5.sem) : GSem nD τ sig))).mpr ⟨rfl, by show (SemLoc.dma cc0_scratch5.sem : SemLoc sig).isScoped .scVector = true; decide⟩⟩⟩⟩),
    SparseCore.bigSep_erase' (Finset.mem_erase.mpr ⟨fun e => absurd (congrArg Prod.snd e) (show (SemLoc.dma cc0_scratch6.sem : SemLoc sig) ≠ SemLoc.dma cc0_scratch5.sem by decide), Finset.mem_erase.mpr ⟨fun e => absurd (congrArg Prod.snd e) (show (SemLoc.dma cc0_scratch6.sem : SemLoc sig) ≠ SemLoc.dma cc0_scratch4.sem by decide), Finset.mem_erase.mpr ⟨fun e => absurd (congrArg Prod.snd e) (show (SemLoc.dma cc0_scratch6.sem : SemLoc sig) ≠ SemLoc.dma cc0_scratch3.sem by decide), Finset.mem_erase.mpr ⟨fun e => absurd (congrArg Prod.snd e) (show (SemLoc.dma cc0_scratch6.sem : SemLoc sig) ≠ SemLoc.dma cc0_scratch2.sem by decide), (mem_ownCells (g := ((V d c i, SemLoc.dma cc0_scratch6.sem) : GSem nD τ sig))).mpr ⟨rfl, by show (SemLoc.dma cc0_scratch6.sem : SemLoc sig).isScoped .scVector = true; decide⟩⟩⟩⟩⟩),
    SparseCore.bigSep_erase' (Finset.mem_erase.mpr ⟨fun e => absurd (congrArg Prod.snd e) (show (SemLoc.dma cc0_scratch7.sem : SemLoc sig) ≠ SemLoc.dma cc0_scratch6.sem by decide), Finset.mem_erase.mpr ⟨fun e => absurd (congrArg Prod.snd e) (show (SemLoc.dma cc0_scratch7.sem : SemLoc sig) ≠ SemLoc.dma cc0_scratch5.sem by decide), Finset.mem_erase.mpr ⟨fun e => absurd (congrArg Prod.snd e) (show (SemLoc.dma cc0_scratch7.sem : SemLoc sig) ≠ SemLoc.dma cc0_scratch4.sem by decide), Finset.mem_erase.mpr ⟨fun e => absurd (congrArg Prod.snd e) (show (SemLoc.dma cc0_scratch7.sem : SemLoc sig) ≠ SemLoc.dma cc0_scratch3.sem by decide), Finset.mem_erase.mpr ⟨fun e => absurd (congrArg Prod.snd e) (show (SemLoc.dma cc0_scratch7.sem : SemLoc sig) ≠ SemLoc.dma cc0_scratch2.sem by decide), (mem_ownCells (g := ((V d c i, SemLoc.dma cc0_scratch7.sem) : GSem nD τ sig))).mpr ⟨rfl, by show (SemLoc.dma cc0_scratch7.sem : SemLoc sig).isScoped .scVector = true; decide⟩⟩⟩⟩⟩⟩),
    SparseCore.bigSep_erase' (Finset.mem_erase.mpr ⟨fun e => absurd (congrArg Prod.snd e) (show (SemLoc.dma cc0_scoped0.sem : SemLoc sig) ≠ SemLoc.dma cc0_scratch7.sem by decide), Finset.mem_erase.mpr ⟨fun e => absurd (congrArg Prod.snd e) (show (SemLoc.dma cc0_scoped0.sem : SemLoc sig) ≠ SemLoc.dma cc0_scratch6.sem by decide), Finset.mem_erase.mpr ⟨fun e => absurd (congrArg Prod.snd e) (show (SemLoc.dma cc0_scoped0.sem : SemLoc sig) ≠ SemLoc.dma cc0_scratch5.sem by decide), Finset.mem_erase.mpr ⟨fun e => absurd (congrArg Prod.snd e) (show (SemLoc.dma cc0_scoped0.sem : SemLoc sig) ≠ SemLoc.dma cc0_scratch4.sem by decide), Finset.mem_erase.mpr ⟨fun e => absurd (congrArg Prod.snd e) (show (SemLoc.dma cc0_scoped0.sem : SemLoc sig) ≠ SemLoc.dma cc0_scratch3.sem by decide), Finset.mem_erase.mpr ⟨fun e => absurd (congrArg Prod.snd e) (show (SemLoc.dma cc0_scoped0.sem : SemLoc sig) ≠ SemLoc.dma cc0_scratch2.sem by decide), (mem_ownCells (g := ((V d c i, SemLoc.dma cc0_scoped0.sem) : GSem nD τ sig))).mpr ⟨rfl, by show (SemLoc.dma cc0_scoped0.sem : SemLoc sig).isScoped .scVector = true; decide⟩⟩⟩⟩⟩⟩⟩)]

omit [FloatOps F] in
/-- The two scratches are among the task's own buffers: they, at some contents, and the rest. -/
theorem ownBufs_V (d : Dev nD) (c : Fin τ.nSC) (i : Fin τ.nSub) :
    (ownBufs (V d c i) : sProp 𝕄)
      = iprop((∃ f, (V d c i).loc cc0_scratch0 ↦{fullShare} f) ∗ (∃ f, (V d c i).loc cc0_scratch1 ↦{fullShare} f)
          ∗ bigSep (((ownRefs (τ := τ) (.scVector c i)).erase ((Proc.scVector c i).devRef cc0_scratch0)).erase ((Proc.scVector c i).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector c i)
    (b := (Proc.scVector c i).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector c i) (b := (Proc.scVector c i).devRef cc0_scratch1) rfl⟩)]

/-! ## A task's share of the arrays -/

/-- The elements of the index words in block `2·sn + cn`, and the elements of the result in its 128-row chunk number
    `8·sn + 4·cn + rn`: what subcore `sn` of SparseCore `cn` reads, and what it writes in its chunk `rn`. -/
def wSetN (cn sn : ℕ) : Finset S32x4x128.Idx := Finset.univ.filter fun x => (x 0).val = 2 * sn + cn
def oSetN (cn sn rn : ℕ) : Finset S16384x128.Idx := Finset.univ.filter fun x => (x 0).val / 128 = 8 * sn + 4 * cn + rn

omit [FloatOps F] in
theorem set_wRow (L : grid0.Coords) : (wRowK L).view.set = wSetN (L 0).val (L 1).val := by
  ext x; rw [mem_wRow]; simp [wSetN]
omit [FloatOps F] in
theorem set_oChunk (L : grid0.Coords) (r : Fin 4) : (oChunkK L r).view.set = oSetN (L 0).val (L 1).val r.val := by
  ext x; rw [mem_oChunk]; simp [oSetN]

/-- The read share of the table SparseCore `cn` is handed, and within it the share of its subcore `sn`. -/
abbrev tokC (cn : ℕ) : PosShare TreeShare := Transfers.shareTokN fullShare cn
abbrev tokT (cn sn : ℕ) : PosShare TreeShare := Transfers.shareTokN (tokC cn) sn

/-- What a task holds of the three arrays: a read share of the table at `ft`, its block of the index words at `fw`, its
    four chunks of the result at `fo`. -/
def tileRes (d : Dev nD) (cn sn : ℕ) (ft : Buf (Elt F) (tLoc d)) (fw : Buf (Elt F) (wLoc d)) (fo : Buf (Elt F) (oLoc d)) : sProp 𝕄 :=
  iprop((tLoc d ↦{tokT cn sn} ft) ∗ (wLoc d ↦[wSetN cn sn]{fullShare} fw)
    ∗ (oLoc d ↦[oSetN cn sn 0]{fullShare} fo) ∗ (oLoc d ↦[oSetN cn sn 1]{fullShare} fo)
    ∗ (oLoc d ↦[oSetN cn sn 2]{fullShare} fo) ∗ (oLoc d ↦[oSetN cn sn 3]{fullShare} fo))

/-- The rows the index words name, as contents of the result. -/
abbrev gathered (d : Dev nD) (ft : Buf (Elt F) (tLoc d)) (fw : Buf (Elt F) (wLoc d)) : Buf (Elt F) (oLoc d) :=
  Cert.Proof.Spec.rowsOfBlocks (α := Elt F .f32) ft fw

omit [FloatOps F] in
theorem pts_t (d : Dev nD) (c : Fin τ.nSC) (i : Fin τ.nSub) (q : PosShare TreeShare) (f : Buf (Elt F) (tLoc d)) :
    ((tV : Memref sig .scVector .hbm S100000x128 .f32).view.loc (V d c i) ↦{q} f : sProp 𝕄) = tLoc d ↦{q} f := rfl
omit [FloatOps F] in
theorem pts_w (d : Dev nD) (L : grid0.Coords) (f : Buf (Elt F) (wLoc d)) :
    ((wRowK L).view.loc (V d (cV L) (jV L)) ↦[(wRowK L).view.set]{fullShare} f : sProp 𝕄) = wLoc d ↦[wSetN (L 0).val (L 1).val]{fullShare} f := by
  rw [set_wRow]
omit [FloatOps F] in
theorem pts_o (d : Dev nD) (L : grid0.Coords) (r : Fin 4) (f : Buf (Elt F) (oLoc d)) :
    ((oChunkK L r).view.loc (V d (cV L) (jV L)) ↦[(oChunkK L r).view.set]{fullShare} f : sProp 𝕄) = oLoc d ↦[oSetN (L 0).val (L 1).val r.val]{fullShare} f := by
  rw [set_oChunk]
omit [FloatOps F] in
theorem pts_o' (d : Dev nD) (L : grid0.Coords) (r : Fin 4) (rn : ℕ) (h : r.val = rn) (f : Buf (Elt F) (oLoc d)) :
    ((oChunkK L r).view.loc (V d (cV L) (jV L)) ↦[(oChunkK L r).view.set]{fullShare} f : sProp 𝕄) = oLoc d ↦[oSetN (L 0).val (L 1).val rn]{fullShare} f := by
  subst h; exact pts_o d L r f
omit [FloatOps F] in
theorem pts_sW (d : Dev nD) (c : Fin τ.nSC) (i : Fin τ.nSub) (f : Buf (Elt F) ((V d c i).loc cc0_scratch0)) :
    ((sW : Memref sig .scVector .vmem S4x128 .i32).view.loc (V d c i) ↦{fullShare} f : sProp 𝕄) = (V d c i).loc cc0_scratch0 ↦{fullShare} f := rfl
omit [FloatOps F] in
theorem pts_sR (d : Dev nD) (c : Fin τ.nSC) (i : Fin τ.nSub) (f : Buf (Elt F) ((V d c i).loc cc0_scratch1)) :
    ((sR : Memref sig .scVector .vmem S512x128 .f32).view.loc (V d c i) ↦{fullShare} f : sProp 𝕄) = (V d c i).loc cc0_scratch1 ↦{fullShare} f := rfl

/-- The row scratch's four pieces, at contents of their own, are the scratch whole at some contents. -/
theorem sR_rejoin [∀ e, Nonempty (Elt F e)] (d : Dev nD) (c : Fin τ.nSC) (i : Fin τ.nSub) (f0 f1 f2 f3 : Buf (Elt F) ((V d c i).loc cc0_scratch1)) :
    iprop(((sR0 : Memref sig .scVector .vmem S128x128 .f32).view.loc (V d c i) ↦[(sR0 : Memref sig .scVector .vmem S128x128 .f32).view.set]{fullShare} f0)
        ∗ ((sR1 : Memref sig .scVector .vmem S128x128 .f32).view.loc (V d c i) ↦[(sR1 : Memref sig .scVector .vmem S128x128 .f32).view.set]{fullShare} f1)
        ∗ ((sR2 : Memref sig .scVector .vmem S128x128 .f32).view.loc (V d c i) ↦[(sR2 : Memref sig .scVector .vmem S128x128 .f32).view.set]{fullShare} f2)
        ∗ ((sR3 : Memref sig .scVector .vmem S128x128 .f32).view.loc (V d c i) ↦[(sR3 : Memref sig .scVector .vmem S128x128 .f32).view.set]{fullShare} f3))
      ⊢ (iprop(∃ g, (V d c i).loc cc0_scratch1 ↦{fullShare} g) : sProp 𝕄) := by
  have hne : Nonempty (Buf (Elt F) ((V d c i).loc cc0_scratch1)) := ⟨f0⟩
  refine (show _ ⊢ bigSep Finset.univ (fun j : Fin 4 => ((V d c i).loc cc0_scratch1 ↦[sRset j]{fullShare} (![f0, f1, f2, f3] j) : sProp 𝕄)) from
    Entails.of_eq (by rw [bigSep_fin4]; rfl)).trans ?_
  refine (Cert.Lib.Pieces.pointsTo_fibres_join (ℓ := (V d c i).loc cc0_scratch1) sRset _ (fun x j => mem_sRset j x) fullShare _).trans ?_
  iintro ⟨%g, -, Hg⟩
  iexists g; iexact Hg

end Cert.Proof.KernelRun

end
-- ==== Proof.KernelValue.lean ====
/-
  The value of one landed chunk of a task.

  A task (one vector subcore, grid coordinates `L = (c, s)`, task number `2·s + c`) copies its 4 × 128 block of the index
  words into its index scratch, gathers, for each of the four lists `r`, the 128 table rows the list names into piece `r`
  of its row scratch, and writes piece `r` back as chunk `r` of its rows of the result. Everything here is a computation
  on indices:

  * word `k` of list `r` of the index scratch, once the block has landed, is word `(2·s + c, r, k)` of the index words
    (`list_word`): a list is row `r` of the scratch with its unit axis dropped, the block is block `2·s + c` of the
    words with its unit axis dropped, and a dropped unit axis is the coordinate 0;
  * so every word of every list names a table row when every index word does (`list_inRange`);
  * row `p` of chunk `r` is row `1024·s + 512·c + 128·r + p` of the result; it holds row `p` of piece `r` of the row
    scratch, which holds the table row named by word `p` of list `r`; and `(1024·s + 512·c + 128·r + p) / 512 = 2·s + c`,
    `(…) / 128 % 4 = r`, `(…) % 128 = p`: the chunk is the gathered rows on its own elements (`landed_chunk`).
-/
import proofs.«216976_g54288386621730_cont_9to1_m_1068_22_alg».proof.Proof.KernelPieces
import Idealize.ShloMosaic.Lib.ValueIdx
import Idealize.ShloMosaic.Lib.ValueLayout
import Idealize.ShloMosaic.Lib.Pipeline.Value
import Idealize.ShloMosaic.Lib.Writes

noncomputable section

namespace Cert.Proof.KernelRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

/-! ## Reading through a slice and through a dropped unit axis -/

section Generic

variable {sig : RefSig} {κ : Kind} {sp : Space} {s : Shape} {e : EltTy} {Val : EltTy → Type}

/-- A slice of a view reads the view at the rectangle's elements. -/
theorem read_slice (v : View sig κ sp s e) (r : Rect s) (f : v.ty.Contents Val) (x : r.shape.Idx) :
    (v.slice r).read Val f x = v.read Val f (r.emb x) := rfl

/-- A reshaped view reads the view at the matched index. -/
theorem read_reshape (v : View sig κ sp s e) (s' : Shape) (h : s'.numel = s.numel) (f : v.ty.Contents Val) (x : s'.Idx) :
    (v.reshape s' h).read Val f x = v.read Val f (Shape.reshapeEquiv h x) := rfl

/-- A view written whole reads back what was written. -/
theorem read_writes_whole (v : View sig κ sp s e) (f : v.ty.Contents Val) (P : (Rect.whole s).shape.Idx → Val e) (y : s.Idx) :
    v.read Val (v.writes Val f [⟨Rect.whole s, P⟩]) y = P y := by
  have h := View.read_writes_cons_emb v f (Rect.whole s) P [] y
  rwa [Rect.emb_whole_apply] at h

end Generic

/-- An index `i` of shape `[a]` matched with shape `[1, a]` is `(0, i)`. -/
theorem reshapeEquiv_ix1_1a {a : ℕ} (h : (⟨1, ![a]⟩ : Shape).numel = (⟨2, ![1, a]⟩ : Shape).numel) (i : Fin a) :
    Shape.reshapeEquiv h (ix1 i) = ix2 (⟨0, Nat.one_pos⟩ : Fin 1) i :=
  Shape.reshapeEquiv_eq_of_rowMajor h (by
    rw [Shape.rowMajor_val_two, Shape.rowMajor_val_one]
    show 0 * a + i.val = i.val
    simp only [Nat.zero_mul, Nat.zero_add])

/-- The index of shape `[n]` at row-major position `k` is `k`. -/
theorem rowMajor_symm_ix1 {n : ℕ} (k : Fin (⟨1, ![n]⟩ : Shape).numel) (hk : k.val < n) :
    (⟨1, ![n]⟩ : Shape).rowMajor.symm k = ix1 (⟨k.val, hk⟩ : Fin n) := by
  rw [Equiv.symm_apply_eq]
  apply Fin.ext
  rw [Shape.rowMajor_val_one]
  rfl

/-- A task's number is below 32. -/
theorem task_lt (L : grid0.Coords) : 2 * (L 1).val + (L 0).val < 32 := by
  have h0 := (L 0).isLt; have h1 := (L 1).isLt
  have e0 : grid0.bound 0 = 2 := rfl; have e1 : grid0.bound 1 = 16 := rfl
  omega

/-! ## The index scratch once the task's block has landed -/

section Lists

variable [FloatOps F]

/-- Element `k` of the list at offsets `(r, 0)` of the index scratch is element `(r, k)` of the scratch. -/
theorem list_emb (r : Fin 4) (oW : Fin 2 → ℕ) (hW : ∀ a, oW a + S1x128.size a ≤ S4x128.size a) (hW0 : oW 0 = r.val) (hW1 : oW 1 = 0)
    (k : Fin 128) :
    (Rect.unit (s := S4x128) oW S1x128.size hW).emb (Shape.reshapeEquiv squeezes_S1x128_S128.numel_eq (ix1 k)) = ix2 r k := by
  rw [reshapeEquiv_ix1_1a squeezes_S1x128_S128.numel_eq k]
  funext a
  apply Fin.ext
  match a with
  | ⟨0, _⟩ => show oW 0 + 1 * 0 = r.val; omega
  | ⟨1, _⟩ => show oW 1 + 1 * k.val = k.val; omega

/-- Element `(r, k)` of the task's block of the index words is word `(2·s + c, r, k)`. -/
theorem block_emb (L : grid0.Coords) (r : Fin 4) (k : Fin 128) :
    (Rect.unit (s := S32x4x128) (k0_off1 L) S1x4x128.size (k0_off1_inb L)).emb
        (Shape.reshapeEquiv squeezes_S1x4x128_S4x128.numel_eq (ix2 r k))
      = ix3 (⟨2 * (L 1).val + (L 0).val, task_lt L⟩ : Fin 32) r k := by
  rw [reshapeEquiv_ix2_1ab squeezes_S1x4x128_S4x128.numel_eq r k]
  have ho := k0_off1_eq L
  funext a
  apply Fin.ext
  match a with
  | ⟨0, _⟩ => show k0_off1 L 0 + 1 * 0 = 2 * (L 1).val + (L 0).val; rw [ho]; simp
  | ⟨1, _⟩ => show k0_off1 L 1 + 1 * r.val = r.val; rw [ho]; simp
  | ⟨2, _⟩ => show k0_off1 L 2 + 1 * k.val = k.val; rw [ho]; simp

/-- Word k of list r of the index scratch, once the task's block has landed there, is word (2·s + c, r, k) of the index words. -/
theorem list_word (d : Dev nD) (L : grid0.Coords) (r : Fin 4) (oW : Fin 2 → ℕ) (hW : ∀ a, oW a + S1x128.size a ≤ S4x128.size a) (hW0 : oW 0 = r.val) (hW1 : oW 1 = 0)
    (fw : Buf (Elt F) (wLoc d)) (fsw : Buf (Elt F) ((V d (cV L) (jV L)).loc cc0_scratch0)) (k : Fin 128) :
    (sWg oW hW).view.read (Elt F) (View.write (Elt F) (sW : Memref sig .scVector .vmem S4x128 .i32).view fsw (ReadAs.same.apply ((wRowK L).view.read (Elt F) fw)) Finset.univ) (ix1 k)
      = fw (ix3 (⟨2 * (L 1).val + (L 0).val, by have h0 := (L 0).isLt; have h1 := (L 1).isLt; have e0 : grid0.bound 0 = 2 := rfl; have e1 : grid0.bound 1 = 16 := rfl; omega⟩ : Fin 32) r k) := by
  calc (sWg oW hW).view.read (Elt F) (View.write (Elt F) (sW : Memref sig .scVector .vmem S4x128 .i32).view fsw (ReadAs.same.apply ((wRowK L).view.read (Elt F) fw)) Finset.univ) (ix1 k)
      = (sW : Memref sig .scVector .vmem S4x128 .i32).view.read (Elt F) (View.write (Elt F) (sW : Memref sig .scVector .vmem S4x128 .i32).view fsw (ReadAs.same.apply ((wRowK L).view.read (Elt F) fw)) Finset.univ)
          ((Rect.unit (s := S4x128) oW S1x128.size hW).emb (Shape.reshapeEquiv squeezes_S1x128_S128.numel_eq (ix1 k))) := rfl
    _ = (sW : Memref sig .scVector .vmem S4x128 .i32).view.read (Elt F) (View.write (Elt F) (sW : Memref sig .scVector .vmem S4x128 .i32).view fsw (ReadAs.same.apply ((wRowK L).view.read (Elt F) fw)) Finset.univ)
          (ix2 r k) := by rw [list_emb r oW hW hW0 hW1 k]
    _ = (wRowK L).view.read (Elt F) fw (ix2 r k) := View.read_write_of_mem _ _ (Finset.mem_univ _)
    _ = (wV : Memref sig .scVector .hbm S32x4x128 .i32).view.read (Elt F) fw
          ((Rect.unit (s := S32x4x128) (k0_off1 L) S1x4x128.size (k0_off1_inb L)).emb
            (Shape.reshapeEquiv squeezes_S1x4x128_S4x128.numel_eq (ix2 r k))) := rfl
    _ = (wV : Memref sig .scVector .hbm S32x4x128 .i32).view.read (Elt F) fw
          (ix3 (⟨2 * (L 1).val + (L 0).val, task_lt L⟩ : Fin 32) r k) := by rw [block_emb L r k]
    _ = _ := rfl

/-- So every word of every list names a row of the table when every index word does. -/
theorem list_inRange (d : Dev nD) (L : grid0.Coords) (r : Fin 4) (oW : Fin 2 → ℕ) (hW : ∀ a, oW a + S1x128.size a ≤ S4x128.size a) (hW0 : oW 0 = r.val) (hW1 : oW 1 = 0)
    (fw : Buf (Elt F) (wLoc d)) (fsw : Buf (Elt F) ((V d (cV L) (jV L)).loc cc0_scratch0)) (hw : ∀ i, (fw i).toNat < 100000) :
    ∀ x, ((sWg oW hW).view.read (Elt F) (View.write (Elt F) (sW : Memref sig .scVector .vmem S4x128 .i32).view fsw (ReadAs.same.apply ((wRowK L).view.read (Elt F) fw)) Finset.univ) x).toNat < S100000x128.size gathers_S100000x128_S128x128.axis := by
  intro x
  obtain ⟨k, rfl⟩ : ∃ k : Fin 128, x = ix1 k := ⟨x 0, eq_ix1 x⟩
  rw [list_word d L r oW hW hW0 hW1 fw fsw k]
  exact hw _

end Lists

/-! ## A chunk of the task's rows of the result -/

section Chunk

variable [FloatOps F]

/-- The table through the whole-array slice a gather names it by reads the table. -/
theorem tSl_read (d : Dev nD) (ft : Buf (Elt F) (tLoc d)) (z : S100000x128.Idx) : tSl.view.read (Elt F) ft z = ft z := by
  have e : (Rect.unit (s := S100000x128) ![0, 0] S100000x128.size inb_S100000x128_S100000x128_0_0).emb z = z := by
    funext a
    apply Fin.ext
    match a with
    | ⟨0, _⟩ => show 0 + 1 * (z 0).val = (z 0).val; omega
    | ⟨1, _⟩ => show 0 + 1 * (z 1).val = (z 1).val; omega
  show (tV : Memref sig .scVector .hbm S100000x128 .f32).view.read (Elt F) ft
      ((Rect.unit (s := S100000x128) ![0, 0] S100000x128.size inb_S100000x128_S100000x128_0_0).emb z) = ft z
  rw [e]
  rfl

/-- Row `p` of chunk `r` of a task's rows is row `1024·s + 512·c + 128·r + p` of the result. -/
theorem chunk_row_lt (L : grid0.Coords) (r : Fin 4) (p : Fin 128) :
    1024 * (L 1).val + 512 * (L 0).val + 128 * r.val + p.val < 16384 := by
  have h0 := (L 0).isLt; have h1 := (L 1).isLt
  have e0 : grid0.bound 0 = 2 := rfl; have e1 : grid0.bound 1 = 16 := rfl
  omega

theorem chunk_emb (L : grid0.Coords) (r : Fin 4) (p q : Fin 128) :
    ((oChunkK L r).view.emb (ix2 p q) : S16384x128.Idx)
      = ix2 (⟨1024 * (L 1).val + 512 * (L 0).val + 128 * r.val + p.val, chunk_row_lt L r p⟩ : Fin 16384) q := by
  have ho := k0_off2_eq L r
  funext a
  apply Fin.ext
  match a with
  | ⟨0, _⟩ =>
    show k0_off2 L (BitVec.ofNat 32 (128 * r.val)) 0 + 1 * p.val = 1024 * (L 1).val + 512 * (L 0).val + 128 * r.val + p.val
    rw [ho]; simp
  | ⟨1, _⟩ =>
    show k0_off2 L (BitVec.ofNat 32 (128 * r.val)) 1 + 1 * q.val = q.val
    rw [ho]; simp

/-- The gathered rows at a row of a chunk, read off the block of index words. -/
theorem rowsOfBlocks_chunk (L : grid0.Coords) (r : Fin 4) (p q : Fin 128) {α : Type} (tab : S100000x128.Idx → α)
    (w : IVec S32x4x128 32) (hw : ∀ i, (w i).toNat < 100000) :
    Cert.Proof.Spec.rowsOfBlocks tab w
        (ix2 (⟨1024 * (L 1).val + 512 * (L 0).val + 128 * r.val + p.val, chunk_row_lt L r p⟩ : Fin 16384) q)
      = tab (ix2 (⟨(w (ix3 (⟨2 * (L 1).val + (L 0).val, task_lt L⟩ : Fin 32) r p)).toNat, hw _⟩ : Fin 100000) q) := by
  have h0 := (L 0).isLt; have h1 := (L 1).isLt
  have e0 : grid0.bound 0 = 2 := rfl; have e1 : grid0.bound 1 = 16 := rfl
  have hr := r.isLt; have hp := p.isLt
  unfold Cert.Proof.Spec.rowsOfBlocks
  have ei : (ix3 (⟨(1024 * (L 1).val + 512 * (L 0).val + 128 * r.val + p.val) / 512, by omega⟩ : Fin 32)
      (⟨(1024 * (L 1).val + 512 * (L 0).val + 128 * r.val + p.val) / 128 % 4, by omega⟩ : Fin 4)
      (⟨(1024 * (L 1).val + 512 * (L 0).val + 128 * r.val + p.val) % 128, by omega⟩ : Fin 128) : S32x4x128.Idx)
      = ix3 (⟨2 * (L 1).val + (L 0).val, task_lt L⟩ : Fin 32) r p := by
    funext a
    apply Fin.ext
    match a with
    | ⟨0, _⟩ => show (1024 * (L 1).val + 512 * (L 0).val + 128 * r.val + p.val) / 512 = 2 * (L 1).val + (L 0).val; omega
    | ⟨1, _⟩ => show (1024 * (L 1).val + 512 * (L 0).val + 128 * r.val + p.val) / 128 % 4 = r.val; omega
    | ⟨2, _⟩ => show (1024 * (L 1).val + 512 * (L 0).val + 128 * r.val + p.val) % 128 = p.val; omega
  refine congrArg tab (congrArg (fun t : Fin 100000 => ix2 t q) (Fin.ext ?_))
  show min (w (ix3 _ _ _)).toNat 99999 = (w _).toNat
  rw [ei]
  have := hw (ix3 (⟨2 * (L 1).val + (L 0).val, task_lt L⟩ : Fin 32) r p)
  omega

/-- Contents of the result at an element of a chunk, as the chunk reads them. -/
theorem oChunk_apply (d : Dev nD) (L : grid0.Coords) (r : Fin 4) (g : Buf (Elt F) (oLoc d)) (y : S128x128.Idx) :
    g ((oChunkK L r).view.emb y) = (oChunkK L r).view.read (Elt F) g y := rfl

/-- The table row a gather reads for row `p` of its destination, when the offsets are the list `idx`: the row word `p` names. -/
theorem gather_idx (idx : S128.Idx → Elt F .i32) (hn : S128.numel = S128x128.size gathers_S100000x128_S128x128.axis')
    (hin : ∀ x, (idx x).toNat < S100000x128.size gathers_S100000x128_S128x128.axis) (p q : Fin 128) :
    (gathers_S100000x128_S128x128.idx (SparseCore.rows idx hn hin) (ix2 p q) : S100000x128.Idx)
      = ix2 (⟨(idx (ix1 p)).toNat, hin _⟩ : Fin 100000) q := by
  funext a
  apply Fin.ext
  match a with
  | ⟨0, _⟩ =>
    have e1 := congrArg Fin.val (Shape.Gathers.idx_axis gathers_S100000x128_S128x128 (SparseCore.rows idx hn hin) (ix2 p q))
    refine e1.trans ?_
    show (idx (S128.rowMajor.symm ((p : Fin 128).cast hn.symm))).toNat = (idx (ix1 p)).toNat
    rw [rowMajor_symm_ix1 _ p.isLt]
    rfl
  | ⟨1, _⟩ => exact Shape.Gathers.idx_of_ne gathers_S100000x128_S128x128 _ (ix2 p q) 1 (by decide)

/-- THE VALUE: on its own elements, chunk r of the task's rows of the result ends at the gathered rows. -/
theorem landed_chunk (d : Dev nD) (L : grid0.Coords) (r : Fin 4) (oW : Fin 2 → ℕ) (hW : ∀ a, oW a + S1x128.size a ≤ S4x128.size a) (hW0 : oW 0 = r.val) (hW1 : oW 1 = 0)
    (oR : Fin 2 → ℕ) (hR : ∀ a, oR a + S128x128.size a ≤ S512x128.size a)
    (ft : Buf (Elt F) (tLoc d)) (fw : Buf (Elt F) (wLoc d)) (fo : Buf (Elt F) (oLoc d))
    (fsw : Buf (Elt F) ((V d (cV L) (jV L)).loc cc0_scratch0)) (fsr : Buf (Elt F) ((V d (cV L) (jV L)).loc cc0_scratch1))
    (hw : ∀ i, (fw i).toNat < 100000)
    (hn : S128.numel = S128x128.size gathers_S100000x128_S128x128.axis')
    (hin : ∀ x, ((sWg oW hW).view.read (Elt F) (View.write (Elt F) (sW : Memref sig .scVector .vmem S4x128 .i32).view fsw (ReadAs.same.apply ((wRowK L).view.read (Elt F) fw)) Finset.univ) x).toNat < S100000x128.size gathers_S100000x128_S128x128.axis)
    (x : S16384x128.Idx) (hx : x ∈ (oChunkK L r).view.set) :
    (oChunkK L r).view.writes (Elt F) fo [⟨Rect.whole S128x128, ReadAs.same.apply ((sRg oR hR).view.read (Elt F) ((sRg oR hR).view.writes (Elt F) fsr
        [⟨Rect.whole S128x128, SparseCore.gatherPayload gathers_S100000x128_S128x128 (tSl.view.read (Elt F) ft)
            (SparseCore.rows ((sWg oW hW).view.read (Elt F) (View.write (Elt F) (sW : Memref sig .scVector .vmem S4x128 .i32).view fsw (ReadAs.same.apply ((wRowK L).view.read (Elt F) fw)) Finset.univ)) hn hin)⟩]))⟩] x
      = Cert.Proof.Spec.rowsOfBlocks ft fw x := by
  obtain ⟨y, rfl⟩ := View.exists_emb_of_mem_set (oChunkK L r).view hx
  obtain ⟨p, q, rfl⟩ : ∃ p q : Fin 128, y = ix2 p q := ⟨y 0, y 1, eq_ix2 y⟩
  have hword := fun k => list_word d L r oW hW hW0 hW1 fw fsw k
  generalize (sWg oW hW).view.read (Elt F) (View.write (Elt F) (sW : Memref sig .scVector .vmem S4x128 .i32).view fsw (ReadAs.same.apply ((wRowK L).view.read (Elt F) fw)) Finset.univ) = idx at hin hword
  refine (oChunk_apply d L r _ (ix2 p q)).trans ?_
  rw [read_writes_whole]
  show (sRg oR hR).view.read (Elt F) ((sRg oR hR).view.writes (Elt F) fsr [⟨Rect.whole S128x128, _⟩]) (ix2 p q) = _
  rw [read_writes_whole]
  unfold SparseCore.gatherPayload
  rw [tSl_read, gather_idx idx hn hin p q, chunk_emb L r p q, rowsOfBlocks_chunk L r p q ft fw hw]
  refine congrArg ft (congrArg (fun t : Fin 100000 => ix2 t q) (Fin.ext ?_))
  show (idx (ix1 p)).toNat = _
  rw [hword p]

end Chunk

end Cert.Proof.KernelRun

end
-- ==== Proof.KernelTile.lean ====
/-
  One vector subcore's task of the kernel: the rows of the table that its 512 index words name end in its 512
  rows of the result.
-/
import proofs.«216976_g54288386621730_cont_9to1_m_1068_22_alg».proof.Proof.KernelShare
import proofs.«216976_g54288386621730_cont_9to1_m_1068_22_alg».proof.Proof.KernelValue

noncomputable section

namespace Cert.Proof.KernelRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-! ## The task -/

section Tile

variable (d : Dev nD) (L : grid0.Coords)

omit [FloatOps F] in
/-- A wait recorded at the task's own index is one the launch allows. -/
theorem waits_ins {W' W : Waits sig (HIx 1)} (sm : SemLoc sig) (h : ∀ p ∈ W', p ∈ W ∨ p.2 = none) :
    ∀ p ∈ insert (sm, (default : HIx 1)) W', p ∈ W ∨ p.2 = none :=
  fun p hp => (Finset.mem_insert.mp hp).elim (fun e => .inr (e ▸ rfl)) (h p)

set_option maxRecDepth 65536 in
/-- The task on vector subcore `(L 0, L 1)` of device `d`. It fetches its block of the index words; starts four gathers, one per
    list of 128 words, each on a semaphore of its own, each landing 128 rows of the table in a piece of its own of the row
    scratch; as each gather is waited for, its piece is copied out to its chunk of the result — the four copies on two
    semaphores, two copies each, nothing touching a piece or a chunk until all four are waited for —; then the four waits.
    Every word names a row of the table (`hw`), so no gather is abandoned; the chunks end at the rows the words name. -/
theorem tile_body [∀ e, Nonempty (Elt F e)] (hF : (K (F := F)).Facts) (ft : Buf (Elt F) (tLoc d)) (fw : Buf (Elt F) (wLoc d)) (fo : Buf (Elt F) (oLoc d))
    (hw : ∀ i, (fw i).toNat < 100000)
    (O : CellTallies nD τ sig (HIx 1)) (W : Waits sig (HIx 1)) (hO : ∀ g, O g none = 0) :
    iprop(levAts (K (F := F)).L (K (F := F)).lev ∗ emp ∗ tileRes d (L 0).val (L 1).val ft fw fo
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__gather_body L tV (Memref.isWhole_whole _) wV (Memref.isWhole_whole _) oV (Memref.isWhole_whole _)
            sW (Memref.isWhole_whole _) sR (Memref.isWhole_whole _) cc0_scratch2 cc0_scratch3 cc0_scratch4 cc0_scratch5 cc0_scratch6 cc0_scratch7 cc0_scoped0)
          fun _ => iprop(tileRes d (L 0).val (L 1).val ft fw (gathered d ft fw) ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), ownSems0_V, ownBufs_V]
  unfold tileRes
  iintro ⟨#Hlv, -, ⟨Ht, Hw, Ho0, Ho1, Ho2, Ho3⟩, ⟨⟨%fsw, Hsw⟩, ⟨%fsr, Hsr⟩, Hbufs⟩, ⟨Hs2, Hs3, Hs4, Hs5, Hs6, Hs7, Hs0, Hsems⟩, HO⟩
  rw [cc0__gather_body_eq_skeleton]; unfold cc0__gather_body_skel
  ihave Hmw := ((K (F := F)).mayWaits_none (thr := V d (cV L) (jV L)) hO) $$ Hlv
  -- the arrays as the task's memrefs address them
  ihave Ht' := (Entails.of_eq (pts_t (F := F) d (cV L) (jV L) _ ft).symm) $$ Ht
  ihave Hw' := (Entails.of_eq (pts_w (F := F) d L fw).symm) $$ Hw
  ihave Hc0 := (Entails.of_eq (pts_o' (F := F) d L 0 0 rfl fo).symm) $$ Ho0
  ihave Hc1 := (Entails.of_eq (pts_o' (F := F) d L 1 1 rfl fo).symm) $$ Ho1
  ihave Hc2 := (Entails.of_eq (pts_o' (F := F) d L 2 2 rfl fo).symm) $$ Ho2
  ihave Hc3 := (Entails.of_eq (pts_o' (F := F) d L 3 3 rfl fo).symm) $$ Ho3
  ihave Hsw' := (Entails.of_eq (pts_sW (F := F) d (cV L) (jV L) fsw).symm) $$ Hsw
  ihave Hsr' := (Entails.of_eq (pts_sR (F := F) d (cV L) (jV L) fsr).symm) $$ Hsr
  -- the table as four read tokens, one per gather in flight, and a remainder; the row scratch as its four pieces
  ihave Htk := ((Transfers.pointsTo_toks_split (Ix := HIx 1) (Name := ℕ) (U := UU) (Lvl := ℕ) (tokT (L 0).val (L 1).val) 4).trans
    (Entails.of_eq (by rw [bigSep_fin4]))) $$ Ht'
  icases Htk with ⟨Htr, Ht0, Ht1, Ht2, Ht3⟩
  ihave Hpc := (Entails.of_eq (sR_pieces (F := F) d (cV L) (jV L) fsr)) $$ Hsr'
  icases Hpc with ⟨Hr0, Hr1, Hr2, Hr3⟩
  -- the two write-back semaphores each complete two copies; every word of every list names a row
  have _p6 : Transfers.BatchOf (V d (cV L) (jV L)) (SemLoc.dma (sig := sig) cc0_scratch6.sem) 2 := trivial
  have _p7 : Transfers.BatchOf (V d (cV L) (jV L)) (SemLoc.dma (sig := sig) cc0_scratch7.sem) 2 := trivial
  have hin0 := list_inRange (F := F) d L 0 ![0, 0] inb_S4x128_S1x128_0_0 rfl rfl fw fsw hw
  have hin1 := list_inRange (F := F) d L 1 ![1, 0] inb_S4x128_S1x128_1_0 rfl rfl fw fsw hw
  have hin2 := list_inRange (F := F) d L 2 ![2, 0] inb_S4x128_S1x128_2_0 rfl rfl fw fsw hw
  have hin3 := list_inRange (F := F) d L 3 ![3, 0] inb_S4x128_S1x128_3_0 rfl rfl fw fsw hw
  sl_exec
  -- the index scratch, landed, as its four lists
  ihave Hls := (Entails.of_eq (sW_pieces (F := F) d (cV L) (jV L) _)) $$ Hsw'
  icases Hls with ⟨Hw0, Hw1, Hw2, Hw3⟩
  sl_exec
  sl_step
  -- the arrays back
  isplitl [Htr Ht0 Ht1 Ht2 Ht3 Hw' Hc0 Hc1 Hc2 Hc3]
  · isplitl [Htr Ht0 Ht1 Ht2 Ht3]
    · iapply (Entails.of_eq (pts_t (F := F) d (cV L) (jV L) _ ft))
      iapply ((Entails.of_eq (by rw [bigSep_fin4])).trans
        (Transfers.pointsTo_toks_join (Ix := HIx 1) (Name := ℕ) (U := UU) (Lvl := ℕ) (tokT (L 0).val (L 1).val) 4))
      isplitl [Htr]; · iexact Htr
      isplitl [Ht0]; · iexact Ht0
      isplitl [Ht1]; · iexact Ht1
      isplitl [Ht2]; · iexact Ht2
      iexact Ht3
    isplitl [Hw']; · iapply (Entails.of_eq (pts_w (F := F) d L fw)); iexact Hw'
    isplitl [Hc0]
    · iapply (Entails.of_eq ((pointsTo_congr (fun x hx => landed_chunk (F := F) d L 0 ![0, 0] inb_S4x128_S1x128_0_0 rfl rfl ![0, 0] inb_S512x128_S128x128_0_0 ft fw fo fsw fsr hw rfl hin0 x hx)).trans (pts_o' (F := F) d L 0 0 rfl _)))
      iexact Hc0
    isplitl [Hc1]
    · iapply (Entails.of_eq ((pointsTo_congr (fun x hx => landed_chunk (F := F) d L 1 ![1, 0] inb_S4x128_S1x128_1_0 rfl rfl ![128, 0] inb_S512x128_S128x128_128_0 ft fw fo fsw fsr hw rfl hin1 x hx)).trans (pts_o' (F := F) d L 1 1 rfl _)))
      iexact Hc1
    isplitl [Hc2]
    · iapply (Entails.of_eq ((pointsTo_congr (fun x hx => landed_chunk (F := F) d L 2 ![2, 0] inb_S4x128_S1x128_2_0 rfl rfl ![256, 0] inb_S512x128_S128x128_256_0 ft fw fo fsw fsr hw rfl hin2 x hx)).trans (pts_o' (F := F) d L 2 2 rfl _)))
      iexact Hc2
    · iapply (Entails.of_eq ((pointsTo_congr (fun x hx => landed_chunk (F := F) d L 3 ![3, 0] inb_S4x128_S1x128_3_0 rfl rfl ![384, 0] inb_S512x128_S128x128_384_0 ft fw fo fsw fsr hw rfl hin3 x hx)).trans (pts_o' (F := F) d L 3 3 rfl _)))
      iexact Hc3
  -- the scratches back
  isplitl [Hw0 Hw1 Hw2 Hw3 Hr0 Hr1 Hr2 Hr3 Hbufs]
  · isplitl [Hw0 Hw1 Hw2 Hw3]
    · iexists _
      iapply (Entails.of_eq ((sW_pieces (F := F) d (cV L) (jV L) _).symm.trans (pts_sW (F := F) d (cV L) (jV L) _)))
      isplitl [Hw0]; · iexact Hw0
      isplitl [Hw1]; · iexact Hw1
      isplitl [Hw2]; · iexact Hw2
      iexact Hw3
    isplitl [Hr0 Hr1 Hr2 Hr3]
    · iapply (sR_rejoin (F := F) d (cV L) (jV L) _ _ _ _)
      isplitl [Hr0]; · iexact Hr0
      isplitl [Hr1]; · iexact Hr1
      isplitl [Hr2]; · iexact Hr2
      iexact Hr3
    iexact Hbufs
  -- the semaphores back at zero
  isplitl [Hs2 Hs3 Hs4 Hs5 Hs6 Hs7 Hs0 Hsems]
  · isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs0]; · iexact Hs0
    iexact Hsems
  iexists _; isplitr
  rotate_left
  · iexact HO
  · ipureintro
    iterate 9 refine waits_ins _ ?_
    exact fun p hp => .inl hp

end Tile

end Cert.Proof.KernelRun

end
-- ==== Proof.KernelLaunch.lean ====
/-
  The kernel's run: @main on the TensorCore reshapes the index list into 32 blocks of 4 lists of 128 words and
  starts the gather on both SparseCores; each of the 32 vector subcores copies the 512 table rows its block names to its
  512 rows of the result. Every weakly fair execution ends, nothing faults, the table and the index list end as they began,
  and the result ends at the rows the index list names.
-/
import proofs.«216976_g54288386621730_cont_9to1_m_1068_22_alg».proof.Proof.KernelTile
import Idealize.ShloMosaic.Lib.Pipeline.Value

noncomputable section

namespace Cert.Proof.KernelRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ) (ρ : Dev nD → PrngReg)

/-- The index list as @main receives it. -/
abbrev aLoc (d : Dev nD) : Loc nD τ sig := (SparseCore.T d).loc main_arg1

variable [FloatOps F]

/-! ## @main's reshape -/

abbrev t' : DevRef τ sig := Proc.devRef .tc (main_arg0 : Ref sig .tc)
abbrev a' : DevRef τ sig := Proc.devRef .tc (main_arg1 : Ref sig .tc)
abbrev w' : DevRef τ sig := Proc.devRef .tc (main_v0 : Ref sig .tc)
abbrev o' : DevRef τ sig := Proc.devRef .tc (main_v1 : Ref sig .tc)
abbrev opR : HloOp τ sig (Elt F) := StableHlo.reshape main_arg1 main_v0 rfl shapeCasts_S16384_S32x4x128

/-- The TensorCore's four arrays, all unscoped. -/
abbrev S4 : Finset (DevRef τ sig) := {t', a', w', o'}

/-- The launch valuation. -/
def V0 (d : Dev nD) : Valuation τ sig (Elt F) := fun b => m (d, b)

/-- The index words as the kernel receives them: the list cut, in row-major order, into 32 blocks of 4 lists of 128. -/
def W0 (d : Dev nD) : Buf (Elt F) (wLoc d) := (opR (F := F)).result (V0 m d) w'

theorem W0_apply (d : Dev nD) (a : Fin 32) (b : Fin 4) (c : Fin 128) :
    W0 m d (ix3 a b c) = m (aLoc d) (ix1 (⟨512 * a.val + 128 * b.val + c.val, by omega⟩ : Fin 16384)) := by
  unfold W0
  rw [StableHlo.reshape_result]
  refine shapeCast_apply _ _ _ _ ?_
  show (S16384.rowMajor (ix1 (⟨512 * a.val + 128 * b.val + c.val, by omega⟩ : Fin 16384))).val = (S32x4x128.rowMajor (ix3 a b c)).val
  rw [Shape.rowMajor_val_one, Shape.rowMajor_val_three]
  show 512 * a.val + 128 * b.val + c.val = (a.val * 4 + b.val) * 128 + c.val
  omega

/-- When every word of the list names a row, so does every word of the blocks. -/
theorem W0_inRange (d : Dev nD) (h : Cert.Proof.Spec.InRange (m (aLoc d))) : ∀ i, (W0 m d i).toNat < 100000 := by
  intro i
  obtain ⟨a, b, c, rfl⟩ : ∃ (a : Fin 32) (b : Fin 4) (c : Fin 128), i = ix3 a b c := ⟨i 0, i 1, i 2, eq_ix3 i⟩
  rw [W0_apply]
  exact h _

/-- The rows the blocks name are the rows the list names. -/
theorem gathered_eq (d : Dev nD) :
    gathered d (m (tLoc d)) (W0 m d) = Cert.Proof.Spec.rowsOf (α := Elt F .f32) (m (tLoc d)) (m (aLoc d)) :=
  Cert.Proof.Spec.rowsOfBlocks_eq _ _ _ (fun a b c => W0_apply m d a b c)

/-! ## What the launch handshakes carry -/

/-- What one SparseCore is handed for the call: its read share of the table, and for each of its sixteen subcores the block
    of index words and the four chunks of the result that are that subcore's. -/
def coreRes (d : Dev nD) (cn : ℕ) (fo : Buf (Elt F) (oLoc d)) : sProp 𝕄 :=
  iprop((tLoc d ↦{tokC cn} m (tLoc d))
    ∗ bigSep Finset.univ fun s : Fin 16 =>
        iprop((wLoc d ↦[wSetN cn s.val]{fullShare} W0 m d)
          ∗ (oLoc d ↦[oSetN cn s.val 0]{fullShare} fo) ∗ (oLoc d ↦[oSetN cn s.val 1]{fullShare} fo)
          ∗ (oLoc d ↦[oSetN cn s.val 2]{fullShare} fo) ∗ (oLoc d ↦[oSetN cn s.val 3]{fullShare} fo)))

instance coreRes_storable (d : Dev nD) (cn : ℕ) (fo : Buf (Elt F) (oLoc d)) : BI.Storable (upEmb : UEmb _ 𝕄) (coreRes m d cn fo) := by
  unfold coreRes; infer_instance
instance tileRes_storable (d : Dev nD) (cn sn : ℕ) (ft : Buf (Elt F) (tLoc d)) (fw : Buf (Elt F) (wLoc d)) (fo : Buf (Elt F) (oLoc d)) :
    BI.Storable (upEmb : UEmb _ 𝕄) (tileRes d cn sn ft fw fo) := by
  unfold tileRes; infer_instance

/-- The call hands each SparseCore its share and takes it back with the result's chunks at the gathered rows; each task
    likewise. The kernel's own semaphores are the tasks' scoped ones: nothing of the launch's is consumed. -/
def P : (K (F := F)).Pay (nD := nD) (Val := Elt F) (Name := ℕ) (U := UU) where
  st := fun _ d c => coreRes m d c.val (m (oLoc d))
  dn := fun _ d c => coreRes m d c.val (gathered d (m (tLoc d)) (W0 m d))
  go := fun _ d c i => tileRes d c.val i.val (m (tLoc d)) (W0 m d) (m (oLoc d))
  td := fun _ d c i => tileRes d c.val i.val (m (tLoc d)) (W0 m d) (gathered d (m (tLoc d)) (W0 m d))
  x := fun _ _ => iprop(emp)

instance P_storable : (P (F := F) m).IsStorable where
  st _ d c := by unfold P; infer_instance
  dn _ d c := by unfold P; infer_instance
  go _ d c i := by unfold P; infer_instance
  td _ d c i := by unfold P; infer_instance

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__gather_body (coordsV c s)
          tV (Memref.isWhole_whole _) wV (Memref.isWhole_whole _) oV (Memref.isWhole_whole _)
          sW (Memref.isWhole_whole _) sR (Memref.isWhole_whole _)
          cc0_scratch2 cc0_scratch3 cc0_scratch4 cc0_scratch5 cc0_scratch6 cc0_scratch7 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every task of the call, from its share to its share with its chunks gathered. -/
theorem tileObl [∀ e, Nonempty (Elt F e)] (hF : (K (F := F)).Facts) (hpre : ∀ d, Cert.Proof.Spec.InRange (m (aLoc d))) :
    (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) hF (m (tLoc d)) (W0 m d) (m (oLoc d)) (W0_inRange m d (hpre d)) O W hO).trans
    (wp_mono frame _ _ fun _ => obl_post)

omit [FloatOps F] in
theorem bigSep_tasks (Φ : Fin 16 → sProp 𝕄) :
    (bigSep Finset.univ fun i : Fin ((K (F := F)).nSub 0) => Φ i) = bigSep Finset.univ Φ := rfl

omit [FloatOps F] in
/-- Sixteen tasks' shares are their sixteen read shares of the table and the rest. -/
theorem tiles_eq (d : Dev nD) (cn : ℕ) (ft : Buf (Elt F) (tLoc d)) (fw : Buf (Elt F) (wLoc d)) (fo : Buf (Elt F) (oLoc d)) :
    (bigSep Finset.univ fun i : Fin 16 => tileRes d cn i.val ft fw fo)
      = iprop((bigSep Finset.univ fun i : Fin 16 => tLoc d ↦{tokT cn i.val} ft)
          ∗ bigSep Finset.univ fun s : Fin 16 =>
              iprop((wLoc d ↦[wSetN cn s.val]{fullShare} fw)
                ∗ (oLoc d ↦[oSetN cn s.val 0]{fullShare} fo) ∗ (oLoc d ↦[oSetN cn s.val 1]{fullShare} fo)
                ∗ (oLoc d ↦[oSetN cn s.val 2]{fullShare} fo) ∗ (oLoc d ↦[oSetN cn s.val 3]{fullShare} fo))) := by
  unfold tileRes
  exact bigSep_sep' _ _ _

/-- A SparseCore's share is its sixteen tasks' shares: its read share of the table split again, one piece per task. -/
theorem vecSplit : (K (F := F)).VecSplit' (P m) 0 := by
  intro d c
  show coreRes m d c.val (m (oLoc d)) ⊢ |={Set.univ}=> iprop(
      (bigSep Finset.univ fun i : Fin 16 => tileRes d c.val i.val (m (tLoc d)) (W0 m d) (m (oLoc d)))
      ∗ ((bigSep Finset.univ fun i : Fin 16 => tileRes d c.val i.val (m (tLoc d)) (W0 m d) (gathered d (m (tLoc d)) (W0 m d)))
          -∗ coreRes m d c.val (gathered d (m (tLoc d)) (W0 m d))))
  rw [tiles_eq, tiles_eq]
  unfold coreRes
  iintro ⟨Ht, Hrest⟩
  ihave Htk := (Transfers.pointsTo_toks_split (Ix := HIx 1) (Name := ℕ) (U := UU) (Lvl := ℕ) (tokC c.val) 16) $$ Ht
  icases Htk with ⟨Htr, Htoks⟩
  imodintro
  isplitl [Htoks Hrest]
  · isplitl [Htoks]; · iexact Htoks
    iexact Hrest
  iintro ⟨Htoks, Hrest⟩
  isplitl [Htr Htoks]
  · iapply (Transfers.pointsTo_toks_join (Ix := HIx 1) (Name := ℕ) (U := UU) (Lvl := ℕ) (tokC c.val) 16)
    isplitl [Htr]; · iexact Htr
    iexact Htoks
  iexact Hrest

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The arrays whole are the SparseCores' shares -/

omit [FloatOps F] in
theorem w_key_lt (x : S32x4x128.Idx) : (x 0).val % 2 < 2 ∧ (x 0).val / 2 < 16 := by
  have h : (x 0).val < 32 := (x 0).isLt
  omega
omit [FloatOps F] in
theorem o_key_lt (x : S16384x128.Idx) : (x 0).val / 128 / 4 % 2 < 2 ∧ (x 0).val / 128 / 8 < 16 ∧ (x 0).val / 128 % 4 < 4 := by
  have h : (x 0).val < 16384 := (x 0).isLt
  omega

omit [FloatOps F] in
/-- The index words: block `2·s + c` to subcore `s` of SparseCore `c`. -/
theorem w_split (d : Dev nD) (f : Buf (Elt F) (wLoc d)) :
    (wLoc d ↦{fullShare} f : sProp 𝕄)
      = bigSep Finset.univ fun c : Fin 2 => bigSep Finset.univ fun s : Fin 16 => wLoc d ↦[wSetN c.val s.val]{fullShare} f := by
  have hK : ∀ (x : S32x4x128.Idx) (t : Fin 2 × Fin 16),
      x ∈ wSetN t.1.val t.2.val ↔ ((⟨(x 0).val % 2, (w_key_lt x).1⟩, ⟨(x 0).val / 2, (w_key_lt x).2⟩) : Fin 2 × Fin 16) = t := by
    intro x t
    have h1 := t.1.isLt; have h2 := t.2.isLt
    simp only [wSetN, Finset.mem_filter, Finset.mem_univ, true_and, Prod.ext_iff, Fin.ext_iff]
    omega
  rw [Cert.Lib.Pieces.pointsTo_fibres (ℓ := wLoc d) (fun t : Fin 2 × Fin 16 => wSetN t.1.val t.2.val) _ hK, bigSep_univ_prod]

omit [FloatOps F] in
/-- The result: chunk `8·s + 4·c + r` of 128 rows is chunk `r` of subcore `s` of SparseCore `c`. -/
theorem o_split (d : Dev nD) (f : Buf (Elt F) (oLoc d)) :
    (oLoc d ↦{fullShare} f : sProp 𝕄)
      = bigSep Finset.univ fun c : Fin 2 => bigSep Finset.univ fun s : Fin 16 =>
          iprop((oLoc d ↦[oSetN c.val s.val 0]{fullShare} f) ∗ (oLoc d ↦[oSetN c.val s.val 1]{fullShare} f)
            ∗ (oLoc d ↦[oSetN c.val s.val 2]{fullShare} f) ∗ (oLoc d ↦[oSetN c.val s.val 3]{fullShare} f)) := by
  have hK : ∀ (x : S16384x128.Idx) (t : Fin 2 × Fin 16 × Fin 4),
      x ∈ oSetN t.1.val t.2.1.val t.2.2.val
        ↔ ((⟨(x 0).val / 128 / 4 % 2, (o_key_lt x).1⟩, ⟨(x 0).val / 128 / 8, (o_key_lt x).2.1⟩, ⟨(x 0).val / 128 % 4, (o_key_lt x).2.2⟩) : Fin 2 × Fin 16 × Fin 4) = t := by
    intro x t
    have h1 := t.1.isLt; have h2 := t.2.1.isLt; have h3 := t.2.2.isLt
    simp only [oSetN, Finset.mem_filter, Finset.mem_univ, true_and, Prod.ext_iff, Fin.ext_iff]
    omega
  rw [Cert.Lib.Pieces.pointsTo_fibres (ℓ := oLoc d) (fun t : Fin 2 × Fin 16 × Fin 4 => oSetN t.1.val t.2.1.val t.2.2.val) _ hK, bigSep_univ_prod]
  refine bigSep_congr fun c _ => ?_
  rw [bigSep_univ_prod]
  refine bigSep_congr fun s _ => ?_
  rw [bigSep_fin4]
  rfl

/-- The two SparseCores' shares are a read share of the table each, the index words whole and the result whole. -/
theorem shares_eq (d : Dev nD) (fo : Buf (Elt F) (oLoc d)) :
    (bigSep Finset.univ fun c : Fin 2 => coreRes m d c.val fo)
      = iprop((bigSep Finset.univ fun c : Fin 2 => tLoc d ↦{tokC c.val} m (tLoc d)) ∗ (wLoc d ↦{fullShare} W0 m d) ∗ (oLoc d ↦{fullShare} fo)) := by
  unfold coreRes
  rw [w_split, o_split]
  simp only [bigSep_sep']

/-! ## @main on the TensorCore -/

/-- The result as the run leaves it. -/
abbrev G (d : Dev nD) : Buf (Elt F) (oLoc d) := gathered d (m (tLoc d)) (W0 m d)

omit [FloatOps F] in
theorem held_S4 (d : Dev nD) (W : Valuation τ sig (Elt F)) :
    (held (T d) S4 W : sProp 𝕄) = iprop((tLoc d ↦{fullShare} W t') ∗ (aLoc d ↦{fullShare} W a') ∗ (wLoc d ↦{fullShare} W w') ∗ (oLoc d ↦{fullShare} W o')) := by
  unfold held S4
  rw [SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((tLoc d ↦{fullShare} W main_arg0) ∗ (aLoc d ↦{fullShare} W main_arg1) ∗ (wLoc d ↦{fullShare} W main_v0) ∗ (oLoc d ↦{fullShare} W main_v1)) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

theorem unscoped_held (d : Dev nD) : (unscopedBufs d (fun b => m ((SparseCore.T d).loc b)) : sProp 𝕄) = held (T d) S4 (V0 m d) := by
  rw [unscopedBufs_eq, held_S4]; rfl

theorem hR : (opR (F := F)).bufs ⊆ S4 := show ({a', w'} : Finset (DevRef τ sig)) ⊆ S4 by decide

/-- After the reshape: the table, the list and the result as they were, the index words cut into blocks. -/
theorem held_R (d : Dev nD) :
    (held (T d) S4 ((opR (F := F)).result (V0 m d)) : sProp 𝕄)
      = iprop((tLoc d ↦{fullShare} m (tLoc d)) ∗ (aLoc d ↦{fullShare} m (aLoc d)) ∗ (wLoc d ↦{fullShare} W0 m d) ∗ (oLoc d ↦{fullShare} m (oLoc d))) := by
  rw [held_S4, (opR (F := F)).result_of_not_mem (V0 m d) (b := t') (show t' ∉ ({w'} : Finset (DevRef τ sig)) by decide),
    (opR (F := F)).result_of_not_mem (V0 m d) (b := a') (show a' ∉ ({w'} : Finset (DevRef τ sig)) by decide),
    (opR (F := F)).result_of_not_mem (V0 m d) (b := o') (show o' ∉ ({w'} : Finset (DevRef τ sig)) by decide)]
  rfl

theorem st0_eq (d : Dev nD) :
    (bigSep Finset.univ fun c : Fin ((K (F := F)).nCore 0) => (P m).st 0 d c)
      = iprop((bigSep Finset.univ fun c : Fin 2 => tLoc d ↦{tokC c.val} m (tLoc d)) ∗ (wLoc d ↦{fullShare} W0 m d) ∗ (oLoc d ↦{fullShare} m (oLoc d))) :=
  shares_eq m d (m (oLoc d))
theorem dn0_eq (d : Dev nD) :
    (bigSep Finset.univ fun c : Fin ((K (F := F)).nCore 0) => (P m).dn 0 d c)
      = iprop((bigSep Finset.univ fun c : Fin 2 => tLoc d ↦{tokC c.val} m (tLoc d)) ∗ (wLoc d ↦{fullShare} W0 m d) ∗ (oLoc d ↦{fullShare} G m d)) :=
  shares_eq m d (G m d)

/-- What @main leaves the claim: the table and the list at their launch contents, the result at the gathered rows. -/
abbrev FIN (d : Dev nD) : sProp 𝕄 :=
  iprop((tLoc d ↦{fullShare} m (tLoc d)) ∗ (aLoc d ↦{fullShare} m (aLoc d)) ∗ (oLoc d ↦{fullShare} G m d))

/-- @main on device `d`'s TensorCore: the reshape, then the call — a read share of the table to each SparseCore and the
    remainder kept, the index words and the result handed over whole —; the list is never handed over. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  iapply (wp_hlo_within 𝒱 (SparseCore.T d) none Set.univ (op := opR) (S := S4) hR (V := V0 m d)) $$ [Hb Hheld]
  · isplitl [Hb]; · iexact Hb
    iexact Hheld
  iintro ⟨Hb, Hheld⟩
  ihave Hh := (Entails.of_eq (held_R (F := F) m d)) $$ Hheld
  icases Hh with ⟨Ht, Ha, Hw, Ho⟩
  rw [wp_ret]; imodintro
  ihave Htk := (Transfers.pointsTo_toks_split (Ix := HIx 1) (Name := ℕ) (U := UU) (Lvl := ℕ) fullShare 2) $$ Ht
  icases Htk with ⟨Htr, Htoks⟩
  iapply ((K (F := F)).wp_run (D (F := F)) 𝒱 (EH := EH) (P := P m) κ d 0) $$ [Hst Htoks Hw Ho Htr Ha]
  isplitr; · iexact Hctx
  isplitl [Hst]; · iexact Hst
  isplitl [Htoks Hw Ho]
  · rw [st0_eq]
    isplitl [Htoks]; · iexact Htoks
    isplitl [Hw]; · iexact Hw
    iexact Ho
  iintro ⟨Hst, Hdn⟩
  ihave Hdn' := (Entails.of_eq (dn0_eq m d)) $$ Hdn
  icases Hdn' with ⟨Htoks, -, Ho⟩
  imodintro
  isplitl [Hst]; · iexact Hst
  isplitl [Htr Htoks]
  · iapply (Transfers.pointsTo_toks_join (Ix := HIx 1) (Name := ℕ) (U := UU) (Lvl := ℕ) fullShare 2)
    isplitl [Htr]; · iexact Htr
    iexact Htoks
  isplitl [Ha]; · iexact Ha
  iexact Ho

def fq (d : Dev nD) (s' : Phys nD τ sig (Elt F)) : Prop :=
  s'.mem.mem (oLoc d) = G m d ∧ s'.mem.mem (tLoc d) = m (tLoc d) ∧ s'.mem.mem (aLoc d) = m (aLoc d)

theorem hfin (d : Dev nD) (s' : Phys nD τ sig (Elt F)) : iprop(FIN m d ∗ SI s') ⊢ (⌜fq m d s'⌝ : sProp 𝕄) := by
  iintro ⟨⟨Ht, Ha, Ho⟩, HSI⟩
  ihave H := (persistent_entails_right (SI_pointsTo_agree (st := s') (ℓ := tLoc d) (I := Finset.univ) (q := fullShare) (f := m (tLoc d)))) $$ [HSI Ht]
  · isplitl [HSI] <;> iassumption
  icases H with ⟨%h1, HSI, -⟩
  ihave H := (persistent_entails_right (SI_pointsTo_agree (st := s') (ℓ := aLoc d) (I := Finset.univ) (q := fullShare) (f := m (aLoc d)))) $$ [HSI Ha]
  · isplitl [HSI] <;> iassumption
  icases H with ⟨%h2, HSI, -⟩
  ihave H := (SI_pointsTo_agree (st := s') (ℓ := oLoc d) (I := Finset.univ) (q := fullShare) (f := G m d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

def QC : PUnit × MemSt nD τ sig (Elt F) → Prop := fun r => ∀ c : Dev nD,
  r.2.mem (oLoc c) = Cert.Proof.Spec.rowsOf (α := Elt F .f32) (m (tLoc c)) (m (aLoc c)) ∧ r.2.mem (tLoc c) = m (tLoc c) ∧ r.2.mem (aLoc c) = m (aLoc c)

/-- From a memory whose index list names rows of the table only: every weakly fair execution of the device's threads ends,
    nothing faulting, with the result at the rows the list names and the table and the list unchanged. -/
theorem run_main [∀ e, Nonempty (Elt F e)] (hpre : ∀ d, Cert.Proof.Spec.InRange (m (aLoc d))) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) kfacts v₀
    (fun q hq => match q with | 0 => nomatch hq)
    (fun q _ => match q with | 0 => tileObl m kfacts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m)
    (fun _ h c => ⟨(h c).1.trans (gathered_eq m c), (h c).2⟩)

end Cert.Proof.KernelRun

end
-- ==== Proof.KernelIdealPieces.lean ====
/-
  The arrays of the idealized kernel and one vector subcore's pieces of them: which elements of the index words, of the
  result and of its two scratches each of the task's transfers touches.
-/
import proofs.«216976_g54288386621730_cont_9to1_m_1068_22_alg».proof.KernelIdeal
import proofs.«216976_g54288386621730_cont_9to1_m_1068_22_alg».proof.Proof.Gen.KernelIdeal
import proofs.«216976_g54288386621730_cont_9to1_m_1068_22_alg».proof.Proof.Gen.KernelIdeal.Skeleton
import proofs.«216976_g54288386621730_cont_9to1_m_1068_22_alg».proof.Proof.Spec
import proofs.«216976_g54288386621730_cont_9to1_m_1068_22_alg».proof.Proof.LibPieces
import Idealize.ShloMosaic.Lib.SparseCore.Launch
import Idealize.ShloMosaic.Lib.SparseCore.Ops
import Idealize.ShloMosaic.Lib.SparseCore.Stream
import Idealize.ShloMosaic.Lib.Batch
import Idealize.ShloMosaic.Lib.StableHlo.Run
import Idealize.ShloMosaic.Lib.Pipeline.Kit
import Idealize.ShloMosaic.Lib.Tactic

noncomputable section

namespace Cert.Proof.KernelIdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem kfacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the launch handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays and a task's pieces of them -/

variable (m : (ℓ : Loc nD τ sig) → Buf (Elt F) ℓ) (ρ : Dev nD → PrngReg)

/-- The table, the index words as the kernel receives them (32 × 4 × 128), the result: as locations of device `d`. -/
abbrev tLoc (d : Dev nD) : Loc nD τ sig := (SparseCore.T d).loc main_arg0
abbrev wLoc (d : Dev nD) : Loc nD τ sig := (SparseCore.T d).loc main_v0
abbrev oLoc (d : Dev nD) : Loc nD τ sig := (SparseCore.T d).loc main_v1

variable [FloatOps F]

abbrev tV : Memref sig .scVector .hbm S100000x128 .f32 := Memref.whole main_arg0_scv
abbrev wV : Memref sig .scVector .hbm S32x4x128 .i32 := Memref.whole main_v0_scv
abbrev oV : Memref sig .scVector .hbm S16384x128 .f32 := Memref.whole main_v1_scv
/-- A task's scratch: its 4 × 128 index words, its 512 gathered rows. -/
abbrev sW : Memref sig .scVector .vmem S4x128 .i32 := Memref.whole cc0_scratch0
abbrev sR : Memref sig .scVector .vmem S512x128 .f32 := Memref.whole cc0_scratch1

abbrev cV (L : grid0.Coords) : Fin τ.nSC := (L 0).castLE hcore0
abbrev jV (L : grid0.Coords) : Fin τ.nSub := (L 1).castLE hsub0

/-- The task's 4 × 128 block of the index words, as the task slices it. -/
abbrev wRowK (L : grid0.Coords) : Memref sig .scVector .hbm S4x128 .i32 :=
  ((wV : Memref sig .scVector .hbm S32x4x128 .i32).slice (Rect.unit (s := S32x4x128) (k0_off1 L) S1x4x128.size (k0_off1_inb L)) (fun _ => rfl)).squeeze S4x128 squeezes_S1x4x128_S4x128
/-- Chunk `r` of the task's rows of the result, as the task slices it. -/
abbrev oChunkK (L : grid0.Coords) (r : Fin 4) : Memref sig .scVector .hbm S128x128 .f32 :=
  (oV : Memref sig .scVector .hbm S16384x128 .f32).slice (Rect.unit (s := S16384x128) (k0_off2 L (BitVec.ofNat 32 (128 * r.val))) S128x128.size (k0_off2_inb L r)) (fun _ => rfl)
/-- The four 128-row pieces of the row scratch, and the four 128-word lists of the index scratch. -/
abbrev sR0 : Memref sig .scVector .vmem S128x128 .f32 := (sR : Memref sig .scVector .vmem S512x128 .f32).slice (Rect.unit (s := S512x128) ![0, 0] S128x128.size inb_S512x128_S128x128_0_0) (fun _ => rfl)
abbrev sR1 : Memref sig .scVector .vmem S128x128 .f32 := (sR : Memref sig .scVector .vmem S512x128 .f32).slice (Rect.unit (s := S512x128) ![128, 0] S128x128.size inb_S512x128_S128x128_128_0) (fun _ => rfl)
abbrev sR2 : Memref sig .scVector .vmem S128x128 .f32 := (sR : Memref sig .scVector .vmem S512x128 .f32).slice (Rect.unit (s := S512x128) ![256, 0] S128x128.size inb_S512x128_S128x128_256_0) (fun _ => rfl)
abbrev sR3 : Memref sig .scVector .vmem S128x128 .f32 := (sR : Memref sig .scVector .vmem S512x128 .f32).slice (Rect.unit (s := S512x128) ![384, 0] S128x128.size inb_S512x128_S128x128_384_0) (fun _ => rfl)
abbrev sW0 : Memref sig .scVector .vmem S128 .i32 := ((sW : Memref sig .scVector .vmem S4x128 .i32).slice (Rect.unit (s := S4x128) ![0, 0] S1x128.size inb_S4x128_S1x128_0_0) (fun _ => rfl)).squeeze S128 squeezes_S1x128_S128
abbrev sW1 : Memref sig .scVector .vmem S128 .i32 := ((sW : Memref sig .scVector .vmem S4x128 .i32).slice (Rect.unit (s := S4x128) ![1, 0] S1x128.size inb_S4x128_S1x128_1_0) (fun _ => rfl)).squeeze S128 squeezes_S1x128_S128
abbrev sW2 : Memref sig .scVector .vmem S128 .i32 := ((sW : Memref sig .scVector .vmem S4x128 .i32).slice (Rect.unit (s := S4x128) ![2, 0] S1x128.size inb_S4x128_S1x128_2_0) (fun _ => rfl)).squeeze S128 squeezes_S1x128_S128
abbrev sW3 : Memref sig .scVector .vmem S128 .i32 := ((sW : Memref sig .scVector .vmem S4x128 .i32).slice (Rect.unit (s := S4x128) ![3, 0] S1x128.size inb_S4x128_S1x128_3_0) (fun _ => rfl)).squeeze S128 squeezes_S1x128_S128

/-- The index scratch's list at offsets `o`, the row scratch's piece at offsets `o`, the table through the whole-array slice a
    gather names it by: the memrefs of the task's transfers, for any literal offsets. -/
abbrev sWg (o : Fin 2 → ℕ) (h : ∀ a, o a + S1x128.size a ≤ S4x128.size a) : Memref sig .scVector .vmem S128 .i32 :=
  ((sW : Memref sig .scVector .vmem S4x128 .i32).slice (Rect.unit (s := S4x128) o S1x128.size h) (fun _ => rfl)).squeeze S128 squeezes_S1x128_S128
abbrev sRg (o : Fin 2 → ℕ) (h : ∀ a, o a + S128x128.size a ≤ S512x128.size a) : Memref sig .scVector .vmem S128x128 .f32 :=
  (sR : Memref sig .scVector .vmem S512x128 .f32).slice (Rect.unit (s := S512x128) o S128x128.size h) (fun _ => rfl)
abbrev tSl : Memref sig .scVector .hbm S100000x128 .f32 :=
  (tV : Memref sig .scVector .hbm S100000x128 .f32).slice (Rect.unit (s := S100000x128) ![0, 0] S100000x128.size inb_S100000x128_S100000x128_0_0) (fun _ => rfl)

/-! ## Which elements each piece holds -/

section Pieces

omit [FloatOps F] in
/-- The task's block of the index words: the words whose first coordinate is the task's number `2·s + c`. -/
theorem mem_wRow (L : grid0.Coords) (x : S32x4x128.Idx) : x ∈ (wRowK L).view.set ↔ (x 0).val = 2 * (L 1).val + (L 0).val := by
  show x ∈ (((View.whole main_v0_scv).slice (Rect.unit (s := S32x4x128) (k0_off1 L) S1x4x128.size (k0_off1_inb L))).reshape S4x128 squeezes_S1x4x128_S4x128.numel_eq).set ↔ _
  rw [View.set_reshape, View.set_slice, Finset.map_refl, Rect.mem_set_unit, k0_off1_eq]
  constructor
  · intro h; have h0 := h 0; simp at h0; omega
  · intro h a
    have h1 := (x 1).isLt; have h2 := (x 2).isLt
    match a with
    | ⟨0, _⟩ => simp; omega
    | ⟨1, _⟩ => simp; exact h1
    | ⟨2, _⟩ => simp; exact h2

omit [FloatOps F] in
/-- Chunk `r` of the task's rows of the result: rows `128·(8·s + 4·c + r) … + 127`. -/
theorem mem_oChunk (L : grid0.Coords) (r : Fin 4) (x : S16384x128.Idx) :
    x ∈ (oChunkK L r).view.set ↔ (x 0).val / 128 = 8 * (L 1).val + 4 * (L 0).val + r.val := by
  show x ∈ ((View.whole main_v1_scv).slice (Rect.unit (s := S16384x128) (k0_off2 L (BitVec.ofNat 32 (128 * r.val))) S128x128.size (k0_off2_inb L r))).set ↔ _
  rw [View.set_slice, Finset.map_refl, Rect.mem_set_unit, k0_off2_eq]
  constructor
  · intro h; have h0 := h 0; simp at h0; omega
  · intro h a
    have h1 := (x 1).isLt
    match a with
    | ⟨0, _⟩ => simp; omega
    | ⟨1, _⟩ => simp; exact h1

end Pieces

/-! ## The scratches piece by piece -/

section Scratch

omit [FloatOps F] in
theorem bigSep_fin4 (Φ : Fin 4 → sProp 𝕄) : bigSep Finset.univ Φ = iprop(Φ 0 ∗ Φ 1 ∗ Φ 2 ∗ Φ 3) := by
  rw [show (Finset.univ : Finset (Fin 4)) = {0, 1, 2, 3} by decide, SparseCore.bigSep_insert' (by decide),
    SparseCore.bigSep_insert' (by decide), SparseCore.bigSep_insert' (by decide), bigSep_singleton]

/-- List `j` of the index scratch and piece `j` of the row scratch, as families. -/
def sWset : Fin 4 → Finset S4x128.Idx
  | 0 => (sW0 : Memref sig .scVector .vmem S128 .i32).view.set | 1 => (sW1 : Memref sig .scVector .vmem S128 .i32).view.set
  | 2 => (sW2 : Memref sig .scVector .vmem S128 .i32).view.set | 3 => (sW3 : Memref sig .scVector .vmem S128 .i32).view.set
def sRset : Fin 4 → Finset S512x128.Idx
  | 0 => (sR0 : Memref sig .scVector .vmem S128x128 .f32).view.set | 1 => (sR1 : Memref sig .scVector .vmem S128x128 .f32).view.set
  | 2 => (sR2 : Memref sig .scVector .vmem S128x128 .f32).view.set | 3 => (sR3 : Memref sig .scVector .vmem S128x128 .f32).view.set

omit [FloatOps F] in
theorem mem_sW_lit (o : Fin 2 → ℕ) (h : ∀ a, o a + S1x128.size a ≤ S4x128.size a) (ho : o 1 = 0) (x : S4x128.Idx) :
    x ∈ (((sW : Memref sig .scVector .vmem S4x128 .i32).slice (Rect.unit (s := S4x128) o S1x128.size h) (fun _ => rfl)).squeeze S128 squeezes_S1x128_S128).view.set
      ↔ (x 0).val = o 0 := by
  show x ∈ (((View.whole cc0_scratch0).slice (Rect.unit (s := S4x128) o S1x128.size h)).reshape S128 squeezes_S1x128_S128.numel_eq).set ↔ _
  rw [View.set_reshape, View.set_slice, Finset.map_refl, Rect.mem_set_unit]
  constructor
  · intro h; have h0 := h 0; simp at h0; omega
  · intro h a
    have h1 := (x 1).isLt
    match a with
    | ⟨0, _⟩ => simp; omega
    | ⟨1, _⟩ => simp [ho]; exact h1

omit [FloatOps F] in
theorem mem_sR_lit (o : Fin 2 → ℕ) (h : ∀ a, o a + S128x128.size a ≤ S512x128.size a) (ho : o 1 = 0) (k : ℕ) (hk : o 0 = 128 * k) (x : S512x128.Idx) :
    x ∈ ((sR : Memref sig .scVector .vmem S512x128 .f32).slice (Rect.unit (s := S512x128) o S128x128.size h) (fun _ => rfl)).view.set
      ↔ (x 0).val / 128 = k := by
  show x ∈ ((View.whole cc0_scratch1).slice (Rect.unit (s := S512x128) o S128x128.size h)).set ↔ _
  rw [View.set_slice, Finset.map_refl, Rect.mem_set_unit]
  constructor
  · intro h; have h0 := h 0; simp at h0; omega
  · intro h a
    have h1 := (x 1).isLt
    match a with
    | ⟨0, _⟩ => simp; omega
    | ⟨1, _⟩ => simp [ho]; exact h1

omit [FloatOps F] in
theorem mem_sWset (j : Fin 4) (x : S4x128.Idx) : x ∈ sWset j ↔ (⟨(x 0).val, (x 0).isLt⟩ : Fin 4) = j := by
  rw [Fin.ext_iff]
  match j with
  | 0 => exact mem_sW_lit _ _ rfl x
  | 1 => exact mem_sW_lit _ _ rfl x
  | 2 => exact mem_sW_lit _ _ rfl x
  | 3 => exact mem_sW_lit _ _ rfl x

omit [FloatOps F] in
theorem sR_key_lt (x : S512x128.Idx) : (x 0).val / 128 < 4 := by
  have := (x 0).isLt
  have h : (x 0).val < 512 := this
  omega

omit [FloatOps F] in
theorem mem_sRset (j : Fin 4) (x : S512x128.Idx) : x ∈ sRset j ↔ (⟨(x 0).val / 128, sR_key_lt x⟩ : Fin 4) = j := by
  rw [Fin.ext_iff]
  match j with
  | 0 => exact mem_sR_lit _ _ rfl 0 rfl x
  | 1 => exact mem_sR_lit _ _ rfl 1 rfl x
  | 2 => exact mem_sR_lit _ _ rfl 2 rfl x
  | 3 => exact mem_sR_lit _ _ rfl 3 rfl x

omit [FloatOps F] in
/-- The index scratch whole is its four lists. -/
theorem sW_pieces (d : Dev nD) (c : Fin τ.nSC) (i : Fin τ.nSub) (f : Buf (Elt F) ((V d c i).loc cc0_scratch0)) :
    ((sW : Memref sig .scVector .vmem S4x128 .i32).view.loc (V d c i) ↦{fullShare} f : sProp 𝕄)
      = iprop(((sW0 : Memref sig .scVector .vmem S128 .i32).view.loc (V d c i) ↦[(sW0 : Memref sig .scVector .vmem S128 .i32).view.set]{fullShare} f)
          ∗ ((sW1 : Memref sig .scVector .vmem S128 .i32).view.loc (V d c i) ↦[(sW1 : Memref sig .scVector .vmem S128 .i32).view.set]{fullShare} f)
          ∗ ((sW2 : Memref sig .scVector .vmem S128 .i32).view.loc (V d c i) ↦[(sW2 : Memref sig .scVector .vmem S128 .i32).view.set]{fullShare} f)
          ∗ ((sW3 : Memref sig .scVector .vmem S128 .i32).view.loc (V d c i) ↦[(sW3 : Memref sig .scVector .vmem S128 .i32).view.set]{fullShare} f)) := by
  show ((V d c i).loc cc0_scratch0 ↦{fullShare} f : sProp 𝕄)
      = iprop(((V d c i).loc cc0_scratch0 ↦[sWset 0]{fullShare} f) ∗ ((V d c i).loc cc0_scratch0 ↦[sWset 1]{fullShare} f)
          ∗ ((V d c i).loc cc0_scratch0 ↦[sWset 2]{fullShare} f) ∗ ((V d c i).loc cc0_scratch0 ↦[sWset 3]{fullShare} f))
  rw [Cert.Lib.Pieces.pointsTo_fibres (ℓ := (V d c i).loc cc0_scratch0) sWset _ (fun x j => mem_sWset j x), bigSep_fin4]

omit [FloatOps F] in
/-- The row scratch whole is its four pieces. -/
theorem sR_pieces (d : Dev nD) (c : Fin τ.nSC) (i : Fin τ.nSub) (f : Buf (Elt F) ((V d c i).loc cc0_scratch1)) :
    ((sR : Memref sig .scVector .vmem S512x128 .f32).view.loc (V d c i) ↦{fullShare} f : sProp 𝕄)
      = iprop(((sR0 : Memref sig .scVector .vmem S128x128 .f32).view.loc (V d c i) ↦[(sR0 : Memref sig .scVector .vmem S128x128 .f32).view.set]{fullShare} f)
          ∗ ((sR1 : Memref sig .scVector .vmem S128x128 .f32).view.loc (V d c i) ↦[(sR1 : Memref sig .scVector .vmem S128x128 .f32).view.set]{fullShare} f)
          ∗ ((sR2 : Memref sig .scVector .vmem S128x128 .f32).view.loc (V d c i) ↦[(sR2 : Memref sig .scVector .vmem S128x128 .f32).view.set]{fullShare} f)
          ∗ ((sR3 : Memref sig .scVector .vmem S128x128 .f32).view.loc (V d c i) ↦[(sR3 : Memref sig .scVector .vmem S128x128 .f32).view.set]{fullShare} f)) := by
  show ((V d c i).loc cc0_scratch1 ↦{fullShare} f : sProp 𝕄)
      = iprop(((V d c i).loc cc0_scratch1 ↦[sRset 0]{fullShare} f) ∗ ((V d c i).loc cc0_scratch1 ↦[sRset 1]{fullShare} f)
          ∗ ((V d c i).loc cc0_scratch1 ↦[sRset 2]{fullShare} f) ∗ ((V d c i).loc cc0_scratch1 ↦[sRset 3]{fullShare} f))
  rw [Cert.Lib.Pieces.pointsTo_fibres (ℓ := (V d c i).loc cc0_scratch1) sRset _ (fun x j => mem_sRset j x), bigSep_fin4]

end Scratch

end Cert.Proof.KernelIdealRun

end
-- ==== Proof.KernelIdealShare.lean ====
/-
  What one vector subcore holds of the idealized kernel's arrays during its task, and how its own semaphores and scratches
  are found among what the launch deals it.
-/
import proofs.«216976_g54288386621730_cont_9to1_m_1068_22_alg».proof.Proof.KernelIdealPieces

noncomputable section

namespace Cert.Proof.KernelIdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

omit [FloatOps F] in
/-- The task's seven DMA semaphores are among its own: they, at zero, and the rest. -/
theorem ownSems0_V (d : Dev nD) (c : Fin τ.nSC) (i : Fin τ.nSub) :
    (ownSems0 (V d c i) : sProp 𝕄)
      = iprop(semVal (V d c i, SemLoc.dma cc0_scratch2.sem) 0
          ∗ semVal (V d c i, SemLoc.dma cc0_scratch3.sem) 0
          ∗ semVal (V d c i, SemLoc.dma cc0_scratch4.sem) 0
          ∗ semVal (V d c i, SemLoc.dma cc0_scratch5.sem) 0
          ∗ semVal (V d c i, SemLoc.dma cc0_scratch6.sem) 0
          ∗ semVal (V d c i, SemLoc.dma cc0_scratch7.sem) 0
          ∗ semVal (V d c i, SemLoc.dma cc0_scoped0.sem) 0
          ∗ bigSep ((((((((ownCells (V d c i)).erase (V d c i, SemLoc.dma cc0_scratch2.sem)).erase (V d c i, SemLoc.dma cc0_scratch3.sem)).erase (V d c i, SemLoc.dma cc0_scratch4.sem)).erase (V d c i, SemLoc.dma cc0_scratch5.sem)).erase (V d c i, SemLoc.dma cc0_scratch6.sem)).erase (V d c i, SemLoc.dma cc0_scratch7.sem)).erase (V d c i, SemLoc.dma cc0_scoped0.sem))
              fun g => semVal g 0) := by
  unfold SparseCore.Cfg.ownSems0
  rw [SparseCore.bigSep_erase' ((mem_ownCells (g := ((V d c i, SemLoc.dma cc0_scratch2.sem) : GSem nD τ sig))).mpr ⟨rfl, by show (SemLoc.dma cc0_scratch2.sem : SemLoc sig).isScoped .scVector = true; decide⟩),
    SparseCore.bigSep_erase' (Finset.mem_erase.mpr ⟨fun e => absurd (congrArg Prod.snd e) (show (SemLoc.dma cc0_scratch3.sem : SemLoc sig) ≠ SemLoc.dma cc0_scratch2.sem by decide), (mem_ownCells (g := ((V d c i, SemLoc.dma cc0_scratch3.sem) : GSem nD τ sig))).mpr ⟨rfl, by show (SemLoc.dma cc0_scratch3.sem : SemLoc sig).isScoped .scVector = true; decide⟩⟩),
    SparseCore.bigSep_erase' (Finset.mem_erase.mpr ⟨fun e => absurd (congrArg Prod.snd e) (show (SemLoc.dma cc0_scratch4.sem : SemLoc sig) ≠ SemLoc.dma cc0_scratch3.sem by decide), Finset.mem_erase.mpr ⟨fun e => absurd (congrArg Prod.snd e) (show (SemLoc.dma cc0_scratch4.sem : SemLoc sig) ≠ SemLoc.dma cc0_scratch2.sem by decide), (mem_ownCells (g := ((V d c i, SemLoc.dma cc0_scratch4.sem) : GSem nD τ sig))).mpr ⟨rfl, by show (SemLoc.dma cc0_scratch4.sem : SemLoc sig).isScoped .scVector = true; decide⟩⟩⟩),
    SparseCore.bigSep_erase' (Finset.mem_erase.mpr ⟨fun e => absurd (congrArg Prod.snd e) (show (SemLoc.dma cc0_scratch5.sem : SemLoc sig) ≠ SemLoc.dma cc0_scratch4.sem by decide), Finset.mem_erase.mpr ⟨fun e => absurd (congrArg Prod.snd e) (show (SemLoc.dma cc0_scratch5.sem : SemLoc sig) ≠ SemLoc.dma cc0_scratch3.sem by decide), Finset.mem_erase.mpr ⟨fun e => absurd (congrArg Prod.snd e) (show (SemLoc.dma cc0_scratch5.sem : SemLoc sig) ≠ SemLoc.dma cc0_scratch2.sem by decide), (mem_ownCells (g := ((V d c i, SemLoc.dma cc0_scratch5.sem) : GSem nD τ sig))).mpr ⟨rfl, by show (SemLoc.dma cc0_scratch5.sem : SemLoc sig).isScoped .scVector = true; decide⟩⟩⟩⟩),
    SparseCore.bigSep_erase' (Finset.mem_erase.mpr ⟨fun e => absurd (congrArg Prod.snd e) (show (SemLoc.dma cc0_scratch6.sem : SemLoc sig) ≠ SemLoc.dma cc0_scratch5.sem by decide), Finset.mem_erase.mpr ⟨fun e => absurd (congrArg Prod.snd e) (show (SemLoc.dma cc0_scratch6.sem : SemLoc sig) ≠ SemLoc.dma cc0_scratch4.sem by decide), Finset.mem_erase.mpr ⟨fun e => absurd (congrArg Prod.snd e) (show (SemLoc.dma cc0_scratch6.sem : SemLoc sig) ≠ SemLoc.dma cc0_scratch3.sem by decide), Finset.mem_erase.mpr ⟨fun e => absurd (congrArg Prod.snd e) (show (SemLoc.dma cc0_scratch6.sem : SemLoc sig) ≠ SemLoc.dma cc0_scratch2.sem by decide), (mem_ownCells (g := ((V d c i, SemLoc.dma cc0_scratch6.sem) : GSem nD τ sig))).mpr ⟨rfl, by show (SemLoc.dma cc0_scratch6.sem : SemLoc sig).isScoped .scVector = true; decide⟩⟩⟩⟩⟩),
    SparseCore.bigSep_erase' (Finset.mem_erase.mpr ⟨fun e => absurd (congrArg Prod.snd e) (show (SemLoc.dma cc0_scratch7.sem : SemLoc sig) ≠ SemLoc.dma cc0_scratch6.sem by decide), Finset.mem_erase.mpr ⟨fun e => absurd (congrArg Prod.snd e) (show (SemLoc.dma cc0_scratch7.sem : SemLoc sig) ≠ SemLoc.dma cc0_scratch5.sem by decide), Finset.mem_erase.mpr ⟨fun e => absurd (congrArg Prod.snd e) (show (SemLoc.dma cc0_scratch7.sem : SemLoc sig) ≠ SemLoc.dma cc0_scratch4.sem by decide), Finset.mem_erase.mpr ⟨fun e => absurd (congrArg Prod.snd e) (show (SemLoc.dma cc0_scratch7.sem : SemLoc sig) ≠ SemLoc.dma cc0_scratch3.sem by decide), Finset.mem_erase.mpr ⟨fun e => absurd (congrArg Prod.snd e) (show (SemLoc.dma cc0_scratch7.sem : SemLoc sig) ≠ SemLoc.dma cc0_scratch2.sem by decide), (mem_ownCells (g := ((V d c i, SemLoc.dma cc0_scratch7.sem) : GSem nD τ sig))).mpr ⟨rfl, by show (SemLoc.dma cc0_scratch7.sem : SemLoc sig).isScoped .scVector = true; decide⟩⟩⟩⟩⟩⟩),
    SparseCore.bigSep_erase' (Finset.mem_erase.mpr ⟨fun e => absurd (congrArg Prod.snd e) (show (SemLoc.dma cc0_scoped0.sem : SemLoc sig) ≠ SemLoc.dma cc0_scratch7.sem by decide), Finset.mem_erase.mpr ⟨fun e => absurd (congrArg Prod.snd e) (show (SemLoc.dma cc0_scoped0.sem : SemLoc sig) ≠ SemLoc.dma cc0_scratch6.sem by decide), Finset.mem_erase.mpr ⟨fun e => absurd (congrArg Prod.snd e) (show (SemLoc.dma cc0_scoped0.sem : SemLoc sig) ≠ SemLoc.dma cc0_scratch5.sem by decide), Finset.mem_erase.mpr ⟨fun e => absurd (congrArg Prod.snd e) (show (SemLoc.dma cc0_scoped0.sem : SemLoc sig) ≠ SemLoc.dma cc0_scratch4.sem by decide), Finset.mem_erase.mpr ⟨fun e => absurd (congrArg Prod.snd e) (show (SemLoc.dma cc0_scoped0.sem : SemLoc sig) ≠ SemLoc.dma cc0_scratch3.sem by decide), Finset.mem_erase.mpr ⟨fun e => absurd (congrArg Prod.snd e) (show (SemLoc.dma cc0_scoped0.sem : SemLoc sig) ≠ SemLoc.dma cc0_scratch2.sem by decide), (mem_ownCells (g := ((V d c i, SemLoc.dma cc0_scoped0.sem) : GSem nD τ sig))).mpr ⟨rfl, by show (SemLoc.dma cc0_scoped0.sem : SemLoc sig).isScoped .scVector = true; decide⟩⟩⟩⟩⟩⟩⟩)]

omit [FloatOps F] in
/-- The two scratches are among the task's own buffers: they, at some contents, and the rest. -/
theorem ownBufs_V (d : Dev nD) (c : Fin τ.nSC) (i : Fin τ.nSub) :
    (ownBufs (V d c i) : sProp 𝕄)
      = iprop((∃ f, (V d c i).loc cc0_scratch0 ↦{fullShare} f) ∗ (∃ f, (V d c i).loc cc0_scratch1 ↦{fullShare} f)
          ∗ bigSep (((ownRefs (τ := τ) (.scVector c i)).erase ((Proc.scVector c i).devRef cc0_scratch0)).erase ((Proc.scVector c i).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector c i)
    (b := (Proc.scVector c i).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector c i) (b := (Proc.scVector c i).devRef cc0_scratch1) rfl⟩)]

/-! ## A task's share of the arrays -/

/-- The elements of the index words in block `2·sn + cn`, and the elements of the result in its 128-row chunk number
    `8·sn + 4·cn + rn`: what subcore `sn` of SparseCore `cn` reads, and what it writes in its chunk `rn`. -/
def wSetN (cn sn : ℕ) : Finset S32x4x128.Idx := Finset.univ.filter fun x => (x 0).val = 2 * sn + cn
def oSetN (cn sn rn : ℕ) : Finset S16384x128.Idx := Finset.univ.filter fun x => (x 0).val / 128 = 8 * sn + 4 * cn + rn

omit [FloatOps F] in
theorem set_wRow (L : grid0.Coords) : (wRowK L).view.set = wSetN (L 0).val (L 1).val := by
  ext x; rw [mem_wRow]; simp [wSetN]
omit [FloatOps F] in
theorem set_oChunk (L : grid0.Coords) (r : Fin 4) : (oChunkK L r).view.set = oSetN (L 0).val (L 1).val r.val := by
  ext x; rw [mem_oChunk]; simp [oSetN]

/-- The read share of the table SparseCore `cn` is handed, and within it the share of its subcore `sn`. -/
abbrev tokC (cn : ℕ) : PosShare TreeShare := Transfers.shareTokN fullShare cn
abbrev tokT (cn sn : ℕ) : PosShare TreeShare := Transfers.shareTokN (tokC cn) sn

/-- What a task holds of the three arrays: a read share of the table at `ft`, its block of the index words at `fw`, its
    four chunks of the result at `fo`. -/
def tileRes (d : Dev nD) (cn sn : ℕ) (ft : Buf (Elt F) (tLoc d)) (fw : Buf (Elt F) (wLoc d)) (fo : Buf (Elt F) (oLoc d)) : sProp 𝕄 :=
  iprop((tLoc d ↦{tokT cn sn} ft) ∗ (wLoc d ↦[wSetN cn sn]{fullShare} fw)
    ∗ (oLoc d ↦[oSetN cn sn 0]{fullShare} fo) ∗ (oLoc d ↦[oSetN cn sn 1]{fullShare} fo)
    ∗ (oLoc d ↦[oSetN cn sn 2]{fullShare} fo) ∗ (oLoc d ↦[oSetN cn sn 3]{fullShare} fo))

/-- The rows the index words name, as contents of the result. -/
abbrev gathered (d : Dev nD) (ft : Buf (Elt F) (tLoc d)) (fw : Buf (Elt F) (wLoc d)) : Buf (Elt F) (oLoc d) :=
  Cert.Proof.Spec.rowsOfBlocks (α := Elt F .f32) ft fw

omit [FloatOps F] in
theorem pts_t (d : Dev nD) (c : Fin τ.nSC) (i : Fin τ.nSub) (q : PosShare TreeShare) (f : Buf (Elt F) (tLoc d)) :
    ((tV : Memref sig .scVector .hbm S100000x128 .f32).view.loc (V d c i) ↦{q} f : sProp 𝕄) = tLoc d ↦{q} f := rfl
omit [FloatOps F] in
theorem pts_w (d : Dev nD) (L : grid0.Coords) (f : Buf (Elt F) (wLoc d)) :
    ((wRowK L).view.loc (V d (cV L) (jV L)) ↦[(wRowK L).view.set]{fullShare} f : sProp 𝕄) = wLoc d ↦[wSetN (L 0).val (L 1).val]{fullShare} f := by
  rw [set_wRow]
omit [FloatOps F] in
theorem pts_o (d : Dev nD) (L : grid0.Coords) (r : Fin 4) (f : Buf (Elt F) (oLoc d)) :
    ((oChunkK L r).view.loc (V d (cV L) (jV L)) ↦[(oChunkK L r).view.set]{fullShare} f : sProp 𝕄) = oLoc d ↦[oSetN (L 0).val (L 1).val r.val]{fullShare} f := by
  rw [set_oChunk]
omit [FloatOps F] in
theorem pts_o' (d : Dev nD) (L : grid0.Coords) (r : Fin 4) (rn : ℕ) (h : r.val = rn) (f : Buf (Elt F) (oLoc d)) :
    ((oChunkK L r).view.loc (V d (cV L) (jV L)) ↦[(oChunkK L r).view.set]{fullShare} f : sProp 𝕄) = oLoc d ↦[oSetN (L 0).val (L 1).val rn]{fullShare} f := by
  subst h; exact pts_o d L r f
omit [FloatOps F] in
theorem pts_sW (d : Dev nD) (c : Fin τ.nSC) (i : Fin τ.nSub) (f : Buf (Elt F) ((V d c i).loc cc0_scratch0)) :
    ((sW : Memref sig .scVector .vmem S4x128 .i32).view.loc (V d c i) ↦{fullShare} f : sProp 𝕄) = (V d c i).loc cc0_scratch0 ↦{fullShare} f := rfl
omit [FloatOps F] in
theorem pts_sR (d : Dev nD) (c : Fin τ.nSC) (i : Fin τ.nSub) (f : Buf (Elt F) ((V d c i).loc cc0_scratch1)) :
    ((sR : Memref sig .scVector .vmem S512x128 .f32).view.loc (V d c i) ↦{fullShare} f : sProp 𝕄) = (V d c i).loc cc0_scratch1 ↦{fullShare} f := rfl

/-- The row scratch's four pieces, at contents of their own, are the scratch whole at some contents. -/
theorem sR_rejoin [∀ e, Nonempty (Elt F e)] (d : Dev nD) (c : Fin τ.nSC) (i : Fin τ.nSub) (f0 f1 f2 f3 : Buf (Elt F) ((V d c i).loc cc0_scratch1)) :
    iprop(((sR0 : Memref sig .scVector .vmem S128x128 .f32).view.loc (V d c i) ↦[(sR0 : Memref sig .scVector .vmem S128x128 .f32).view.set]{fullShare} f0)
        ∗ ((sR1 : Memref sig .scVector .vmem S128x128 .f32).view.loc (V d c i) ↦[(sR1 : Memref sig .scVector .vmem S128x128 .f32).view.set]{fullShare} f1)
        ∗ ((sR2 : Memref sig .scVector .vmem S128x128 .f32).view.loc (V d c i) ↦[(sR2 : Memref sig .scVector .vmem S128x128 .f32).view.set]{fullShare} f2)
        ∗ ((sR3 : Memref sig .scVector .vmem S128x128 .f32).view.loc (V d c i) ↦[(sR3 : Memref sig .scVector .vmem S128x128 .f32).view.set]{fullShare} f3))
      ⊢ (iprop(∃ g, (V d c i).loc cc0_scratch1 ↦{fullShare} g) : sProp 𝕄) := by
  have hne : Nonempty (Buf (Elt F) ((V d c i).loc cc0_scratch1)) := ⟨f0⟩
  refine (show _ ⊢ bigSep Finset.univ (fun j : Fin 4 => ((V d c i).loc cc0_scratch1 ↦[sRset j]{fullShare} (![f0, f1, f2, f3] j) : sProp 𝕄)) from
    Entails.of_eq (by rw [bigSep_fin4]; rfl)).trans ?_
  refine (Cert.Lib.Pieces.pointsTo_fibres_join (ℓ := (V d c i).loc cc0_scratch1) sRset _ (fun x j => mem_sRset j x) fullShare _).trans ?_
  iintro ⟨%g, -, Hg⟩
  iexists g; iexact Hg

end Cert.Proof.KernelIdealRun

end
-- ==== Proof.KernelIdealValue.lean ====
/-
  The value of one landed chunk of a task.

  A task (one vector subcore, grid coordinates `L = (c, s)`, task number `2·s + c`) copies its 4 × 128 block of the index
  words into its index scratch, gathers, for each of the four lists `r`, the 128 table rows the list names into piece `r`
  of its row scratch, and writes piece `r` back as chunk `r` of its rows of the result. Everything here is a computation
  on indices:

  * word `k` of list `r` of the index scratch, once the block has landed, is word `(2·s + c, r, k)` of the index words
    (`list_word`): a list is row `r` of the scratch with its unit axis dropped, the block is block `2·s + c` of the
    words with its unit axis dropped, and a dropped unit axis is the coordinate 0;
  * so every word of every list names a table row when every index word does (`list_inRange`);
  * row `p` of chunk `r` is row `1024·s + 512·c + 128·r + p` of the result; it holds row `p` of piece `r` of the row
    scratch, which holds the table row named by word `p` of list `r`; and `(1024·s + 512·c + 128·r + p) / 512 = 2·s + c`,
    `(…) / 128 % 4 = r`, `(…) % 128 = p`: the chunk is the gathered rows on its own elements (`landed_chunk`).
-/
import proofs.«216976_g54288386621730_cont_9to1_m_1068_22_alg».proof.Proof.KernelIdealPieces
import Idealize.ShloMosaic.Lib.ValueIdx
import Idealize.ShloMosaic.Lib.ValueLayout
import Idealize.ShloMosaic.Lib.Pipeline.Value
import Idealize.ShloMosaic.Lib.Writes

noncomputable section

namespace Cert.Proof.KernelIdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

/-! ## Reading through a slice and through a dropped unit axis -/

section Generic

variable {sig : RefSig} {κ : Kind} {sp : Space} {s : Shape} {e : EltTy} {Val : EltTy → Type}

/-- A slice of a view reads the view at the rectangle's elements. -/
theorem read_slice (v : View sig κ sp s e) (r : Rect s) (f : v.ty.Contents Val) (x : r.shape.Idx) :
    (v.slice r).read Val f x = v.read Val f (r.emb x) := rfl

/-- A reshaped view reads the view at the matched index. -/
theorem read_reshape (v : View sig κ sp s e) (s' : Shape) (h : s'.numel = s.numel) (f : v.ty.Contents Val) (x : s'.Idx) :
    (v.reshape s' h).read Val f x = v.read Val f (Shape.reshapeEquiv h x) := rfl

/-- A view written whole reads back what was written. -/
theorem read_writes_whole (v : View sig κ sp s e) (f : v.ty.Contents Val) (P : (Rect.whole s).shape.Idx → Val e) (y : s.Idx) :
    v.read Val (v.writes Val f [⟨Rect.whole s, P⟩]) y = P y := by
  have h := View.read_writes_cons_emb v f (Rect.whole s) P [] y
  rwa [Rect.emb_whole_apply] at h

end Generic

/-- An index `i` of shape `[a]` matched with shape `[1, a]` is `(0, i)`. -/
theorem reshapeEquiv_ix1_1a {a : ℕ} (h : (⟨1, ![a]⟩ : Shape).numel = (⟨2, ![1, a]⟩ : Shape).numel) (i : Fin a) :
    Shape.reshapeEquiv h (ix1 i) = ix2 (⟨0, Nat.one_pos⟩ : Fin 1) i :=
  Shape.reshapeEquiv_eq_of_rowMajor h (by
    rw [Shape.rowMajor_val_two, Shape.rowMajor_val_one]
    show 0 * a + i.val = i.val
    simp only [Nat.zero_mul, Nat.zero_add])

/-- The index of shape `[n]` at row-major position `k` is `k`. -/
theorem rowMajor_symm_ix1 {n : ℕ} (k : Fin (⟨1, ![n]⟩ : Shape).numel) (hk : k.val < n) :
    (⟨1, ![n]⟩ : Shape).rowMajor.symm k = ix1 (⟨k.val, hk⟩ : Fin n) := by
  rw [Equiv.symm_apply_eq]
  apply Fin.ext
  rw [Shape.rowMajor_val_one]
  rfl

/-- A task's number is below 32. -/
theorem task_lt (L : grid0.Coords) : 2 * (L 1).val + (L 0).val < 32 := by
  have h0 := (L 0).isLt; have h1 := (L 1).isLt
  have e0 : grid0.bound 0 = 2 := rfl; have e1 : grid0.bound 1 = 16 := rfl
  omega

/-! ## The index scratch once the task's block has landed -/

section Lists

variable [FloatOps F]

/-- Element `k` of the list at offsets `(r, 0)` of the index scratch is element `(r, k)` of the scratch. -/
theorem list_emb (r : Fin 4) (oW : Fin 2 → ℕ) (hW : ∀ a, oW a + S1x128.size a ≤ S4x128.size a) (hW0 : oW 0 = r.val) (hW1 : oW 1 = 0)
    (k : Fin 128) :
    (Rect.unit (s := S4x128) oW S1x128.size hW).emb (Shape.reshapeEquiv squeezes_S1x128_S128.numel_eq (ix1 k)) = ix2 r k := by
  rw [reshapeEquiv_ix1_1a squeezes_S1x128_S128.numel_eq k]
  funext a
  apply Fin.ext
  match a with
  | ⟨0, _⟩ => show oW 0 + 1 * 0 = r.val; omega
  | ⟨1, _⟩ => show oW 1 + 1 * k.val = k.val; omega

/-- Element `(r, k)` of the task's block of the index words is word `(2·s + c, r, k)`. -/
theorem block_emb (L : grid0.Coords) (r : Fin 4) (k : Fin 128) :
    (Rect.unit (s := S32x4x128) (k0_off1 L) S1x4x128.size (k0_off1_inb L)).emb
        (Shape.reshapeEquiv squeezes_S1x4x128_S4x128.numel_eq (ix2 r k))
      = ix3 (⟨2 * (L 1).val + (L 0).val, task_lt L⟩ : Fin 32) r k := by
  rw [reshapeEquiv_ix2_1ab squeezes_S1x4x128_S4x128.numel_eq r k]
  have ho := k0_off1_eq L
  funext a
  apply Fin.ext
  match a with
  | ⟨0, _⟩ => show k0_off1 L 0 + 1 * 0 = 2 * (L 1).val + (L 0).val; rw [ho]; simp
  | ⟨1, _⟩ => show k0_off1 L 1 + 1 * r.val = r.val; rw [ho]; simp
  | ⟨2, _⟩ => show k0_off1 L 2 + 1 * k.val = k.val; rw [ho]; simp

/-- Word k of list r of the index scratch, once the task's block has landed there, is word (2·s + c, r, k) of the index words. -/
theorem list_word (d : Dev nD) (L : grid0.Coords) (r : Fin 4) (oW : Fin 2 → ℕ) (hW : ∀ a, oW a + S1x128.size a ≤ S4x128.size a) (hW0 : oW 0 = r.val) (hW1 : oW 1 = 0)
    (fw : Buf (Elt F) (wLoc d)) (fsw : Buf (Elt F) ((V d (cV L) (jV L)).loc cc0_scratch0)) (k : Fin 128) :
    (sWg oW hW).view.read (Elt F) (View.write (Elt F) (sW : Memref sig .scVector .vmem S4x128 .i32).view fsw (ReadAs.same.apply ((wRowK L).view.read (Elt F) fw)) Finset.univ) (ix1 k)
      = fw (ix3 (⟨2 * (L 1).val + (L 0).val, by have h0 := (L 0).isLt; have h1 := (L 1).isLt; have e0 : grid0.bound 0 = 2 := rfl; have e1 : grid0.bound 1 = 16 := rfl; omega⟩ : Fin 32) r k) := by
  calc (sWg oW hW).view.read (Elt F) (View.write (Elt F) (sW : Memref sig .scVector .vmem S4x128 .i32).view fsw (ReadAs.same.apply ((wRowK L).view.read (Elt F) fw)) Finset.univ) (ix1 k)
      = (sW : Memref sig .scVector .vmem S4x128 .i32).view.read (Elt F) (View.write (Elt F) (sW : Memref sig .scVector .vmem S4x128 .i32).view fsw (ReadAs.same.apply ((wRowK L).view.read (Elt F) fw)) Finset.univ)
          ((Rect.unit (s := S4x128) oW S1x128.size hW).emb (Shape.reshapeEquiv squeezes_S1x128_S128.numel_eq (ix1 k))) := rfl
    _ = (sW : Memref sig .scVector .vmem S4x128 .i32).view.read (Elt F) (View.write (Elt F) (sW : Memref sig .scVector .vmem S4x128 .i32).view fsw (ReadAs.same.apply ((wRowK L).view.read (Elt F) fw)) Finset.univ)
          (ix2 r k) := by rw [list_emb r oW hW hW0 hW1 k]
    _ = (wRowK L).view.read (Elt F) fw (ix2 r k) := View.read_write_of_mem _ _ (Finset.mem_univ _)
    _ = (wV : Memref sig .scVector .hbm S32x4x128 .i32).view.read (Elt F) fw
          ((Rect.unit (s := S32x4x128) (k0_off1 L) S1x4x128.size (k0_off1_inb L)).emb
            (Shape.reshapeEquiv squeezes_S1x4x128_S4x128.numel_eq (ix2 r k))) := rfl
    _ = (wV : Memref sig .scVector .hbm S32x4x128 .i32).view.read (Elt F) fw
          (ix3 (⟨2 * (L 1).val + (L 0).val, task_lt L⟩ : Fin 32) r k) := by rw [block_emb L r k]
    _ = _ := rfl

/-- So every word of every list names a row of the table when every index word does. -/
theorem list_inRange (d : Dev nD) (L : grid0.Coords) (r : Fin 4) (oW : Fin 2 → ℕ) (hW : ∀ a, oW a + S1x128.size a ≤ S4x128.size a) (hW0 : oW 0 = r.val) (hW1 : oW 1 = 0)
    (fw : Buf (Elt F) (wLoc d)) (fsw : Buf (Elt F) ((V d (cV L) (jV L)).loc cc0_scratch0)) (hw : ∀ i, (fw i).toNat < 100000) :
    ∀ x, ((sWg oW hW).view.read (Elt F) (View.write (Elt F) (sW : Memref sig .scVector .vmem S4x128 .i32).view fsw (ReadAs.same.apply ((wRowK L).view.read (Elt F) fw)) Finset.univ) x).toNat < S100000x128.size gathers_S100000x128_S128x128.axis := by
  intro x
  obtain ⟨k, rfl⟩ : ∃ k : Fin 128, x = ix1 k := ⟨x 0, eq_ix1 x⟩
  rw [list_word d L r oW hW hW0 hW1 fw fsw k]
  exact hw _

end Lists

/-! ## A chunk of the task's rows of the result -/

section Chunk

variable [FloatOps F]

/-- The table through the whole-array slice a gather names it by reads the table. -/
theorem tSl_read (d : Dev nD) (ft : Buf (Elt F) (tLoc d)) (z : S100000x128.Idx) : tSl.view.read (Elt F) ft z = ft z := by
  have e : (Rect.unit (s := S100000x128) ![0, 0] S100000x128.size inb_S100000x128_S100000x128_0_0).emb z = z := by
    funext a
    apply Fin.ext
    match a with
    | ⟨0, _⟩ => show 0 + 1 * (z 0).val = (z 0).val; omega
    | ⟨1, _⟩ => show 0 + 1 * (z 1).val = (z 1).val; omega
  show (tV : Memref sig .scVector .hbm S100000x128 .f32).view.read (Elt F) ft
      ((Rect.unit (s := S100000x128) ![0, 0] S100000x128.size inb_S100000x128_S100000x128_0_0).emb z) = ft z
  rw [e]
  rfl

/-- Row `p` of chunk `r` of a task's rows is row `1024·s + 512·c + 128·r + p` of the result. -/
theorem chunk_row_lt (L : grid0.Coords) (r : Fin 4) (p : Fin 128) :
    1024 * (L 1).val + 512 * (L 0).val + 128 * r.val + p.val < 16384 := by
  have h0 := (L 0).isLt; have h1 := (L 1).isLt
  have e0 : grid0.bound 0 = 2 := rfl; have e1 : grid0.bound 1 = 16 := rfl
  omega

theorem chunk_emb (L : grid0.Coords) (r : Fin 4) (p q : Fin 128) :
    ((oChunkK L r).view.emb (ix2 p q) : S16384x128.Idx)
      = ix2 (⟨1024 * (L 1).val + 512 * (L 0).val + 128 * r.val + p.val, chunk_row_lt L r p⟩ : Fin 16384) q := by
  have ho := k0_off2_eq L r
  funext a
  apply Fin.ext
  match a with
  | ⟨0, _⟩ =>
    show k0_off2 L (BitVec.ofNat 32 (128 * r.val)) 0 + 1 * p.val = 1024 * (L 1).val + 512 * (L 0).val + 128 * r.val + p.val
    rw [ho]; simp
  | ⟨1, _⟩ =>
    show k0_off2 L (BitVec.ofNat 32 (128 * r.val)) 1 + 1 * q.val = q.val
    rw [ho]; simp

/-- The gathered rows at a row of a chunk, read off the block of index words. -/
theorem rowsOfBlocks_chunk (L : grid0.Coords) (r : Fin 4) (p q : Fin 128) {α : Type} (tab : S100000x128.Idx → α)
    (w : IVec S32x4x128 32) (hw : ∀ i, (w i).toNat < 100000) :
    Cert.Proof.Spec.rowsOfBlocks tab w
        (ix2 (⟨1024 * (L 1).val + 512 * (L 0).val + 128 * r.val + p.val, chunk_row_lt L r p⟩ : Fin 16384) q)
      = tab (ix2 (⟨(w (ix3 (⟨2 * (L 1).val + (L 0).val, task_lt L⟩ : Fin 32) r p)).toNat, hw _⟩ : Fin 100000) q) := by
  have h0 := (L 0).isLt; have h1 := (L 1).isLt
  have e0 : grid0.bound 0 = 2 := rfl; have e1 : grid0.bound 1 = 16 := rfl
  have hr := r.isLt; have hp := p.isLt
  unfold Cert.Proof.Spec.rowsOfBlocks
  have ei : (ix3 (⟨(1024 * (L 1).val + 512 * (L 0).val + 128 * r.val + p.val) / 512, by omega⟩ : Fin 32)
      (⟨(1024 * (L 1).val + 512 * (L 0).val + 128 * r.val + p.val) / 128 % 4, by omega⟩ : Fin 4)
      (⟨(1024 * (L 1).val + 512 * (L 0).val + 128 * r.val + p.val) % 128, by omega⟩ : Fin 128) : S32x4x128.Idx)
      = ix3 (⟨2 * (L 1).val + (L 0).val, task_lt L⟩ : Fin 32) r p := by
    funext a
    apply Fin.ext
    match a with
    | ⟨0, _⟩ => show (1024 * (L 1).val + 512 * (L 0).val + 128 * r.val + p.val) / 512 = 2 * (L 1).val + (L 0).val; omega
    | ⟨1, _⟩ => show (1024 * (L 1).val + 512 * (L 0).val + 128 * r.val + p.val) / 128 % 4 = r.val; omega
    | ⟨2, _⟩ => show (1024 * (L 1).val + 512 * (L 0).val + 128 * r.val + p.val) % 128 = p.val; omega
  refine congrArg tab (congrArg (fun t : Fin 100000 => ix2 t q) (Fin.ext ?_))
  show min (w (ix3 _ _ _)).toNat 99999 = (w _).toNat
  rw [ei]
  have := hw (ix3 (⟨2 * (L 1).val + (L 0).val, task_lt L⟩ : Fin 32) r p)
  omega

/-- Contents of the result at an element of a chunk, as the chunk reads them. -/
theorem oChunk_apply (d : Dev nD) (L : grid0.Coords) (r : Fin 4) (g : Buf (Elt F) (oLoc d)) (y : S128x128.Idx) :
    g ((oChunkK L r).view.emb y) = (oChunkK L r).view.read (Elt F) g y := rfl

/-- The table row a gather reads for row `p` of its destination, when the offsets are the list `idx`: the row word `p` names. -/
theorem gather_idx (idx : S128.Idx → Elt F .i32) (hn : S128.numel = S128x128.size gathers_S100000x128_S128x128.axis')
    (hin : ∀ x, (idx x).toNat < S100000x128.size gathers_S100000x128_S128x128.axis) (p q : Fin 128) :
    (gathers_S100000x128_S128x128.idx (SparseCore.rows idx hn hin) (ix2 p q) : S100000x128.Idx)
      = ix2 (⟨(idx (ix1 p)).toNat, hin _⟩ : Fin 100000) q := by
  funext a
  apply Fin.ext
  match a with
  | ⟨0, _⟩ =>
    have e1 := congrArg Fin.val (Shape.Gathers.idx_axis gathers_S100000x128_S128x128 (SparseCore.rows idx hn hin) (ix2 p q))
    refine e1.trans ?_
    show (idx (S128.rowMajor.symm ((p : Fin 128).cast hn.symm))).toNat = (idx (ix1 p)).toNat
    rw [rowMajor_symm_ix1 _ p.isLt]
    rfl
  | ⟨1, _⟩ => exact Shape.Gathers.idx_of_ne gathers_S100000x128_S128x128 _ (ix2 p q) 1 (by decide)

/-- THE VALUE: on its own elements, chunk r of the task's rows of the result ends at the gathered rows. -/
theorem landed_chunk (d : Dev nD) (L : grid0.Coords) (r : Fin 4) (oW : Fin 2 → ℕ) (hW : ∀ a, oW a + S1x128.size a ≤ S4x128.size a) (hW0 : oW 0 = r.val) (hW1 : oW 1 = 0)
    (oR : Fin 2 → ℕ) (hR : ∀ a, oR a + S128x128.size a ≤ S512x128.size a)
    (ft : Buf (Elt F) (tLoc d)) (fw : Buf (Elt F) (wLoc d)) (fo : Buf (Elt F) (oLoc d))
    (fsw : Buf (Elt F) ((V d (cV L) (jV L)).loc cc0_scratch0)) (fsr : Buf (Elt F) ((V d (cV L) (jV L)).loc cc0_scratch1))
    (hw : ∀ i, (fw i).toNat < 100000)
    (hn : S128.numel = S128x128.size gathers_S100000x128_S128x128.axis')
    (hin : ∀ x, ((sWg oW hW).view.read (Elt F) (View.write (Elt F) (sW : Memref sig .scVector .vmem S4x128 .i32).view fsw (ReadAs.same.apply ((wRowK L).view.read (Elt F) fw)) Finset.univ) x).toNat < S100000x128.size gathers_S100000x128_S128x128.axis)
    (x : S16384x128.Idx) (hx : x ∈ (oChunkK L r).view.set) :
    (oChunkK L r).view.writes (Elt F) fo [⟨Rect.whole S128x128, ReadAs.same.apply ((sRg oR hR).view.read (Elt F) ((sRg oR hR).view.writes (Elt F) fsr
        [⟨Rect.whole S128x128, SparseCore.gatherPayload gathers_S100000x128_S128x128 (tSl.view.read (Elt F) ft)
            (SparseCore.rows ((sWg oW hW).view.read (Elt F) (View.write (Elt F) (sW : Memref sig .scVector .vmem S4x128 .i32).view fsw (ReadAs.same.apply ((wRowK L).view.read (Elt F) fw)) Finset.univ)) hn hin)⟩]))⟩] x
      = Cert.Proof.Spec.rowsOfBlocks ft fw x := by
  obtain ⟨y, rfl⟩ := View.exists_emb_of_mem_set (oChunkK L r).view hx
  obtain ⟨p, q, rfl⟩ : ∃ p q : Fin 128, y = ix2 p q := ⟨y 0, y 1, eq_ix2 y⟩
  have hword := fun k => list_word d L r oW hW hW0 hW1 fw fsw k
  generalize (sWg oW hW).view.read (Elt F) (View.write (Elt F) (sW : Memref sig .scVector .vmem S4x128 .i32).view fsw (ReadAs.same.apply ((wRowK L).view.read (Elt F) fw)) Finset.univ) = idx at hin hword
  refine (oChunk_apply d L r _ (ix2 p q)).trans ?_
  rw [read_writes_whole]
  show (sRg oR hR).view.read (Elt F) ((sRg oR hR).view.writes (Elt F) fsr [⟨Rect.whole S128x128, _⟩]) (ix2 p q) = _
  rw [read_writes_whole]
  unfold SparseCore.gatherPayload
  rw [tSl_read, gather_idx idx hn hin p q, chunk_emb L r p q, rowsOfBlocks_chunk L r p q ft fw hw]
  refine congrArg ft (congrArg (fun t : Fin 100000 => ix2 t q) (Fin.ext ?_))
  show (idx (ix1 p)).toNat = _
  rw [hword p]

end Chunk

end Cert.Proof.KernelIdealRun

end
-- ==== Proof.KernelIdealTile.lean ====
/-
  One vector subcore's task of the idealized kernel: the rows of the table that its 512 index words name end in its 512
  rows of the result.
-/
import proofs.«216976_g54288386621730_cont_9to1_m_1068_22_alg».proof.Proof.KernelIdealShare
import proofs.«216976_g54288386621730_cont_9to1_m_1068_22_alg».proof.Proof.KernelIdealValue

noncomputable section

namespace Cert.Proof.KernelIdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-! ## The task -/

section Tile

variable (d : Dev nD) (L : grid0.Coords)

omit [FloatOps F] in
/-- A wait recorded at the task's own index is one the launch allows. -/
theorem waits_ins {W' W : Waits sig (HIx 1)} (sm : SemLoc sig) (h : ∀ p ∈ W', p ∈ W ∨ p.2 = none) :
    ∀ p ∈ insert (sm, (default : HIx 1)) W', p ∈ W ∨ p.2 = none :=
  fun p hp => (Finset.mem_insert.mp hp).elim (fun e => .inr (e ▸ rfl)) (h p)

set_option maxRecDepth 65536 in
/-- The task on vector subcore `(L 0, L 1)` of device `d`. It fetches its block of the index words; starts four gathers, one per
    list of 128 words, each on a semaphore of its own, each landing 128 rows of the table in a piece of its own of the row
    scratch; as each gather is waited for, its piece is copied out to its chunk of the result — the four copies on two
    semaphores, two copies each, nothing touching a piece or a chunk until all four are waited for —; then the four waits.
    Every word names a row of the table (`hw`), so no gather is abandoned; the chunks end at the rows the words name. -/
theorem tile_body [∀ e, Nonempty (Elt F e)] (hF : (K (F := F)).Facts) (ft : Buf (Elt F) (tLoc d)) (fw : Buf (Elt F) (wLoc d)) (fo : Buf (Elt F) (oLoc d))
    (hw : ∀ i, (fw i).toNat < 100000)
    (O : CellTallies nD τ sig (HIx 1)) (W : Waits sig (HIx 1)) (hO : ∀ g, O g none = 0) :
    iprop(levAts (K (F := F)).L (K (F := F)).lev ∗ emp ∗ tileRes d (L 0).val (L 1).val ft fw fo
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__gather_body L tV (Memref.isWhole_whole _) wV (Memref.isWhole_whole _) oV (Memref.isWhole_whole _)
            sW (Memref.isWhole_whole _) sR (Memref.isWhole_whole _) cc0_scratch2 cc0_scratch3 cc0_scratch4 cc0_scratch5 cc0_scratch6 cc0_scratch7 cc0_scoped0)
          fun _ => iprop(tileRes d (L 0).val (L 1).val ft fw (gathered d ft fw) ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), ownSems0_V, ownBufs_V]
  unfold tileRes
  iintro ⟨#Hlv, -, ⟨Ht, Hw, Ho0, Ho1, Ho2, Ho3⟩, ⟨⟨%fsw, Hsw⟩, ⟨%fsr, Hsr⟩, Hbufs⟩, ⟨Hs2, Hs3, Hs4, Hs5, Hs6, Hs7, Hs0, Hsems⟩, HO⟩
  rw [cc0__gather_body_eq_skeleton]; unfold cc0__gather_body_skel
  ihave Hmw := ((K (F := F)).mayWaits_none (thr := V d (cV L) (jV L)) hO) $$ Hlv
  -- the arrays as the task's memrefs address them
  ihave Ht' := (Entails.of_eq (pts_t (F := F) d (cV L) (jV L) _ ft).symm) $$ Ht
  ihave Hw' := (Entails.of_eq (pts_w (F := F) d L fw).symm) $$ Hw
  ihave Hc0 := (Entails.of_eq (pts_o' (F := F) d L 0 0 rfl fo).symm) $$ Ho0
  ihave Hc1 := (Entails.of_eq (pts_o' (F := F) d L 1 1 rfl fo).symm) $$ Ho1
  ihave Hc2 := (Entails.of_eq (pts_o' (F := F) d L 2 2 rfl fo).symm) $$ Ho2
  ihave Hc3 := (Entails.of_eq (pts_o' (F := F) d L 3 3 rfl fo).symm) $$ Ho3
  ihave Hsw' := (Entails.of_eq (pts_sW (F := F) d (cV L) (jV L) fsw).symm) $$ Hsw
  ihave Hsr' := (Entails.of_eq (pts_sR (F := F) d (cV L) (jV L) fsr).symm) $$ Hsr
  -- the table as four read tokens, one per gather in flight, and a remainder; the row scratch as its four pieces
  ihave Htk := ((Transfers.pointsTo_toks_split (Ix := HIx 1) (Name := ℕ) (U := UU) (Lvl := ℕ) (tokT (L 0).val (L 1).val) 4).trans
    (Entails.of_eq (by rw [bigSep_fin4]))) $$ Ht'
  icases Htk with ⟨Htr, Ht0, Ht1, Ht2, Ht3⟩
  ihave Hpc := (Entails.of_eq (sR_pieces (F := F) d (cV L) (jV L) fsr)) $$ Hsr'
  icases Hpc with ⟨Hr0, Hr1, Hr2, Hr3⟩
  -- the two write-back semaphores each complete two copies; every word of every list names a row
  have _p6 : Transfers.BatchOf (V d (cV L) (jV L)) (SemLoc.dma (sig := sig) cc0_scratch6.sem) 2 := trivial
  have _p7 : Transfers.BatchOf (V d (cV L) (jV L)) (SemLoc.dma (sig := sig) cc0_scratch7.sem) 2 := trivial
  have hin0 := list_inRange (F := F) d L 0 ![0, 0] inb_S4x128_S1x128_0_0 rfl rfl fw fsw hw
  have hin1 := list_inRange (F := F) d L 1 ![1, 0] inb_S4x128_S1x128_1_0 rfl rfl fw fsw hw
  have hin2 := list_inRange (F := F) d L 2 ![2, 0] inb_S4x128_S1x128_2_0 rfl rfl fw fsw hw
  have hin3 := list_inRange (F := F) d L 3 ![3, 0] inb_S4x128_S1x128_3_0 rfl rfl fw fsw hw
  sl_exec
  -- the index scratch, landed, as its four lists
  ihave Hls := (Entails.of_eq (sW_pieces (F := F) d (cV L) (jV L) _)) $$ Hsw'
  icases Hls with ⟨Hw0, Hw1, Hw2, Hw3⟩
  sl_exec
  sl_step
  -- the arrays back
  isplitl [Htr Ht0 Ht1 Ht2 Ht3 Hw' Hc0 Hc1 Hc2 Hc3]
  · isplitl [Htr Ht0 Ht1 Ht2 Ht3]
    · iapply (Entails.of_eq (pts_t (F := F) d (cV L) (jV L) _ ft))
      iapply ((Entails.of_eq (by rw [bigSep_fin4])).trans
        (Transfers.pointsTo_toks_join (Ix := HIx 1) (Name := ℕ) (U := UU) (Lvl := ℕ) (tokT (L 0).val (L 1).val) 4))
      isplitl [Htr]; · iexact Htr
      isplitl [Ht0]; · iexact Ht0
      isplitl [Ht1]; · iexact Ht1
      isplitl [Ht2]; · iexact Ht2
      iexact Ht3
    isplitl [Hw']; · iapply (Entails.of_eq (pts_w (F := F) d L fw)); iexact Hw'
    isplitl [Hc0]
    · iapply (Entails.of_eq ((pointsTo_congr (fun x hx => landed_chunk (F := F) d L 0 ![0, 0] inb_S4x128_S1x128_0_0 rfl rfl ![0, 0] inb_S512x128_S128x128_0_0 ft fw fo fsw fsr hw rfl hin0 x hx)).trans (pts_o' (F := F) d L 0 0 rfl _)))
      iexact Hc0
    isplitl [Hc1]
    · iapply (Entails.of_eq ((pointsTo_congr (fun x hx => landed_chunk (F := F) d L 1 ![1, 0] inb_S4x128_S1x128_1_0 rfl rfl ![128, 0] inb_S512x128_S128x128_128_0 ft fw fo fsw fsr hw rfl hin1 x hx)).trans (pts_o' (F := F) d L 1 1 rfl _)))
      iexact Hc1
    isplitl [Hc2]
    · iapply (Entails.of_eq ((pointsTo_congr (fun x hx => landed_chunk (F := F) d L 2 ![2, 0] inb_S4x128_S1x128_2_0 rfl rfl ![256, 0] inb_S512x128_S128x128_256_0 ft fw fo fsw fsr hw rfl hin2 x hx)).trans (pts_o' (F := F) d L 2 2 rfl _)))
      iexact Hc2
    · iapply (Entails.of_eq ((pointsTo_congr (fun x hx => landed_chunk (F := F) d L 3 ![3, 0] inb_S4x128_S1x128_3_0 rfl rfl ![384, 0] inb_S512x128_S128x128_384_0 ft fw fo fsw fsr hw rfl hin3 x hx)).trans (pts_o' (F := F) d L 3 3 rfl _)))
      iexact Hc3
  -- the scratches back
  isplitl [Hw0 Hw1 Hw2 Hw3 Hr0 Hr1 Hr2 Hr3 Hbufs]
  · isplitl [Hw0 Hw1 Hw2 Hw3]
    · iexists _
      iapply (Entails.of_eq ((sW_pieces (F := F) d (cV L) (jV L) _).symm.trans (pts_sW (F := F) d (cV L) (jV L) _)))
      isplitl [Hw0]; · iexact Hw0
      isplitl [Hw1]; · iexact Hw1
      isplitl [Hw2]; · iexact Hw2
      iexact Hw3
    isplitl [Hr0 Hr1 Hr2 Hr3]
    · iapply (sR_rejoin (F := F) d (cV L) (jV L) _ _ _ _)
      isplitl [Hr0]; · iexact Hr0
      isplitl [Hr1]; · iexact Hr1
      isplitl [Hr2]; · iexact Hr2
      iexact Hr3
    iexact Hbufs
  -- the semaphores back at zero
  isplitl [Hs2 Hs3 Hs4 Hs5 Hs6 Hs7 Hs0 Hsems]
  · isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs0]; · iexact Hs0
    iexact Hsems
  iexists _; isplitr
  rotate_left
  · iexact HO
  · ipureintro
    iterate 9 refine waits_ins _ ?_
    exact fun p hp => .inl hp

end Tile

end Cert.Proof.KernelIdealRun

end
-- ==== Proof.KernelIdealLaunch.lean ====
/-
  The idealized kernel's run: @main on the TensorCore reshapes the index list into 32 blocks of 4 lists of 128 words and
  starts the gather on both SparseCores; each of the 32 vector subcores copies the 512 table rows its block names to its
  512 rows of the result. Every weakly fair execution ends, nothing faults, the table and the index list end as they began,
  and the result ends at the rows the index list names.
-/
import proofs.«216976_g54288386621730_cont_9to1_m_1068_22_alg».proof.Proof.KernelIdealTile
import Idealize.ShloMosaic.Lib.Pipeline.Value

noncomputable section

namespace Cert.Proof.KernelIdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ) (ρ : Dev nD → PrngReg)

/-- The index list as @main receives it. -/
abbrev aLoc (d : Dev nD) : Loc nD τ sig := (SparseCore.T d).loc main_arg1

variable [FloatOps F]

/-! ## @main's reshape -/

abbrev t' : DevRef τ sig := Proc.devRef .tc (main_arg0 : Ref sig .tc)
abbrev a' : DevRef τ sig := Proc.devRef .tc (main_arg1 : Ref sig .tc)
abbrev w' : DevRef τ sig := Proc.devRef .tc (main_v0 : Ref sig .tc)
abbrev o' : DevRef τ sig := Proc.devRef .tc (main_v1 : Ref sig .tc)
abbrev opR : HloOp τ sig (Elt F) := StableHlo.reshape main_arg1 main_v0 rfl shapeCasts_S16384_S32x4x128

/-- The TensorCore's four arrays, all unscoped. -/
abbrev S4 : Finset (DevRef τ sig) := {t', a', w', o'}

/-- The launch valuation. -/
def V0 (d : Dev nD) : Valuation τ sig (Elt F) := fun b => m (d, b)

/-- The index words as the kernel receives them: the list cut, in row-major order, into 32 blocks of 4 lists of 128. -/
def W0 (d : Dev nD) : Buf (Elt F) (wLoc d) := (opR (F := F)).result (V0 m d) w'

theorem W0_apply (d : Dev nD) (a : Fin 32) (b : Fin 4) (c : Fin 128) :
    W0 m d (ix3 a b c) = m (aLoc d) (ix1 (⟨512 * a.val + 128 * b.val + c.val, by omega⟩ : Fin 16384)) := by
  unfold W0
  rw [StableHlo.reshape_result]
  refine shapeCast_apply _ _ _ _ ?_
  show (S16384.rowMajor (ix1 (⟨512 * a.val + 128 * b.val + c.val, by omega⟩ : Fin 16384))).val = (S32x4x128.rowMajor (ix3 a b c)).val
  rw [Shape.rowMajor_val_one, Shape.rowMajor_val_three]
  show 512 * a.val + 128 * b.val + c.val = (a.val * 4 + b.val) * 128 + c.val
  omega

/-- When every word of the list names a row, so does every word of the blocks. -/
theorem W0_inRange (d : Dev nD) (h : Cert.Proof.Spec.InRange (m (aLoc d))) : ∀ i, (W0 m d i).toNat < 100000 := by
  intro i
  obtain ⟨a, b, c, rfl⟩ : ∃ (a : Fin 32) (b : Fin 4) (c : Fin 128), i = ix3 a b c := ⟨i 0, i 1, i 2, eq_ix3 i⟩
  rw [W0_apply]
  exact h _

/-- The rows the blocks name are the rows the list names. -/
theorem gathered_eq (d : Dev nD) :
    gathered d (m (tLoc d)) (W0 m d) = Cert.Proof.Spec.rowsOf (α := Elt F .f32) (m (tLoc d)) (m (aLoc d)) :=
  Cert.Proof.Spec.rowsOfBlocks_eq _ _ _ (fun a b c => W0_apply m d a b c)

/-! ## What the launch handshakes carry -/

/-- What one SparseCore is handed for the call: its read share of the table, and for each of its sixteen subcores the block
    of index words and the four chunks of the result that are that subcore's. -/
def coreRes (d : Dev nD) (cn : ℕ) (fo : Buf (Elt F) (oLoc d)) : sProp 𝕄 :=
  iprop((tLoc d ↦{tokC cn} m (tLoc d))
    ∗ bigSep Finset.univ fun s : Fin 16 =>
        iprop((wLoc d ↦[wSetN cn s.val]{fullShare} W0 m d)
          ∗ (oLoc d ↦[oSetN cn s.val 0]{fullShare} fo) ∗ (oLoc d ↦[oSetN cn s.val 1]{fullShare} fo)
          ∗ (oLoc d ↦[oSetN cn s.val 2]{fullShare} fo) ∗ (oLoc d ↦[oSetN cn s.val 3]{fullShare} fo)))

instance coreRes_storable (d : Dev nD) (cn : ℕ) (fo : Buf (Elt F) (oLoc d)) : BI.Storable (upEmb : UEmb _ 𝕄) (coreRes m d cn fo) := by
  unfold coreRes; infer_instance
instance tileRes_storable (d : Dev nD) (cn sn : ℕ) (ft : Buf (Elt F) (tLoc d)) (fw : Buf (Elt F) (wLoc d)) (fo : Buf (Elt F) (oLoc d)) :
    BI.Storable (upEmb : UEmb _ 𝕄) (tileRes d cn sn ft fw fo) := by
  unfold tileRes; infer_instance

/-- The call hands each SparseCore its share and takes it back with the result's chunks at the gathered rows; each task
    likewise. The kernel's own semaphores are the tasks' scoped ones: nothing of the launch's is consumed. -/
def P : (K (F := F)).Pay (nD := nD) (Val := Elt F) (Name := ℕ) (U := UU) where
  st := fun _ d c => coreRes m d c.val (m (oLoc d))
  dn := fun _ d c => coreRes m d c.val (gathered d (m (tLoc d)) (W0 m d))
  go := fun _ d c i => tileRes d c.val i.val (m (tLoc d)) (W0 m d) (m (oLoc d))
  td := fun _ d c i => tileRes d c.val i.val (m (tLoc d)) (W0 m d) (gathered d (m (tLoc d)) (W0 m d))
  x := fun _ _ => iprop(emp)

instance P_storable : (P (F := F) m).IsStorable where
  st _ d c := by unfold P; infer_instance
  dn _ d c := by unfold P; infer_instance
  go _ d c i := by unfold P; infer_instance
  td _ d c i := by unfold P; infer_instance

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__gather_body (coordsV c s)
          tV (Memref.isWhole_whole _) wV (Memref.isWhole_whole _) oV (Memref.isWhole_whole _)
          sW (Memref.isWhole_whole _) sR (Memref.isWhole_whole _)
          cc0_scratch2 cc0_scratch3 cc0_scratch4 cc0_scratch5 cc0_scratch6 cc0_scratch7 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every task of the call, from its share to its share with its chunks gathered. -/
theorem tileObl [∀ e, Nonempty (Elt F e)] (hF : (K (F := F)).Facts) (hpre : ∀ d, Cert.Proof.Spec.InRange (m (aLoc d))) :
    (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) hF (m (tLoc d)) (W0 m d) (m (oLoc d)) (W0_inRange m d (hpre d)) O W hO).trans
    (wp_mono frame _ _ fun _ => obl_post)

omit [FloatOps F] in
theorem bigSep_tasks (Φ : Fin 16 → sProp 𝕄) :
    (bigSep Finset.univ fun i : Fin ((K (F := F)).nSub 0) => Φ i) = bigSep Finset.univ Φ := rfl

omit [FloatOps F] in
/-- Sixteen tasks' shares are their sixteen read shares of the table and the rest. -/
theorem tiles_eq (d : Dev nD) (cn : ℕ) (ft : Buf (Elt F) (tLoc d)) (fw : Buf (Elt F) (wLoc d)) (fo : Buf (Elt F) (oLoc d)) :
    (bigSep Finset.univ fun i : Fin 16 => tileRes d cn i.val ft fw fo)
      = iprop((bigSep Finset.univ fun i : Fin 16 => tLoc d ↦{tokT cn i.val} ft)
          ∗ bigSep Finset.univ fun s : Fin 16 =>
              iprop((wLoc d ↦[wSetN cn s.val]{fullShare} fw)
                ∗ (oLoc d ↦[oSetN cn s.val 0]{fullShare} fo) ∗ (oLoc d ↦[oSetN cn s.val 1]{fullShare} fo)
                ∗ (oLoc d ↦[oSetN cn s.val 2]{fullShare} fo) ∗ (oLoc d ↦[oSetN cn s.val 3]{fullShare} fo))) := by
  unfold tileRes
  exact bigSep_sep' _ _ _

/-- A SparseCore's share is its sixteen tasks' shares: its read share of the table split again, one piece per task. -/
theorem vecSplit : (K (F := F)).VecSplit' (P m) 0 := by
  intro d c
  show coreRes m d c.val (m (oLoc d)) ⊢ |={Set.univ}=> iprop(
      (bigSep Finset.univ fun i : Fin 16 => tileRes d c.val i.val (m (tLoc d)) (W0 m d) (m (oLoc d)))
      ∗ ((bigSep Finset.univ fun i : Fin 16 => tileRes d c.val i.val (m (tLoc d)) (W0 m d) (gathered d (m (tLoc d)) (W0 m d)))
          -∗ coreRes m d c.val (gathered d (m (tLoc d)) (W0 m d))))
  rw [tiles_eq, tiles_eq]
  unfold coreRes
  iintro ⟨Ht, Hrest⟩
  ihave Htk := (Transfers.pointsTo_toks_split (Ix := HIx 1) (Name := ℕ) (U := UU) (Lvl := ℕ) (tokC c.val) 16) $$ Ht
  icases Htk with ⟨Htr, Htoks⟩
  imodintro
  isplitl [Htoks Hrest]
  · isplitl [Htoks]; · iexact Htoks
    iexact Hrest
  iintro ⟨Htoks, Hrest⟩
  isplitl [Htr Htoks]
  · iapply (Transfers.pointsTo_toks_join (Ix := HIx 1) (Name := ℕ) (U := UU) (Lvl := ℕ) (tokC c.val) 16)
    isplitl [Htr]; · iexact Htr
    iexact Htoks
  iexact Hrest

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The arrays whole are the SparseCores' shares -/

omit [FloatOps F] in
theorem w_key_lt (x : S32x4x128.Idx) : (x 0).val % 2 < 2 ∧ (x 0).val / 2 < 16 := by
  have h : (x 0).val < 32 := (x 0).isLt
  omega
omit [FloatOps F] in
theorem o_key_lt (x : S16384x128.Idx) : (x 0).val / 128 / 4 % 2 < 2 ∧ (x 0).val / 128 / 8 < 16 ∧ (x 0).val / 128 % 4 < 4 := by
  have h : (x 0).val < 16384 := (x 0).isLt
  omega

omit [FloatOps F] in
/-- The index words: block `2·s + c` to subcore `s` of SparseCore `c`. -/
theorem w_split (d : Dev nD) (f : Buf (Elt F) (wLoc d)) :
    (wLoc d ↦{fullShare} f : sProp 𝕄)
      = bigSep Finset.univ fun c : Fin 2 => bigSep Finset.univ fun s : Fin 16 => wLoc d ↦[wSetN c.val s.val]{fullShare} f := by
  have hK : ∀ (x : S32x4x128.Idx) (t : Fin 2 × Fin 16),
      x ∈ wSetN t.1.val t.2.val ↔ ((⟨(x 0).val % 2, (w_key_lt x).1⟩, ⟨(x 0).val / 2, (w_key_lt x).2⟩) : Fin 2 × Fin 16) = t := by
    intro x t
    have h1 := t.1.isLt; have h2 := t.2.isLt
    simp only [wSetN, Finset.mem_filter, Finset.mem_univ, true_and, Prod.ext_iff, Fin.ext_iff]
    omega
  rw [Cert.Lib.Pieces.pointsTo_fibres (ℓ := wLoc d) (fun t : Fin 2 × Fin 16 => wSetN t.1.val t.2.val) _ hK, bigSep_univ_prod]

omit [FloatOps F] in
/-- The result: chunk `8·s + 4·c + r` of 128 rows is chunk `r` of subcore `s` of SparseCore `c`. -/
theorem o_split (d : Dev nD) (f : Buf (Elt F) (oLoc d)) :
    (oLoc d ↦{fullShare} f : sProp 𝕄)
      = bigSep Finset.univ fun c : Fin 2 => bigSep Finset.univ fun s : Fin 16 =>
          iprop((oLoc d ↦[oSetN c.val s.val 0]{fullShare} f) ∗ (oLoc d ↦[oSetN c.val s.val 1]{fullShare} f)
            ∗ (oLoc d ↦[oSetN c.val s.val 2]{fullShare} f) ∗ (oLoc d ↦[oSetN c.val s.val 3]{fullShare} f)) := by
  have hK : ∀ (x : S16384x128.Idx) (t : Fin 2 × Fin 16 × Fin 4),
      x ∈ oSetN t.1.val t.2.1.val t.2.2.val
        ↔ ((⟨(x 0).val / 128 / 4 % 2, (o_key_lt x).1⟩, ⟨(x 0).val / 128 / 8, (o_key_lt x).2.1⟩, ⟨(x 0).val / 128 % 4, (o_key_lt x).2.2⟩) : Fin 2 × Fin 16 × Fin 4) = t := by
    intro x t
    have h1 := t.1.isLt; have h2 := t.2.1.isLt; have h3 := t.2.2.isLt
    simp only [oSetN, Finset.mem_filter, Finset.mem_univ, true_and, Prod.ext_iff, Fin.ext_iff]
    omega
  rw [Cert.Lib.Pieces.pointsTo_fibres (ℓ := oLoc d) (fun t : Fin 2 × Fin 16 × Fin 4 => oSetN t.1.val t.2.1.val t.2.2.val) _ hK, bigSep_univ_prod]
  refine bigSep_congr fun c _ => ?_
  rw [bigSep_univ_prod]
  refine bigSep_congr fun s _ => ?_
  rw [bigSep_fin4]
  rfl

/-- The two SparseCores' shares are a read share of the table each, the index words whole and the result whole. -/
theorem shares_eq (d : Dev nD) (fo : Buf (Elt F) (oLoc d)) :
    (bigSep Finset.univ fun c : Fin 2 => coreRes m d c.val fo)
      = iprop((bigSep Finset.univ fun c : Fin 2 => tLoc d ↦{tokC c.val} m (tLoc d)) ∗ (wLoc d ↦{fullShare} W0 m d) ∗ (oLoc d ↦{fullShare} fo)) := by
  unfold coreRes
  rw [w_split, o_split]
  simp only [bigSep_sep']

/-! ## @main on the TensorCore -/

/-- The result as the run leaves it. -/
abbrev G (d : Dev nD) : Buf (Elt F) (oLoc d) := gathered d (m (tLoc d)) (W0 m d)

omit [FloatOps F] in
theorem held_S4 (d : Dev nD) (W : Valuation τ sig (Elt F)) :
    (held (T d) S4 W : sProp 𝕄) = iprop((tLoc d ↦{fullShare} W t') ∗ (aLoc d ↦{fullShare} W a') ∗ (wLoc d ↦{fullShare} W w') ∗ (oLoc d ↦{fullShare} W o')) := by
  unfold held S4
  rw [SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((tLoc d ↦{fullShare} W main_arg0) ∗ (aLoc d ↦{fullShare} W main_arg1) ∗ (wLoc d ↦{fullShare} W main_v0) ∗ (oLoc d ↦{fullShare} W main_v1)) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

theorem unscoped_held (d : Dev nD) : (unscopedBufs d (fun b => m ((SparseCore.T d).loc b)) : sProp 𝕄) = held (T d) S4 (V0 m d) := by
  rw [unscopedBufs_eq, held_S4]; rfl

theorem hR : (opR (F := F)).bufs ⊆ S4 := show ({a', w'} : Finset (DevRef τ sig)) ⊆ S4 by decide

/-- After the reshape: the table, the list and the result as they were, the index words cut into blocks. -/
theorem held_R (d : Dev nD) :
    (held (T d) S4 ((opR (F := F)).result (V0 m d)) : sProp 𝕄)
      = iprop((tLoc d ↦{fullShare} m (tLoc d)) ∗ (aLoc d ↦{fullShare} m (aLoc d)) ∗ (wLoc d ↦{fullShare} W0 m d) ∗ (oLoc d ↦{fullShare} m (oLoc d))) := by
  rw [held_S4, (opR (F := F)).result_of_not_mem (V0 m d) (b := t') (show t' ∉ ({w'} : Finset (DevRef τ sig)) by decide),
    (opR (F := F)).result_of_not_mem (V0 m d) (b := a') (show a' ∉ ({w'} : Finset (DevRef τ sig)) by decide),
    (opR (F := F)).result_of_not_mem (V0 m d) (b := o') (show o' ∉ ({w'} : Finset (DevRef τ sig)) by decide)]
  rfl

theorem st0_eq (d : Dev nD) :
    (bigSep Finset.univ fun c : Fin ((K (F := F)).nCore 0) => (P m).st 0 d c)
      = iprop((bigSep Finset.univ fun c : Fin 2 => tLoc d ↦{tokC c.val} m (tLoc d)) ∗ (wLoc d ↦{fullShare} W0 m d) ∗ (oLoc d ↦{fullShare} m (oLoc d))) :=
  shares_eq m d (m (oLoc d))
theorem dn0_eq (d : Dev nD) :
    (bigSep Finset.univ fun c : Fin ((K (F := F)).nCore 0) => (P m).dn 0 d c)
      = iprop((bigSep Finset.univ fun c : Fin 2 => tLoc d ↦{tokC c.val} m (tLoc d)) ∗ (wLoc d ↦{fullShare} W0 m d) ∗ (oLoc d ↦{fullShare} G m d)) :=
  shares_eq m d (G m d)

/-- What @main leaves the claim: the table and the list at their launch contents, the result at the gathered rows. -/
abbrev FIN (d : Dev nD) : sProp 𝕄 :=
  iprop((tLoc d ↦{fullShare} m (tLoc d)) ∗ (aLoc d ↦{fullShare} m (aLoc d)) ∗ (oLoc d ↦{fullShare} G m d))

/-- @main on device `d`'s TensorCore: the reshape, then the call — a read share of the table to each SparseCore and the
    remainder kept, the index words and the result handed over whole —; the list is never handed over. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  iapply (wp_hlo_within 𝒱 (SparseCore.T d) none Set.univ (op := opR) (S := S4) hR (V := V0 m d)) $$ [Hb Hheld]
  · isplitl [Hb]; · iexact Hb
    iexact Hheld
  iintro ⟨Hb, Hheld⟩
  ihave Hh := (Entails.of_eq (held_R (F := F) m d)) $$ Hheld
  icases Hh with ⟨Ht, Ha, Hw, Ho⟩
  rw [wp_ret]; imodintro
  ihave Htk := (Transfers.pointsTo_toks_split (Ix := HIx 1) (Name := ℕ) (U := UU) (Lvl := ℕ) fullShare 2) $$ Ht
  icases Htk with ⟨Htr, Htoks⟩
  iapply ((K (F := F)).wp_run (D (F := F)) 𝒱 (EH := EH) (P := P m) κ d 0) $$ [Hst Htoks Hw Ho Htr Ha]
  isplitr; · iexact Hctx
  isplitl [Hst]; · iexact Hst
  isplitl [Htoks Hw Ho]
  · rw [st0_eq]
    isplitl [Htoks]; · iexact Htoks
    isplitl [Hw]; · iexact Hw
    iexact Ho
  iintro ⟨Hst, Hdn⟩
  ihave Hdn' := (Entails.of_eq (dn0_eq m d)) $$ Hdn
  icases Hdn' with ⟨Htoks, -, Ho⟩
  imodintro
  isplitl [Hst]; · iexact Hst
  isplitl [Htr Htoks]
  · iapply (Transfers.pointsTo_toks_join (Ix := HIx 1) (Name := ℕ) (U := UU) (Lvl := ℕ) fullShare 2)
    isplitl [Htr]; · iexact Htr
    iexact Htoks
  isplitl [Ha]; · iexact Ha
  iexact Ho

def fq (d : Dev nD) (s' : Phys nD τ sig (Elt F)) : Prop :=
  s'.mem.mem (oLoc d) = G m d ∧ s'.mem.mem (tLoc d) = m (tLoc d) ∧ s'.mem.mem (aLoc d) = m (aLoc d)

theorem hfin (d : Dev nD) (s' : Phys nD τ sig (Elt F)) : iprop(FIN m d ∗ SI s') ⊢ (⌜fq m d s'⌝ : sProp 𝕄) := by
  iintro ⟨⟨Ht, Ha, Ho⟩, HSI⟩
  ihave H := (persistent_entails_right (SI_pointsTo_agree (st := s') (ℓ := tLoc d) (I := Finset.univ) (q := fullShare) (f := m (tLoc d)))) $$ [HSI Ht]
  · isplitl [HSI] <;> iassumption
  icases H with ⟨%h1, HSI, -⟩
  ihave H := (persistent_entails_right (SI_pointsTo_agree (st := s') (ℓ := aLoc d) (I := Finset.univ) (q := fullShare) (f := m (aLoc d)))) $$ [HSI Ha]
  · isplitl [HSI] <;> iassumption
  icases H with ⟨%h2, HSI, -⟩
  ihave H := (SI_pointsTo_agree (st := s') (ℓ := oLoc d) (I := Finset.univ) (q := fullShare) (f := G m d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

def QC : PUnit × MemSt nD τ sig (Elt F) → Prop := fun r => ∀ c : Dev nD,
  r.2.mem (oLoc c) = Cert.Proof.Spec.rowsOf (α := Elt F .f32) (m (tLoc c)) (m (aLoc c)) ∧ r.2.mem (tLoc c) = m (tLoc c) ∧ r.2.mem (aLoc c) = m (aLoc c)

/-- From a memory whose index list names rows of the table only: every weakly fair execution of the device's threads ends,
    nothing faulting, with the result at the rows the list names and the table and the list unchanged. -/
theorem run_main [∀ e, Nonempty (Elt F e)] (hpre : ∀ d, Cert.Proof.Spec.InRange (m (aLoc d))) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) kfacts v₀
    (fun q hq => match q with | 0 => nomatch hq)
    (fun q _ => match q with | 0 => tileObl m kfacts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m)
    (fun _ h c => ⟨(h c).1.trans (gathered_eq m c), (h c).2⟩)

end Cert.Proof.KernelIdealRun

end
-- ==== Proof.RefPre.lean ====
/-
  The precondition read back. The input-domain predicate is the conjunction of two `all`s: every table entry is finite in
  absolute value, and every index word `v` satisfies `0 ≤ v` and `v ≤ 99999` read as a signed 32-bit word. From the
  predicate's value 1 only the second conjunct is used here: a signed word between 0 and 99999 has its top bit clear, so
  its unsigned reading is the same number, below 100000.
-/
import proofs.«216976_g54288386621730_cont_9to1_m_1068_22_alg».proof.Proof.Spec
import proofs.«216976_g54288386621730_cont_9to1_m_1068_22_alg».proof.Proof.Gen.Pre_input_domain
import Idealize.ShloMosaic.Lib.ReduceAll

noncomputable section

namespace Cert.Proof.RefSide

open Idealize.ShloMosaic Idealize.ShloMosaic.ValueIdx

/-- A rank-0 array has one index. -/
instance subsingleton_scalarIdx : Subsingleton Cert.Pre_input_domain.S_.Idx := ⟨fun a b => funext fun d => d.elim0⟩

/-- A 32-bit word that is between 0 and 99999 as a signed number is below 100000 as a natural number. -/
theorem toNat_lt_of_signed_range (v : BitVec 32)
    (e : IntOp.andi (IntOp.cmpi .sge v 0#32) (IntOp.cmpi .sle v 99999#32) = 1#1) : v.toNat < 100000 := by
  obtain ⟨e0, e1⟩ := IntOp.andi_eq_one.1 e
  rw [IntOp.cmpi_sge] at e0
  rw [IntOp.cmpi_sle] at e1
  simp only [BitVec.toInt_eq_toNat_cond, BitVec.toNat_ofNat, Nat.reducePow, Nat.reduceMod] at e0 e1
  omega

/-- The input-domain predicate holding gives every index word in range. Only its integer conjunct is read. -/
theorem inRange_of_pre {F : FTy → Type} [FloatOps F] (tab : FVec F Cert.Pre_input_domain.S100000x128 .f32)
    (ids : IVec Cert.Pre_input_domain.S16384 32)
    (h : Cert.Pre_input_domain.fn (F := F) tab ids = fun _ => 1#1) : Cert.Proof.Spec.InRange ids := by
  intro b
  have e := congrFun h ValueIdx.ix0
  dsimp only [Cert.Pre_input_domain.fn] at e
  have e9 := (IntOp.andi_eq_one.1 e).2
  have eb := Host.reduce_andi_all _ _ _ _ _ e9 (ix1 b)
  exact toNat_lt_of_signed_range _ eb

end Cert.Proof.RefSide

end
-- ==== Proof.RefRun.lean ====
/-
  The reference program as a straight line, and its run.

  The reference is `take(table, ids, axis = 0)`: its @main calls one function, which calls one more (a `where`). A call
  means the callee's body over the call's own buffers, so with both definitions unfolded @main is one chain of
  twenty-three host operations, `ops` below. Every weakly fair execution of such a chain terminates with each buffer at
  the fold of the operations' results over the launch contents; at the result buffer that fold is the composed term
  `refOut table ids`, and at the two argument buffers it is what was there, both by computation.

  `refOut` is cut into the pieces the mathematics reads one at a time: the index words with negative ones wrapped
  (`wrapped`), those as a column (`startIdx`), the per-row range mask (`inBounds`), and the masked gather.
-/
import proofs.«216976_g54288386621730_cont_9to1_m_1068_22_alg».proof.Proof.Gen.ReferenceIdeal
import Idealize.ShloMosaic.Lib.StableHlo.Run

noncomputable section

namespace Cert.Proof.RefSide

open Cert.ReferenceIdeal Cert.ReferenceIdeal.Gen Idealize.ShloMosaic Idealize.ShloMosaic.TcCoe Idealize.SL.Sem
  Idealize.ShloMosaic.StableHlo

variable {F : FTy → Type} [FloatOps F]

/-! ## The value -/

/-- The index words after `ids < 0 ? ids + 100000 : ids`. -/
def wrapped (ids : IVec S16384 32) : IVec S16384 32 :=
  select (cmpi .slt ids (broadcastInDim S16384 ![] bcast_S_S16384 (constantI S_ 32 0#32)))
    (addi ids (broadcastInDim S16384 ![] bcast_S_S16384 (constantI S_ 32 100000#32))) ids

/-- The wrapped words as a column: the gather's start indices. -/
def startIdx (ids : IVec S16384 32) : IVec S16384x1 32 :=
  broadcastInDim S16384x1 ![0] bcast_S16384_S16384x1_0 (wrapped ids)

/-- Per row, whether the start index lies in `[0, 99999]`: the two signed comparisons, and-ed, and-reduced along the
    column's unit axis. -/
def inBounds (ids : IVec S16384 32) : IVec S16384 1 :=
  Host.reduce IntOp.andi
    (andi (cmpi .sge (startIdx ids) (broadcastInDim S16384x1 ![] bcast_S_S16384x1 (constantI S_ 32 0#32)))
      (cmpi .sle (startIdx ids)
        (broadcastInDim S16384x1 ![0, 1] bcast_S1x1_S16384x1_0_1
          (broadcastInDim S1x1 ![1] bcast_S1_S1x1_1 (constantI S1 32 99999#32)))))
    (constantI S_ 1 1#1) reducesTo_S16384x1_S16384_d1 h_S_

/-- The reference's result as a function of its arguments: the gathered rows where the row's start index is in
    bounds, the fill value (a NaN pattern) elsewhere. -/
def refOut (tab : FVec F S100000x128 .f32) (ids : IVec S16384 32) : FVec F S16384x128 .f32 :=
  select (broadcastInDim S16384x128 ![0] bcast_S16384_S16384x128_0 (inBounds ids))
    (Host.gather gather_S100000x128_S16384x1_S16384x128_1_0_n_n_0_1_1128 tab (startIdx ids))
    (broadcastInDim S16384x128 ![] bcast_S_S16384x128 (constant S_ .f32 0x7FC00000#32))

/-! ## The straight line -/

/-- @main's operations in order, the two callees' listed at their call sites over the calls' buffer records. -/
abbrev ops : List (HloOp τ sig (Elt F)) :=
  [ TRef.nullary main_call0.c (constantI S_ 32 0#32),
    TRef.unary main_call0.c main_call0.v0 (broadcastInDim S16384 ![] bcast_S_S16384),
    TRef.binary (.of main_arg1) main_call0.v0 main_call0.v1 (cmpi .slt),
    TRef.nullary main_call0.c_0 (constantI S_ 32 100000#32),
    TRef.unary main_call0.c_0 main_call0.v2 (broadcastInDim S16384 ![] bcast_S_S16384),
    TRef.binary (.of main_arg1) main_call0.v2 main_call0.v3 addi,
    TRef.ternary main_call0.v1 main_call0.v3 (.of main_arg1) main_call0.call0.v0 select,
    TRef.unary main_call0.call0.v0 main_call0.v5 (broadcastInDim S16384x1 ![0] bcast_S16384_S16384x1_0),
    TRef.nullary main_call0.c_1 (constantI S1 32 99999#32),
    TRef.nullary main_call0.c_2 (constantI S_ 32 0#32),
    TRef.unary main_call0.c_2 main_call0.v6 (broadcastInDim S16384x1 ![] bcast_S_S16384x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S16384x1 ![0, 1] bcast_S1x1_S16384x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x1_S16384_d1 h_S_),
    TRef.binary (.of main_arg0) main_call0.v5 main_call0.v13 (fun x i => Host.gather gather_S100000x128_S16384x1_S16384x128_1_0_n_n_0_1_1128 x i),
    TRef.unary main_call0.v12 main_call0.v14 (broadcastInDim S16384x128 ![0] bcast_S16384_S16384x128_0),
    TRef.nullary main_call0.cst (constant S_ .f32 0x7FC00000#32),
    TRef.unary main_call0.cst main_call0.v15 (broadcastInDim S16384x128 ![] bcast_S_S16384x128),
    TRef.ternary main_call0.v14 main_call0.v13 main_call0.v15 main_call0.v16 select ]

set_option maxRecDepth 1024 in
/-- @main is that straight line: the two functions' definitions unfolded at their calls, sequencing reassociated. -/
theorem main_eq (c : Dev nD) : main (F := F) c = seq ops := by
  simp only [main, fn_take.body, fn_where.body, seq, bind_assoc, pure_bind]

attribute [local irreducible] Host.reduce Host.gather in
set_option maxRecDepth 8192 in
/-- The fold at the result buffer is `refOut` of the fold's start at the two argument buffers. The reduce and the gather
    are kept folded meanwhile: the equation never looks inside them. -/
theorem out_eq (V : Valuation τ sig (Elt F)) :
    after ops V (main_v0 : DevRef τ sig) = refOut (V (main_arg0 : DevRef τ sig)) (V (main_arg1 : DevRef τ sig)) := by
  after_results
  simp only [TRef.ofBuf, TRef.toBuf, cast_eq]
  rfl

theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

/-- For any float values, from any memory with zero counters: every weakly fair execution of @main terminates, and
    every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The same with the fold read at the three buffers the claim names: the result at `refOut` of the arguments'
    launch contents, the arguments unchanged. -/
theorem run_refOut (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v0)
          = refOut (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1) :=
  (θ_run defs _ _).mono (fun _ h c => ⟨(h c main_v0).trans (out_eq _), (h c main_arg0).trans (arg0_eq _),
      (h c main_arg1).trans (arg1_eq _)⟩) (run_main m ρ)

end Cert.Proof.RefSide

end
-- ==== Proof.LibRowScatter.lean ====
/-
  A row gather and a row scatter-add, read at an index.

  For a table `x` of `N` rows and `C` columns and a column `idx` of `M` integer words:

  * the gather of rows takes result row `e` from the operand row `idx[e]` read as a signed integer and clamped into
    `[0, N − 1]`: entry `(e, c)` of the result is `x (gatherRow idx e, c)`;
  * the scatter-add of rows adds update row `e` into the operand row `idx[e]` read as a signed integer and not
    clamped (an update whose row is outside `[0, N − 1]` is dropped): entry `(n, c)` of the result is
    `x (n, c) + ∑ e ∈ landsOn idx N n, upd (e, c)`, the sum over the update rows whose index is `n`.

  Neither the row `gatherRow idx e` nor the set `landsOn idx N n` depends on the number of columns or on the entries.
-/
import Idealize.ShloMosaic.Lib.ValueIdx
import Idealize.ShloMosaic.PureOps.Ideal.Laws
import Idealize.ShloMosaic.Lib.Pipeline.Value

noncomputable section

open scoped BigOperators

namespace Cert.Lib.RowScatter

open Idealize.ShloMosaic Idealize.ShloMosaic.ValueIdx

/-! ## The gather of rows -/

section Gather
variable {α : Type}

/-- The dimension numbers of a gather of whole rows: operand `[N, C]`, start indices `[M, 1]`, result `[M, C]`;
    the result's axis 1 is the offset axis, the operand's axis 0 is collapsed and is the one the start index names,
    the index vector lies along axis 1 of the start indices, and a slice is one row, `1 × C`. Their conditions `wf`
    are decided on literal shapes. -/
abbrev rowGatherDims (N M C : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- The operand row that result row `e` reads: the word `idx (e, 0)` as a signed integer, negative values taken to
    `0`, then cut to at most `N − 1`. It depends on neither the number of columns nor the entries. -/
def gatherRow (N : Nat) (hN : 0 < N) {M w : Nat} (idx : IVec ⟨2, ![M, 1]⟩ w) (e : Fin M) : Fin N :=
  ⟨min (idx (ix2 e (0 : Fin 1))).toInt.toNat (N - 1), by omega⟩

/-- On the row axis the operand index of result entry `(e, c)` is the clamped start index: no batching coordinate,
    and no offset coordinate on a collapsed axis. -/
theorem gather_operandIdx_zero {N M C w : Nat}
    (wf : GatherDims.WF ⟨2, ![N, C]⟩ ⟨2, ![M, 1]⟩ ⟨2, ![M, C]⟩ [1] [0] [] [0] [] 1 ![1, C])
    (idx : IVec ⟨2, ![M, 1]⟩ w) (e : Fin M) (c : Fin C) :
    ((rowGatherDims N M C wf).operandIdx (ix2 e c) idx 0).val = min (idx (ix2 e (0 : Fin 1))).toInt.toNat (N - 1) := by
  show (rowGatherDims N M C wf).start (ix2 e c) idx 0 + (rowGatherDims N M C wf).batchCoord (ix2 e c) 0
    + (rowGatherDims N M C wf).offCoord (ix2 e c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGatherDims N M C wf).startIndexMap from List.mem_singleton.mpr rfl)]
  have hsi : (rowGatherDims N M C wf).siIdx (ix2 e c) ⟨List.idxOf (0 : Fin 2) (rowGatherDims N M C wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- On the column axis the operand index of result entry `(e, c)` is `c`: the start is `0` on an axis the start
    index does not name, and the offset coordinate is the result's column. -/
theorem gather_operandIdx_one {N M C w : Nat}
    (wf : GatherDims.WF ⟨2, ![N, C]⟩ ⟨2, ![M, 1]⟩ ⟨2, ![M, C]⟩ [1] [0] [] [0] [] 1 ![1, C])
    (idx : IVec ⟨2, ![M, 1]⟩ w) (e : Fin M) (c : Fin C) :
    ((rowGatherDims N M C wf).operandIdx (ix2 e c) idx 1).val = c.val := by
  show (rowGatherDims N M C wf).start (ix2 e c) idx 1 + (rowGatherDims N M C wf).batchCoord (ix2 e c) 1
    + (rowGatherDims N M C wf).offCoord (ix2 e c) 1 = _
  rw [GatherDims.batchCoord_eq_zero _ _ _ List.not_mem_nil]
  have hs : (rowGatherDims N M C wf).start (ix2 e c) idx 1 = 0 := by
    unfold GatherDims.start
    rw [dif_neg (fun h => absurd (List.mem_singleton.mp h) (show ¬ ((1 : Fin 2) = 0) by decide))]
  rw [hs]
  simp only [Nat.add_zero, Nat.zero_add]
  unfold GatherDims.offCoord
  rw [dif_pos ((GatherDims.mem_sKept _ _).mpr
    ⟨fun h => absurd (List.mem_singleton.mp h) (show ¬ ((1 : Fin 2) = 0) by decide), List.not_mem_nil⟩)]
  rfl

/-- THE GATHER OF ROWS READ AT `(e, c)`: the operand at row `gatherRow N hN idx e` — the start index `idx (e, 0)` read
    signed and clamped into `[0, N − 1]` — and column `c`. -/
theorem gather_rows_apply {N M C w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (c : Fin C) :
    Host.gather (rowGatherDims N M C wf) x idx (ix2 e c) = x (ix2 (gatherRow N hN idx e) c) := by
  unfold Host.gather
  congr 1
  funext a
  match a with
  | ⟨0, _⟩ => exact Fin.ext (gather_operandIdx_zero wf idx e c)
  | ⟨1, _⟩ => exact Fin.ext (gather_operandIdx_one wf idx e c)

end Gather

/-! ## The scatter-add of rows -/

section Scatter

/-- The dimension numbers of a scatter of whole rows: operand `[N, C]`, scatter indices `[M, 1]`, updates `[M, C]`;
    the updates' axis 1 is the window axis, the operand's axis 0 is inserted and is the one the scatter index names,
    and the index vector lies along axis 1 of the scatter indices. Their conditions `wf` are decided on literal
    shapes. -/
abbrev rowScatterDims (N M C : Nat)
    (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- The update rows that land on operand row `n`: the rows `e` whose index word `idx (e, 0)`, read as a signed
    integer and not clamped, is `n`. It depends on neither the number of columns nor the entries. -/
def landsOn {M w : Nat} (idx : IVec ⟨2, ![M, 1]⟩ w) (N : Nat) (n : Fin N) : Finset (Fin M) :=
  Finset.univ.filter (fun e => (idx (ix2 e (0 : Fin 1))).toInt = (n.val : Int))

/-- An axis is among the kept axes exactly when it is not among the removed ones. -/
theorem mem_kept {s : Shape} (axes : List (Fin s.rank)) (a : Fin s.rank) : a ∈ s.kept axes ↔ a ∉ axes := by
  simp [Shape.kept, List.mem_filter, List.mem_finRange]

/-- An update index `j` lands at the operand index `i` exactly when, on every axis, the signed start plus the window
    coordinate is `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro h a
    split at h
    · rename_i hb
      have h' := Option.some.inj h
      have h2 : (d.start j idx a + (d.window j a : Int)).toNat = (i a).val := congrArg Fin.val (congrFun h' a)
      have := hb a
      omega
    · cases h
  · intro h
    have hb : ∀ a, 0 ≤ d.start j idx a + (d.window j a : Int) ∧ d.start j idx a + (d.window j a : Int) < s.size a := by
      intro a
      rw [h a]
      exact ⟨Int.natCast_nonneg _, by exact_mod_cast (i a).isLt⟩
    rw [dif_pos hb]
    congr 1
    funext a
    apply Fin.ext
    show (d.start j idx a + (d.window j a : Int)).toNat = (i a).val
    rw [h a]
    exact Int.toNat_natCast _

/-- On the row axis the start of update entry `(e, c)` is the index word `idx (e, 0)` read as a signed integer. -/
theorem scatter_start_zero {N M C w : Nat} (wf : ScatterDims.WF ⟨2, ![N, C]⟩ ⟨2, ![M, 1]⟩ ⟨2, ![M, C]⟩ [1] [0] [0] 1)
    (idx : IVec ⟨2, ![M, 1]⟩ w) (e : Fin M) (c : Fin C) :
    (rowScatterDims N M C wf).start (ix2 e c) idx 0 = (idx (ix2 e (0 : Fin 1))).toInt := by
  unfold ScatterDims.start
  rw [dif_pos (show (0 : Fin 2) ∈ (rowScatterDims N M C wf).scatterDimsToOperandDims from List.mem_singleton.mpr rfl)]
  have hsi : (rowScatterDims N M C wf).siIdx (ix2 e c)
      ⟨List.idxOf (0 : Fin 2) (rowScatterDims N M C wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis, which the scatter index does not name, the start is `0`. -/
theorem scatter_start_one {N M C w : Nat} (wf : ScatterDims.WF ⟨2, ![N, C]⟩ ⟨2, ![M, 1]⟩ ⟨2, ![M, C]⟩ [1] [0] [0] 1)
    (idx : IVec ⟨2, ![M, 1]⟩ w) (e : Fin M) (c : Fin C) :
    (rowScatterDims N M C wf).start (ix2 e c) idx 1 = 0 := by
  unfold ScatterDims.start
  rw [dif_neg (fun h => absurd (List.mem_singleton.mp h) (show ¬ ((1 : Fin 2) = 0) by decide))]

/-- On the row axis, an inserted one, the window coordinate is `0`. -/
theorem scatter_window_zero {N M C : Nat} (wf : ScatterDims.WF ⟨2, ![N, C]⟩ ⟨2, ![M, 1]⟩ ⟨2, ![M, C]⟩ [1] [0] [0] 1)
    (e : Fin M) (c : Fin C) :
    (rowScatterDims N M C wf).window (ix2 e c) 0 = 0 := by
  unfold ScatterDims.window
  rw [dif_neg (fun h => (mem_kept _ _).mp h (List.mem_singleton.mpr rfl))]

/-- On the column axis the window coordinate of update entry `(e, c)` is `c`. -/
theorem scatter_window_one {N M C : Nat} (wf : ScatterDims.WF ⟨2, ![N, C]⟩ ⟨2, ![M, 1]⟩ ⟨2, ![M, C]⟩ [1] [0] [0] 1)
    (e : Fin M) (c : Fin C) :
    (rowScatterDims N M C wf).window (ix2 e c) 1 = c.val := by
  unfold ScatterDims.window
  rw [dif_pos ((mem_kept _ _).mpr
    (fun h => absurd (List.mem_singleton.mp h) (show ¬ ((1 : Fin 2) = 0) by decide)))]
  rfl

/-- Update entry `(e, c')` lands at operand entry `(n, c)` exactly when the columns agree and the signed index word
    of row `e` is `n`. -/
theorem resultIdx?_rows {N M C w : Nat} (wf : ScatterDims.WF ⟨2, ![N, C]⟩ ⟨2, ![M, 1]⟩ ⟨2, ![M, C]⟩ [1] [0] [0] 1)
    (idx : IVec ⟨2, ![M, 1]⟩ w) (e : Fin M) (c' c : Fin C) (n : Fin N) :
    (rowScatterDims N M C wf).resultIdx? (ix2 e c') idx = some (ix2 n c)
      ↔ c' = c ∧ (idx (ix2 e (0 : Fin 1))).toInt = (n.val : Int) := by
  rw [resultIdx?_eq_some_iff]
  rw [Fin.forall_fin_two]
  rw [scatter_start_zero, scatter_window_zero, scatter_start_one, scatter_window_one]
  show ((idx (ix2 e (0 : Fin 1))).toInt + ((0 : Nat) : Int) = (n.val : Int)
    ∧ (0 : Int) + (c'.val : Int) = (c.val : Int)) ↔ _
  constructor
  · rintro ⟨h0, h1⟩
    exact ⟨Fin.ext (by omega), by omega⟩
  · rintro ⟨rfl, h⟩
    exact ⟨by omega, by omega⟩

/-- THE SCATTER-ADD OF ROWS READ AT `(n, c)`: the operand's entry plus the sum, over the update rows `e` whose signed
    index word is `n`, of the update's entry `(e, c)`. -/
theorem scatterAdd_rows_apply {N M C w : Nat}
    (wf : ScatterDims.WF ⟨2, ![N, C]⟩ ⟨2, ![M, 1]⟩ ⟨2, ![M, C]⟩ [1] [0] [0] 1)
    (x : FVec Ideal ⟨2, ![N, C]⟩ .f32) (idx : IVec ⟨2, ![M, 1]⟩ w) (upd : FVec Ideal ⟨2, ![M, C]⟩ .f32)
    (n : Fin N) (c : Fin C) :
    Host.scatterAdd (F := Ideal) (rowScatterDims N M C wf) x idx upd (ix2 n c)
      = x (ix2 n c) + ∑ e ∈ landsOn idx N n, upd (ix2 e c) := by
  unfold Host.scatterAdd
  rw [Ideal.hostScatterAdd_def]
  unfold Ideal.hostScatterAdd
  congr 1
  rw [Finset.sum_filter, sum_idx2]
  unfold landsOn
  rw [Finset.sum_filter]
  refine Finset.sum_congr rfl (fun e _ => ?_)
  simp only [resultIdx?_rows]
  by_cases hP : (idx (ix2 e (0 : Fin 1))).toInt = (n.val : Int)
  · simp [hP]
  · simp [hP]

end Scatter

end Cert.Lib.RowScatter

end
-- ==== Proof.RefValue.lean ====
/-
  The reference's value on a list of index words that all name rows.

  Let every word `v` of `ids` satisfy `v.toNat < 100000` (`InRange`). Such a word has its top bit clear, so read as a
  signed number it is the same number, between 0 and 99999. Then, piece by piece:

  * the wrap `v < 0 ? v + 100000 : v` returns `v`, since `v` is not negative;
  * the range mask `(0 ≤ v) and (v ≤ 99999)` is 1 at every row, and so is its and-reduction from 1 along the unit axis;
  * the gather reads, for result row `b`, the table row `min (max v 0) 99999` with `v` read signed, which is `v.toNat`;
  * the final select, on a mask that is 1 everywhere, returns the gathered rows; the fill value is never taken.

  So the result is `rowsOf table ids`, index by index.
-/
import proofs.«216976_g54288386621730_cont_9to1_m_1068_22_alg».proof.Proof.Spec
import proofs.«216976_g54288386621730_cont_9to1_m_1068_22_alg».proof.Proof.RefRun
import proofs.«216976_g54288386621730_cont_9to1_m_1068_22_alg».proof.Proof.LibRowScatter
import Idealize.ShloMosaic.Lib.ReduceAll
import Idealize.ShloMosaic.Lib.Pipeline.Value

noncomputable section

namespace Cert.Proof.RefSide

open Cert.ReferenceIdeal Cert.ReferenceIdeal.Gen Idealize.ShloMosaic Idealize.ShloMosaic.ValueIdx Cert.Proof.Spec

variable {F : FTy → Type} [FloatOps F]

/-! ## And-reduction of an array of ones -/

/-- A left fold by `and` from 1 over words that are all 1 is 1. -/
theorem foldl_andi_ones {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_ones f l fun n hn => h n (List.mem_cons_of_mem a hn)

/-- A reduce by `and`, from an initial value whose first element is 1, of an array that is 1 everywhere, is 1
    everywhere. -/
theorem reduce_andi_ones {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1)
    (j : t.Idx) : Host.reduce IntOp.andi x init h hu j = 1#1 := by
  rw [Host.reduce_eq_foldl, hinit]
  exact foldl_andi_ones x _ fun i _ => hx i

/-! ## The pieces on a list in range -/

/-- A word below 100000 reads the same signed and unsigned. -/
theorem toInt_eq_toNat_of_inRange {v : BitVec 32} (h : v.toNat < 100000) : v.toInt = (v.toNat : Int) :=
  BitVec.toInt_eq_toNat_of_lt (by omega)

/-- The wrap leaves a word that names a row as it is. -/
theorem wrapped_apply {ids : IVec S16384 32} (h : InRange ids) (b : Fin 16384) : wrapped ids (ix1 b) = ids (ix1 b) := by
  have hc : IntOp.cmpi .slt (ids (ix1 b)) 0#32 = 0#1 := by
    refine eq_zero_of_ne_one fun e => ?_
    rw [IntOp.cmpi_slt, toInt_eq_toNat_of_inRange (h b)] at e
    have : (0#32 : BitVec 32).toInt = 0 := by decide
    omega
  show Scalar.select (IntOp.cmpi .slt (ids (ix1 b)) 0#32) _ _ = _
  rw [hc, select_zero]

/-- The column of start indices at row `b` is the list's word `b`. -/
theorem startIdx_apply {ids : IVec S16384 32} (h : InRange ids) (b : Fin 16384) (k : Fin 1) :
    startIdx ids (ix2 b k) = ids (ix1 b) := by
  unfold startIdx
  rw [broadcastInDim_apply _ _ _ (ix2 b k) (ix1 b) (fun a => match a with | ⟨0, _⟩ => rfl)]
  exact wrapped_apply h b

/-- Every row's start index is in bounds. -/
theorem inBounds_apply {ids : IVec S16384 32} (h : InRange ids) (j : S16384.Idx) : inBounds ids j = 1#1 := by
  unfold inBounds
  refine reduce_andi_ones _ _ _ _ rfl (fun i => ?_) j
  obtain ⟨b, k, rfl⟩ : ∃ b k, i = ix2 b k := ⟨i 0, i 1, eq_ix2 i⟩
  show IntOp.andi (IntOp.cmpi .sge (startIdx ids (ix2 b k)) 0#32) (IntOp.cmpi .sle (startIdx ids (ix2 b k)) 99999#32) = 1#1
  rw [startIdx_apply h, IntOp.andi_eq_one, IntOp.cmpi_sge, IntOp.cmpi_sle, toInt_eq_toNat_of_inRange (h b)]
  have h0 : (0#32 : BitVec 32).toInt = 0 := by decide
  have h1 : (99999#32 : BitVec 32).toInt = 99999 := by decide
  have := h b
  omega

/-- The table row the gather reads for result row `b` is the row the list's word `b` names. -/
theorem gatherRow_startIdx {ids : IVec S16384 32} (h : InRange ids) (b : Fin 16384) :
    Cert.Lib.RowScatter.gatherRow 100000 (by decide) (startIdx ids) b = rowOf ids b := by
  apply Fin.ext
  show min (startIdx ids (ix2 b (0 : Fin 1))).toInt.toNat (100000 - 1) = min (ids (ix1 b)).toNat 99999
  rw [startIdx_apply h, toInt_eq_toNat_of_inRange (h b), Int.toNat_natCast]

/-! ## The value -/

/-- On a list in range the reference's result is the rows the list names. -/
theorem refOut_eq (tab : FVec F S100000x128 .f32) {ids : IVec S16384 32} (h : InRange ids) :
    refOut tab ids = rowsOf tab ids := by
  funext j
  obtain ⟨b, l, rfl⟩ : ∃ b l, j = ix2 b l := ⟨j 0, j 1, eq_ix2 j⟩
  unfold refOut
  rw [select_apply, broadcastInDim_apply _ _ (inBounds ids) (ix2 b l) (ix1 b) (fun a => match a with | ⟨0, _⟩ => rfl),
    inBounds_apply h, select_one, rowsOf_apply, ← gatherRow_startIdx h b]
  exact Cert.Lib.RowScatter.gather_rows_apply (by decide) gather_S100000x128_S16384x1_S16384x128_1_0_n_n_0_1_1128_wf tab (startIdx ids) b l

/-! ## The run -/

/-- From any memory whose index list is in range on every device, with zero counters: every weakly fair execution of
    the reference terminates with its result buffer at the rows the list names and its arguments unchanged. -/
theorem run (m' : (ℓ : Loc nD τ sig) → Buf (Elt Ideal) ℓ) (ρ' : Dev nD → PrngReg)
    (hin : ∀ c : Dev nD, Cert.Proof.Spec.InRange (m' ((c.tc : Thread nD τ).loc main_arg1))) :
    θ_run (defs (F := Ideal)) (onTc (τ := τ) (main (F := Ideal))) ⟨m', fun _ => 0, ρ'⟩ (fun r => ∀ c : Dev nD,
      r.2.mem ((c.tc : Thread nD τ).loc main_v0) = Cert.Proof.Spec.rowsOf (m' ((c.tc : Thread nD τ).loc main_arg0)) (m' ((c.tc : Thread nD τ).loc main_arg1))
      ∧ r.2.mem ((c.tc : Thread nD τ).loc main_arg0) = m' ((c.tc : Thread nD τ).loc main_arg0)
      ∧ r.2.mem ((c.tc : Thread nD τ).loc main_arg1) = m' ((c.tc : Thread nD τ).loc main_arg1)) :=
  (θ_run (defs (F := Ideal)) _ _).mono (fun _ hr c => ⟨((hr c).1).trans (refOut_eq _ (hin c)), (hr c).2⟩)
    (run_refOut (F := Ideal) m' ρ')

end Cert.Proof.RefSide

end
-- ==== Proof.lean ====
/-
  The certificate's five claims.

  Both programs compute one array: row `b` of the result is row `n_id[b]` of the table (`Cert.Proof.Spec.rowsOf`). The
  precondition says every float input is finite and every index word lies in `[0, 99999]`; only the second half is used: it
  makes every index name a row of the table (`RefSide.inRange_of_pre`).

  The kernel, at either instance: @main cuts the index list into 32 blocks of 4 lists of 128 words; the 32 vector subcores
  of the two SparseCores each gather the 512 rows their block names into a scratch and copy them to their 512 rows of the
  result. Because every word names a row no gather is abandoned, so every thread ends; the table and the list are only
  read; each chunk of the result ends at the rows its words name (`KernelRun.run_main`, `KernelIdealRun.run_main`: the
  frames are this run with the result dropped, the value claim its ideal instance).

  The reference: with every word in range the wrap of negative words, the range mask and the fill are all trivial, and what
  is left is the gather of rows (`RefSide.run`).

  The ideal pass rewrote nothing, so the idealization's conjunct is `True`.
-/
import proofs.«216976_g54288386621730_cont_9to1_m_1068_22_alg».proof.Defs
import proofs.«216976_g54288386621730_cont_9to1_m_1068_22_alg».proof.Proof.Gen.Kernel
import proofs.«216976_g54288386621730_cont_9to1_m_1068_22_alg».proof.Proof.Gen.Kernel.Skeleton
import proofs.«216976_g54288386621730_cont_9to1_m_1068_22_alg».proof.Proof.Gen.KernelIdeal
import proofs.«216976_g54288386621730_cont_9to1_m_1068_22_alg».proof.Proof.Gen.KernelIdeal.Skeleton
import proofs.«216976_g54288386621730_cont_9to1_m_1068_22_alg».proof.Proof.Gen.ReferenceIdeal
import proofs.«216976_g54288386621730_cont_9to1_m_1068_22_alg».proof.Proof.Gen.Pre_input_domain
import proofs.«216976_g54288386621730_cont_9to1_m_1068_22_alg».proof.Proof.KernelLaunch
import proofs.«216976_g54288386621730_cont_9to1_m_1068_22_alg».proof.Proof.KernelIdealLaunch
import proofs.«216976_g54288386621730_cont_9to1_m_1068_22_alg».proof.Proof.RefPre
import proofs.«216976_g54288386621730_cont_9to1_m_1068_22_alg».proof.Proof.RefValue
import Idealize.ShloMosaic.Adequacy
import Idealize.ShloMosaic.Init

noncomputable section

namespace Cert.Proof

open Idealize.ShloMosaic Idealize.SL.Sem

/-- The word-level kernel runs and leaves the table and the index list as they were. -/
theorem frame_Kernel : Cert.frame_Kernel := fun m ρ hpre =>
  (θ_run Cert.Kernel.defs _ _).mono (fun _ h c => (h c).2)
    (Cert.Proof.KernelRun.run_main (F := Bits) m ρ fun d => Cert.Proof.RefSide.inRange_of_pre _ _ (hpre d))

/-- So does the idealized kernel. -/
theorem frame_KernelIdeal : Cert.frame_KernelIdeal := fun m ρ hpre =>
  (θ_run Cert.KernelIdeal.defs _ _).mono (fun _ h c => (h c).2)
    (Cert.Proof.KernelIdealRun.run_main (F := Ideal) m ρ fun d => Cert.Proof.RefSide.inRange_of_pre _ _ (hpre d))

/-- So does the idealized reference. -/
theorem frame_ReferenceIdeal : Cert.frame_ReferenceIdeal := fun m ρ hpre =>
  (θ_run Cert.ReferenceIdeal.defs _ _).mono (fun _ h c => (h c).2)
    (Cert.Proof.RefSide.run m ρ fun c => Cert.Proof.RefSide.inRange_of_pre _ _ (hpre c))

/-- From memories that agree on the table and the list, the idealized kernel and the idealized reference both end with
    the result at the rows the list names. -/
theorem algebraic : Cert.algebraic_KernelIdeal_ReferenceIdeal := by
  intro m ρ m' ρ' hpre hagree
  refine ⟨fun c => Cert.Proof.Spec.rowsOf (α := Elt Ideal .f32)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.Proof.KernelIdealRun.run_main (F := Ideal) m ρ fun d => Cert.Proof.RefSide.inRange_of_pre _ _ (hpre d), ?_⟩
  have hin : ∀ c : Dev Cert.ReferenceIdeal.nD, Cert.Proof.Spec.InRange
      (m' ((c.tc : Thread Cert.ReferenceIdeal.nD Cert.ReferenceIdeal.τ).loc Cert.ReferenceIdeal.main_arg1)) := fun c => by
    rw [(hagree c).2]; exact Cert.Proof.RefSide.inRange_of_pre _ _ (hpre c)
  refine (θ_run Cert.ReferenceIdeal.defs _ _).mono (fun _ h c => ⟨?_, (h c).2⟩) (Cert.Proof.RefSide.run m' ρ' hin)
  rw [(h c).1, (hagree c).1, (hagree c).2]

theorem claim : Cert.Claim :=
  ⟨Cert.Kernel.Gen.facts, Cert.KernelIdeal.Gen.facts, Cert.ReferenceIdeal.Gen.facts, Cert.Pre_input_domain.Gen.facts,
    frame_Kernel, frame_KernelIdeal, frame_ReferenceIdeal, trivial, algebraic⟩

end Cert.Proof

end
